-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1024x16x64 : Shape := ⟨3, ![1024, 16, 64]⟩
abbrev S16x1024x64 : Shape := ⟨3, ![16, 1024, 64]⟩
abbrev S2x16x2048x64 : Shape := ⟨4, ![2, 16, 2048, 64]⟩
abbrev S256x1024 : Shape := ⟨2, ![256, 1024]⟩
abbrev S1x16x256x64 : Shape := ⟨4, ![1, 16, 256, 64]⟩
abbrev S256x3072 : Shape := ⟨2, ![256, 3072]⟩
abbrev S1x3072 : Shape := ⟨2, ![1, 3072]⟩
abbrev S256x16x64 : Shape := ⟨3, ![256, 16, 64]⟩
abbrev S16x256x64 : Shape := ⟨3, ![16, 256, 64]⟩
abbrev S32x2048x64 : Shape := ⟨3, ![32, 2048, 64]⟩
abbrev S1x1024x64 : Shape := ⟨3, ![1, 1024, 64]⟩
abbrev S1024x1 : Shape := ⟨2, ![1024, 1]⟩
abbrev S1024x64 : Shape := ⟨2, ![1024, 64]⟩
abbrev S1x1x512x64 : Shape := ⟨4, ![1, 1, 512, 64]⟩
abbrev S512x1024 : Shape := ⟨2, ![512, 1024]⟩
abbrev S512x64 : Shape := ⟨2, ![512, 64]⟩
abbrev S1x1024 : Shape := ⟨2, ![1, 1024]⟩

abbrev nBuf : Space → Nat
  | .hbm => 20
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S3072x1024, .bf16⟩
  | .hbm, ⟨7, _⟩ => ⟨S1024x16x64, .f32⟩
  | .hbm, ⟨8, _⟩ => ⟨S16x1024x64, .f32⟩
  | .hbm, ⟨9, _⟩ => ⟨S16x1024x64, .bf16⟩
  | .hbm, ⟨10, _⟩ => ⟨S2x16x2048x64, .bf16⟩
  | .hbm, ⟨11, _⟩ => ⟨S2x16x2048x64, .bf16⟩
  | .hbm, ⟨12, _⟩ => ⟨S2x16x2048x64, .bf16⟩
  | .hbm, ⟨13, _⟩ => ⟨S32x2048x64, .bf16⟩
  | .hbm, ⟨14, _⟩ => ⟨S32x2048x64, .bf16⟩
  | .hbm, ⟨15, _⟩ => ⟨S32x2048x64, .bf16⟩
  | .hbm, ⟨16, _⟩ => ⟨S32x2048x64, .bf16⟩
  | .hbm, ⟨17, _⟩ => ⟨S2x16x2048x64, .bf16⟩
  | .hbm, ⟨18, _⟩ => ⟨S4096x1024, .f32⟩
  | .hbm, ⟨19, _⟩ => ⟨S2x2048x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .bf16⟩
  | .local _ .vmem, ⟨3, _⟩ => ⟨S3072, .f32⟩
  | .local _ .vmem, ⟨4, _⟩ => ⟨S1x16x256x64, .bf16⟩
  | .local _ .vmem, ⟨5, _⟩ => ⟨S1x16x256x64, .bf16⟩
  | .local _ .vmem, ⟨6, _⟩ => ⟨S1x16x256x64, .bf16⟩
  | .local _ .vmem, ⟨7, _⟩ => ⟨S1x16x256x64, .bf16⟩
  | .local _ .vmem, ⟨8, _⟩ => ⟨S1x16x256x64, .bf16⟩
  | .local _ .vmem, ⟨9, _⟩ => ⟨S1x16x256x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1024x1, .f32⟩
  | .local _ .vmem, ⟨19, _⟩ => ⟨S1024x1, .f32⟩
  | .local _ .vmem, ⟨20, _⟩ => ⟨S1024x64, .f32⟩
  | .local _ .vmem, ⟨21, _⟩ => ⟨S1x1x512x64, .bf16⟩
  | .local _ .vmem, ⟨22, _⟩ => ⟨S1x1x512x64, .bf16⟩
  | .local _ .vmem, ⟨23, _⟩ => ⟨S1x1024x64, .bf16⟩
  | .local _ .vmem, ⟨24, _⟩ => ⟨S1x1024x64, .bf16⟩
  | .local _ .vmem, ⟨25, _⟩ => ⟨S1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![32, 2, 2], ![false, false, false]⟩

def k1_cond2 (i : grid1.Coords) : BitVec 1 :=
  let arg2 : BitVec 32 := BitVec.ofNat 32 (i 2).val
  let c1_i32 : BitVec 32 := 1#32
  let v42 : BitVec 1 := Scalar.cmpi .eq arg2 c1_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_11 : BitVec 32 := 0#32
  let v15 : BitVec 1 := Scalar.cmpi .ne v14 c0_i32_11
  v15

def cc2_transform_0 (i : grid2.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S2x2048x1024_S4096x1024 : S2x2048x1024.ShapeCasts S4096x1024
  bitsLt_bf16_f32 : FTy.bits .bf16 < FTy.bits .f32
  shapeCasts_S1024x1024_S1024x16x64 : S1024x1024.ShapeCasts S1024x16x64
  transposes_S1024x16x64_S16x1024x64_1_0_2 : S1024x16x64.Transposes [1, 0, 2] S16x1024x64
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  shapeCasts_S256x1024_S256x16x64 : S256x1024.ShapeCasts S256x16x64
  transposes_S256x16x64_p1_0_2_S16x256x64 : S256x16x64.Transposes [1, 0, 2] S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  shapeCasts_S16x256x64_S1x16x256x64 : S16x256x64.ShapeCasts S1x16x256x64
  packedbf16_S1x16x256x64_S1x16x256x64_0_0_0_0 : (Rect.unit (s := S1x16x256x64) ![0, 0, 0, 0] S1x16x256x64.size inb_S1x16x256x64_S1x16x256x64_0_0_0_0).PackedRows (EltTy.packing .bf16)
  shapeCasts_S2x16x2048x64_S32x2048x64 : S2x16x2048x64.ShapeCasts S32x2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S32x2048x64_S2x16x2048x64 : S32x2048x64.ShapeCasts S2x16x2048x64
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S4096x1024_S2x2048x1024 : S4096x1024.ShapeCasts S2x2048x1024
  dot_S256x1024_S3072x1024_S256x3072_1_1_0_0_n_n_wf : DotDims.WF S256x1024 S3072x1024 S256x3072 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S512x64_S1024x64_S512x1024_1_1_0_0_n_n_wf : DotDims.WF S512x64 S1024x64 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x64.size a ≤ S2x16x2048x64.size a
  hwx0_3 : ∀ i : grid0.Coords, EltTy.bits .bf16 = 32 ∨ (Rect.block (s := S2x16x2048x64) S1x16x256x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x64.size a ≤ S2x16x2048x64.size a
  hwx0_4 : ∀ i : grid0.Coords, EltTy.bits .bf16 = 32 ∨ (Rect.block (s := S2x16x2048x64) S1x16x256x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256x64.size a ≤ S2x16x2048x64.size a
  hwx0_5 : ∀ i : grid0.Coords, EltTy.bits .bf16 = 32 ∨ (Rect.block (s := S2x16x2048x64) S1x16x256x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S32x2048x64.size a
  hwx1_0 : ∀ i : grid1.Coords, EltTy.bits .bf16 = 32 ∨ (Rect.block (s := S32x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S32x2048x64.size a
  hwx1_1 : ∀ i : grid1.Coords, EltTy.bits .bf16 = 32 ∨ (Rect.block (s := S32x2048x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S32x2048x64.size a
  hwx1_2 : ∀ i : grid1.Coords, EltTy.bits .bf16 = 32 ∨ (Rect.block (s := S32x2048x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S32x2048x64.size a
  hwx1_3 : ∀ i : grid1.Coords, EltTy.bits .bf16 = 32 ∨ (Rect.block (s := S32x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x512x64.size a ≤ S2x16x2048x64.size a
  hwx2_0 : ∀ i : grid2.Coords, EltTy.bits .bf16 = 32 ∨ (Rect.block (s := S2x16x2048x64) S1x1x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x64.size a ≤ S16x1024x64.size a
  hwx2_1 : ∀ i : grid2.Coords, EltTy.bits .bf16 = 32 ∨ (Rect.block (s := S16x1024x64) S1x1024x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x16x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x16x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x16x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v10) S1x1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x3x16x64, .f32⟩
  | .hbm, ⟨10, _⟩ => ⟨S3x2x16x2048x64, .f32⟩
  | .hbm, ⟨11, _⟩ => ⟨S1x2x16x2048x64, .f32⟩
  | .hbm, ⟨12, _⟩ => ⟨S2x16x2048x64, .f32⟩
  | .hbm, ⟨13, _⟩ => ⟨S1x2x16x2048x64, .f32⟩
  | .hbm, ⟨14, _⟩ => ⟨S2x16x2048x64, .f32⟩
  | .hbm, ⟨15, _⟩ => ⟨S1x2x16x2048x64, .f32⟩
  | .hbm, ⟨16, _⟩ => ⟨S2x16x2048x64, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Region0.lean ====
import proofs.«179285_j61787399520573_2_alg».proof.Proof.Gen.KernelIdeal.Launch
import proofs.«179285_j61787399520573_2_alg».proof.Proof.Gen.KernelIdeal.Skeleton
import proofs.«179285_j61787399520573_2_alg».proof.Proof.Gen.KernelIdeal.Points
import Idealize.ShloMosaic.Lib.Pipeline.FrameBody
import Idealize.ShloMosaic.Lib.Ring
import Idealize.ShloMosaic.Lib.Tactic

/-! # Region 0: the QKV projection, its half of the frame at entry contents V

The first region runs over 16 grid points. At point t it reads a block of 256 rows of the
activations (window 0), the whole bf16 weight (window 1) and the whole bias (window 2), and
writes three blocks of shape [1,16,256,64] — the q, k and v rows of those 256 positions, already
split into the 16 heads (windows 3, 4, 5). Nothing is carried from one point to the next: every
output block is stored whole at every point, so what each staging buffer holds after the body
is a function of the three input blocks alone.

Everything is stated at a parameter V, the TensorCore's buffer contents when the region is
entered, and is generic in the float model F. -/

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the block of point t whether or not it was fetched there, for any
    proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight is fetched once; its block index never moves, so its buffer holds the whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias, likewise fetched once, is in its buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S256x1024 := Rect.unit (s := S256x1024) ![0, 0] S256x1024.size inb_S256x1024_S256x1024_0_0
abbrev r0_1 : Rect S3072x1024 := Rect.unit (s := S3072x1024) ![0, 0] S3072x1024.size inb_S3072x1024_S3072x1024_0_0
abbrev r0_2 : Rect S3072 := Rect.unit (s := S3072) ![0] S3072.size inb_S3072_S3072_0
abbrev r0_3 : Rect S1x16x256x64 := Rect.unit (s := S1x16x256x64) ![0, 0, 0, 0] S1x16x256x64.size inb_S1x16x256x64_S1x16x256x64_0_0_0_0

/-! ## What the body leaves in each output window's buffer -/

/-- The q block after the body, from the three input blocks: its one whole store as a piece. -/
def out0_3 (x0 : Vec F S256x1024 .f32) (x1 : Vec F S3072x1024 .bf16) (x2 : Vec F S3072 .f32) : Vec F S1x16x256x64 .bf16 :=
  View.canon [⟨r0_3, k0_pay2 (View.ld x0 r0_0) (View.ld x1 r0_1) (View.ld x2 r0_2)⟩]

/-- The k block after the body. -/
def out0_4 (x0 : Vec F S256x1024 .f32) (x1 : Vec F S3072x1024 .bf16) (x2 : Vec F S3072 .f32) : Vec F S1x16x256x64 .bf16 :=
  View.canon [⟨r0_3, k0_pay3 (View.ld x0 r0_0) (View.ld x1 r0_1) (View.ld x2 r0_2)⟩]

/-- The v block after the body. -/
def out0_5 (x0 : Vec F S256x1024 .f32) (x1 : Vec F S3072x1024 .bf16) (x2 : Vec F S3072 .f32) : Vec F S1x16x256x64 .bf16 :=
  View.canon [⟨r0_3, k0_pay4 (View.ld x0 r0_0) (View.ld x1 r0_1) (View.ld x2 r0_2)⟩]

/-- A whole store covers the buffer. -/
theorem cover0_3 (p0 : Vec F S1x16x256x64 .bf16) (y : S1x16x256x64.Idx) :
    ∃ pc ∈ ([⟨r0_3, p0⟩] : List (View.Piece (Elt F) S1x16x256x64 .bf16)), y ∈ pc.1.set :=
  View.cover_of_tiled [⟨r0_3, p0⟩] S1x16x256x64.size (by rfl) y

/-! ## The body's triple -/

set_option maxHeartbeats 1000000 in
/-- The kernel body on whole staging memrefs — the three inputs' at contents x0, x1, x2, the three outputs' at
    anything — runs to the continuation holding the inputs' as they were and each output's at its block of the
    inputs. The body loads each output buffer before storing it whole; the loaded value is not used. -/
theorem sound_kernel0 (c : Dev nD) (E : Set ℕ) (i : grid0.Coords)
    (arg1 : Memref sig .tc .vmem S256x1024 .f32) (harg1 : arg1.IsWhole) (arg2 : Memref sig .tc .vmem S3072x1024 .bf16) (harg2 : arg2.IsWhole)
    (arg3 : Memref sig .tc .vmem S3072 .f32) (harg3 : arg3.IsWhole) (arg4 : Memref sig .tc .vmem S1x16x256x64 .bf16) (harg4 : arg4.IsWhole)
    (arg5 : Memref sig .tc .vmem S1x16x256x64 .bf16) (harg5 : arg5.IsWhole) (arg6 : Memref sig .tc .vmem S1x16x256x64 .bf16) (harg6 : arg6.IsWhole)
    (x0 : Vec F S256x1024 .f32) (x1 : Vec F S3072x1024 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_3 _)

/-! ## The pipeline's proof data -/

/-- The proof data of the region on core c: the arrays as the region finds them; after the body at point t each
    input's buffer at its block and each output's at its block of the three input blocks; the invariant is the
    untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Every window is held at the full share. -/
theorem q_eq0 (c : Dev nD) (w : Fin cfg0.W) : (dat0 V c).q w = fullShare := by
  dsimp only [dat0]

/-- Nothing is owed at any boundary. -/
theorem owed_eq0 (c : Dev nD) (t : Fin (cfg0.N + 1)) : (dat0 V c).owed t = 0 := by
  dsimp only [dat0]

/-- The invariant is the untouched rest of the core at every boundary. -/
theorem Φ_eq0 (c : Dev nD) (t : Fin (cfg0.N + 1)) : (dat0 V c).Φ t = Pipeline.ΦA spec0 c := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the region -/

/-- The invariant at the first boundary is the rest of the core as the launch hands it over. -/
theorem hin0 (c : Dev nD) : Pipeline.ΦA spec0 c ⊢ (dat0 V c).Φ 0 := .rfl

/-- and at the last boundary it is handed back unchanged. -/
theorem hout0 (c : Dev nD) : (dat0 V c).Φ (Fin.last cfg0.N) ⊢ Pipeline.ΦA spec0 c := .rfl

end Cert.KernelIdeal.Rgn

end
-- ==== Proof.Region1RunA.lean ====
/-
  Region 1 (the attention kernel on its 32 × 2 × 2 grid), first part: the two branch conditions of the body in closed
  form over the grid, where the output window is idle, the memrefs the body is called with, the region invariant with
  the three scratch buffers (running maximum, running sum, accumulator) singled out, and the body's triple at a
  point with key tile 0: the scratch buffers are reset and then updated, the output block is not touched.
-/
import proofs.«179285_j61787399520573_2_alg».proof.Proof.Gen.KernelIdeal.Launch
import proofs.«179285_j61787399520573_2_alg».proof.Proof.Gen.KernelIdeal.Skeleton
import proofs.«179285_j61787399520573_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional of the body (key tile 0: reset the scratch buffers), from the grid coordinates. -/
abbrev cond1_0 (i : grid1.Coords) : Prop := (Scalar.cmpi .ne (Scalar.extui (Scalar.cmpi .eq (BitVec.ofNat 32 (i 2).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The last conditional of the body (key tile 1: store the output block). -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At an even point the output window is idle: nothing is stored into its block, -/
theorem idleAt1_3_A : ∀ t : Fin cfg1.N, cond1_0 (grid1.coords t) → ¬cond1_1 (grid1.coords t) → cfg1.idle 3 (grid1.coords t) = true := by decide +kernel
/-- and the block is not written back there. -/
theorem noFlush1_3_A : ∀ t : Fin cfg1.N, cond1_0 (grid1.coords t) → ¬cond1_1 (grid1.coords t) → (cfg1.win 3).flush t = false := by decide +kernel
/-- At an odd point the output window is live. -/
theorem liveAt1_3_B : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x1024x64 .bf16 := (Memref.whole cc1_stg3_0 : Memref sig .tc .vmem S1x1024x64 .bf16).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .bf16 := win1_3.stage (cfg1.slots t 3)
abbrev hs1_3 (t : Fin cfg1.N) : (ms1_3 t).IsWhole := hstage1_3 ((cfg1.slots t 3).cast nbuf1_3)
/-- The three scratch operands: the running maximum, the running sum, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-! ## The region invariant, the scratch buffers singled out -/

/-- Everything the region invariant holds besides the three scratch buffers: the other scoped buffers at some
    contents and the generator register at some state. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f) ∗ (∃ r, prngReg c r))

/-- The region invariant: the three scratch buffers at some contents, and the rest. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ (∃ d, owns (c : Thread nD τ) scM1_2 fullShare d) ∗ Rest1 c) := by
  have e : (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) := by
    unfold Pipeline.ΦA; rw [scopedRest1_eq]; simp only [scM1_0, scM1_1, scM1_2, owns_whole]; try rfl
  rw [e]; unfold Rest1
  have h1 : (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) : sProp 𝕄)
      ⊢ iprop((∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f) ∗ (∃ r, prngReg c r)) := by
    iintro ⟨⟨A0, A1, A2, A3, A4, A5, A6, A7, A8, A9, S0, S1, S2, B0, B1, B2, B3, B4, B5, B6, B7⟩, Hg⟩
    isplitl [S0]; · iexact S0
    isplitl [S1]; · iexact S1
    isplitl [S2]; · iexact S2
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact Hg
  have h2 : (iprop((∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) := by
    iintro ⟨S0, S1, S2, A0, A1, A2, A3, A4, A5, A6, A7, A8, A9, B0, B1, B2, B3, B4, B5, B6, B7, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    isplitl [S2]; · iexact S2
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  exact Entails.antisymm h1 h2

/-! ## The body at a point with key tile 0 -/

set_option maxHeartbeats 4000000 in
/-- At a point of key tile 0 (first conditional taken, last not): on whole memrefs — the three input blocks at their
    contents, the output block at contents handed back untouched, the scratch buffers at anything — the body runs to the
    continuation with the inputs and the output block as they were and each scratch buffer with the pieces its stores
    wrote (last store first): the reset, then the update of the tile. The pieces are what the execution finds. -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) :
    Σ' (L3 : List (View.Piece (Elt F) S1x1024x64 .bf16)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Rgn

end
-- ==== Proof.Region1RunB.lean ====
/-
  Region 1, the body's triple at a point with key tile 1: no reset; the scratch buffers hold what the point of key
  tile 0 left, the tile update is applied over them, and the output block is stored as accumulator / running sum.
-/
import proofs.«179285_j61787399520573_2_alg».proof.Proof.Region1RunA

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of key tile 1 (first conditional not taken, last taken): on whole memrefs — the three input blocks at
    their contents, the scratch buffers at the contents the point before left, the output block at anything — the body
    runs to the continuation with the inputs as they were and the output block and each scratch buffer with the pieces
    its stores wrote. The pieces are what the execution finds. -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .bf16)), Σ' (LS0 : List (View.Piece (Elt F) S1024x1 .f32)), Σ' (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Rgn

end
-- ==== Proof.Region1.lean ====
/-
  Region 1 of the program: the attention kernel on the grid (batch·head, query tile, key tile) = 32 × 2 × 2, point
  t = 4·bh + 2·qi + ki. Stated at a parameter `V`, the TensorCore's buffer contents when the region is entered.

  The kernel keeps three scratch buffers between points — the running maximum, the running sum and the accumulator of
  the online softmax. At a point with key tile 0 they are reset and updated with the tile, and the output block is left
  alone (the window is idle there and not written back); at the point with key tile 1 that follows they are updated over
  what the first point left and the output block is stored. `outsAt1` follows this recursion over the points; the region
  invariant `PhiS1` carries the three scratch buffers at `outsAt1`'s components from one point to the next.
-/
import proofs.«179285_j61787399520573_2_alg».proof.Proof.Region1RunB

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is `V`'s and whose body leaves the block in
    place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- At a point of key tile 0 nothing is stored into the output block: a placeholder nothing consults. -/
def out1_A_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) : Vec F S1x1024x64 .bf16 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Its stores into each scratch buffer cover the buffer (each store is of the whole buffer). -/
theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

theorem scover1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

theorem scover1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) (y : S1024x64.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x64.size (by sl_kernel_rfl) y

/-- What the point leaves in the running maximum, the running sum, the accumulator: the pieces read back. -/
def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

def sout1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

def sout1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) : Vec F S1024x64 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- At a point of key tile 1 the store into the output block covers it, -/
theorem cover1_B_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1x1024x64.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x64.size (by sl_kernel_rfl) y

/-- and so do the stores into each scratch buffer. -/
theorem scover1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

theorem scover1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

theorem scover1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x64.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x64.size (by sl_kernel_rfl) y

/-- What that point leaves in the output block and the three scratch buffers. -/
def out1_B_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1x1024x64 .bf16 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

def sout1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

def sout1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

def sout1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-! ## What the output block and the scratch buffers hold after each point -/

/-- After an even point `t` (key tile 0): the output placeholder, then the three scratch buffers, from the point's blocks. -/
def outA (c : Dev nD) (t : Fin cfg1.N) (h0 : t.val % 2 = 0) : Vec F S1x1024x64 .bf16 × Vec F S1024x1 .f32 × Vec F S1024x1 .f32 × Vec F S1024x64 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t))

/-- After an odd point `t` (key tile 1), over the scratch contents `xs·` the point before left. -/
def outB (c : Dev nD) (t : Fin cfg1.N) (h1 : t.val % 2 = 1) (xs0 : Vec F S1024x1 .f32) (xs1 : Vec F S1024x1 .f32) (xs2 : Vec F S1024x64 .f32) : Vec F S1x1024x64 .bf16 × Vec F S1024x1 .f32 × Vec F S1024x1 .f32 × Vec F S1024x64 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => (by omega : ¬(t).val % 2 = 0) ((hcond1_0 t).mp h)) ((hcond1_1 t).mpr h1) (iblk1 V c 0 t) (iblk1 V c 1 t) (iblk1 V c 2 t) xs0 xs1 xs2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => (by omega : ¬(t).val % 2 = 0) ((hcond1_0 t).mp h)) ((hcond1_1 t).mpr h1) (iblk1 V c 0 t) (iblk1 V c 1 t) (iblk1 V c 2 t) xs0 xs1 xs2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => (by omega : ¬(t).val % 2 = 0) ((hcond1_0 t).mp h)) ((hcond1_1 t).mpr h1) (iblk1 V c 0 t) (iblk1 V c 1 t) (iblk1 V c 2 t) xs0 xs1 xs2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => (by omega : ¬(t).val % 2 = 0) ((hcond1_0 t).mp h)) ((hcond1_1 t).mpr h1) (iblk1 V c 0 t) (iblk1 V c 1 t) (iblk1 V c 2 t) xs0 xs1 xs2)

/-- THE RECURSION over the points: an even point starts afresh from its blocks, an odd point continues from the scratch
    contents of the point before. Components: the output block, the running maximum, the running sum, the accumulator. -/
def outsAt1 (c : Dev nD) : (n : ℕ) → n < cfg1.N → Vec F S1x1024x64 .bf16 × Vec F S1024x1 .f32 × Vec F S1024x1 .f32 × Vec F S1024x64 .f32
  | 0, hn => outA V c ⟨0, hn⟩ (Nat.zero_mod _)
  | n + 1, hn =>
    if h0 : (n + 1) % 2 = 0 then outA V c ⟨n + 1, hn⟩ h0
    else outB V c ⟨n + 1, hn⟩ (by show (n + 1) % 2 = 1; omega) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 2 = 0) : outsAt1 V c t.val t.isLt = outA V c t h0 := by
  obtain ⟨n, hn⟩ := t
  cases n with
  | zero => exact rfl
  | succ n => exact (dif_pos h0).trans rfl

theorem outsAt1_B (c : Dev nD) (t : Fin cfg1.N) (h1 : t.val % 2 = 1) :
    outsAt1 V c t.val t.isLt = outB V c t h1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h1); omega)
  | succ n => exact (dif_neg (by (try dsimp only at h1); omega)).trans rfl

/-! ## The region invariant, point by point -/

/-- Before position `n`: at the start the launch's invariant (every scratch buffer at anything); afterwards the three
    scratch buffers at what the point before left, and the rest. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ Rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ Rest1 c) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ Rest1 c) := by
  cases n with
  | zero => exact absurd rfl hz
  | succ n => rfl

/-! ## The pipeline's proof data -/

/-- The proof data of the region on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window: an input at its block, the output at `outsAt1`'s first component. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the parity of the point says which case it is in. At
    an even point the invariant hands over the scratch buffers at anything (first point) or at what the point before left
    (forgotten: the case resets them), the output block goes through untouched; at an odd point the scratch buffers are
    handed over at what the even point before left. Either way the invariant takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0]
    unfold outA sout1_A_0 sout1_A_1 sout1_A_2; (try dsimp only)
    by_cases hz : t.val = 0
    · rw [PhiS1_castSucc V c t, PhiS1_zero V c _ _ hz, PhiA1_eq]
      iintro ⟨⟨HS0, HS1, HS2, HR⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS0, HS1, HS2, HR⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h1]
    unfold outB out1_B_3 sout1_B_0 sout1_B_1 sout1_B_2; (try dsimp only)
    rw [PhiS1_castSucc V c t, PhiS1_pos V c _ _ hz]
    iintro ⟨⟨HS0, HS1, HS2, HR⟩, Ho, ⟨%d0, H0⟩, ⟨%d1, H1⟩, ⟨%d2, H2⟩, ⟨%d3, H3⟩⟩
    iapply ((kernelRun1_B c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 HR]
    · isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, HS1, HS2, HR⟩
  isplitl [HS0]; · iexists _; iexact HS0
  isplitl [HS1]; · iexists _; iexact HS1
  isplitl [HS2]; · iexists _; iexact HS2
  iexact HR

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Rgn

end
-- ==== Proof.Region2Run.lean ====
import proofs.«179285_j61787399520573_2_alg».proof.Proof.Gen.KernelIdeal.Launch
import proofs.«179285_j61787399520573_2_alg».proof.Proof.Gen.KernelIdeal.Skeleton
import proofs.«179285_j61787399520573_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The output projection's body, case by case

The third pallas_call accumulates, over the sixteen heads `h` of one row tile, the head's partial product into an
f32 accumulator it keeps between grid points: the first head's point resets the accumulator to zero before adding,
the last head's point stores accumulator plus bias into the output block. Three control cases, by the head
coordinate: A (`h = 0`), B (`0 < h < 15`), C (`h = 15`). This module holds the branch conditions in closed form, where
the output window is idle, the staging and accumulator memrefs, and the body's triple in each case. -/

/-! ## The body's branch conditions -/

/-- The condition of the body's first `scf.if` (the accumulator reset), from the grid coordinates: the head coordinate is 0. -/
abbrev cond2_0 (i : grid2.Coords) : Prop := (Scalar.cmpi .ne (Scalar.extui (Scalar.cmpi .eq (BitVec.ofNat 32 (i 1).val) 0#32)) 0#32) = 1#1
/-- It holds at the first head's points only — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second `scf.if` (the output store): the head coordinate is 15. -/
abbrev cond2_1 (i : grid2.Coords) : Prop := k2_cond2 i = 1#1
/-- It holds at the last head's points only — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Before the last head the output window is idle (nothing is stored into it) and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last head it is live. -/
theorem liveAt2_3 : ∀ t : Fin cfg2.N, cond2_1 (grid2.coords t) → cfg2.idle 3 (grid2.coords t) = false := by decide +kernel

/-! ## The memrefs the body is called with -/

/-- One staging buffer of the output window, through which its contents are stated (the choice does not matter). -/
abbrev VO2_3 : View sig .tc .vmem S512x1024 .f32 := (Memref.whole cc2_stg3_0 : Memref sig .tc .vmem S512x1024 .f32).view
/-- Each window's current staging memref at point `t`, and its wholeness. -/
abbrev ms2_0 (t : Fin cfg2.N) : Memref sig .tc .vmem S1x1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S512x1024 .f32 := Memref.whole cc2_scratch0
/-- The accumulator as a view: what it holds is stated through it. -/
abbrev VS2_0 : View sig .tc .vmem S512x1024 .f32 := scM2_0.view

/-- The scoped buffers of the other two pallas_calls, each whole at some contents, in front of `S`: the region's
    scoped rest with the accumulator's conjunct left open. -/
abbrev restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ S)

/-- The region's invariant with the accumulator as a memref owned at some contents. -/
theorem PhiA2_eq (c : Dev nD) :
    (Pipeline.ΦA spec2 c : sProp 𝕄)
      = iprop(restWith c iprop(∃ d, owns (c : Thread nD τ) scM2_0 fullShare d) ∗ (∃ r, prngReg c r)) := by
  unfold Pipeline.ΦA; rw [scopedRest2_eq]; simp only [scM2_0, owns_whole]; try rfl

/-! ## The body's triple, case by case: a subtype whose pieces the run finds -/

set_option maxHeartbeats 1000000 in
/-- CASE A (the first head: the reset taken, the output store not taken). On whole memrefs — the inputs' at their
    contents, the output's (idle here) at contents `xi3` handed back untouched, the accumulator at anything — the body
    runs to the continuation holding the inputs' as they were and the accumulator with the pieces `LS0` written: the
    pieces are the witness the run finds. -/
noncomputable def kernelRun2_A (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x1x512x64 .bf16) (x1 : Vec F S1x1024x64 .bf16) (x2 : Vec F S1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__proj_kernel i arg2 harg2 arg3 harg3 arg4 harg4 arg5 harg5 arg6 harg6) K } := by
  refine ⟨[], ?_, fun xi3 E K => ?run⟩
  case run =>
    simp only [cc2__proj_kernel_eq_skeleton]; unfold cc2__proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (a middle head: neither `scf.if` taken). The inputs' memrefs at their contents, the output's (idle here)
    at `xi3` handed back untouched, the accumulator at what the point before left (`xs0`); the body runs to the
    continuation holding the accumulator with the pieces `LS0` written. -/
noncomputable def kernelRun2_B (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x1x512x64 .bf16) (x1 : Vec F S1x1024x64 .bf16) (x2 : Vec F S1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__proj_kernel i arg2 harg2 arg3 harg3 arg4 harg4 arg5 harg5 arg6 harg6) K } := by
  refine ⟨[], ?_, fun xi3 E K => ?run⟩
  case run =>
    simp only [cc2__proj_kernel_eq_skeleton]; unfold cc2__proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (the last head: the reset not taken, the output store taken). The inputs' memrefs at their contents, the
    output's at anything, the accumulator at what the point before left (`xs0`); the body runs to the continuation
    holding the output's memref with the pieces `L3` written and the accumulator with `LS0`. -/
noncomputable def kernelRun2_C (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x1x512x64 .bf16) (x1 : Vec F S1x1024x64 .bf16) (x2 : Vec F S1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__proj_kernel i arg2 harg2 arg3 harg3 arg4 harg4 arg5 harg5 arg6 harg6) K } := by
  refine ⟨?_, ?_, fun E K => ?run⟩
  case run =>
    simp only [cc2__proj_kernel_eq_skeleton]; unfold cc2__proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Rgn

end
-- ==== Proof.Region2.lean ====
import proofs.«179285_j61787399520573_2_alg».proof.Proof.Region2Run

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The output projection's region at the entry contents `V`: proof data and body obligation -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- Case A stores nothing into the output window (idle at its points and not written back there): no pieces — a
    placeholder that nothing consults. -/
def out2_A_3 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x1x512x64 .bf16) (x1 : Vec F S1x1024x64 .bf16) (x2 : Vec F S1024 .f32) : Vec F S512x1024 .f32 :=
  VO2_3.read (Elt F) (VO2_3.writes (Elt F) VO2_3.junk (kernelRun2_A c i arg2 harg2 arg3 harg3 arg4 harg4 arg5 harg5 arg6 harg6 hc0 hc1 x0 x1 x2).1)

/-- Case A's pieces for the accumulator cover it. -/
theorem scover2_A_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x1x512x64 .bf16) (x1 : Vec F S1x1024x64 .bf16) (x2 : Vec F S1024 .f32) (y : S512x1024.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S512x1024.size (by sl_kernel_rfl) y

/-- What case A leaves in the accumulator: its pieces read back. -/
def sout2_A_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x1x512x64 .bf16) (x1 : Vec F S1x1024x64 .bf16) (x2 : Vec F S1024 .f32) : Vec F S512x1024 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output window (idle at its points and not written back there): no pieces — a
    placeholder that nothing consults. -/
def out2_B_3 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x1x512x64 .bf16) (x1 : Vec F S1x1024x64 .bf16) (x2 : Vec F S1024 .f32) (xs0 : Vec F S512x1024 .f32) : Vec F S512x1024 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's pieces for the accumulator cover it. -/
theorem scover2_B_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x1x512x64 .bf16) (x1 : Vec F S1x1024x64 .bf16) (x2 : Vec F S1024 .f32) (xs0 : Vec F S512x1024 .f32) (y : S512x1024.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S512x1024.size (by sl_kernel_rfl) y

/-- What case B leaves in the accumulator: its pieces read back. -/
def sout2_B_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x1x512x64 .bf16) (x1 : Vec F S1x1024x64 .bf16) (x2 : Vec F S1024 .f32) (xs0 : Vec F S512x1024 .f32) : Vec F S512x1024 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's pieces for the output window tile its block (one store of the whole block), so they cover it. -/
theorem cover2_C_3 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x1x512x64 .bf16) (x1 : Vec F S1x1024x64 .bf16) (x2 : Vec F S1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1024.size (by sl_kernel_rfl) y

/-- What case C leaves in the output window's staging buffer: its pieces read back. -/
def out2_C_3 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x1x512x64 .bf16) (x1 : Vec F S1x1024x64 .bf16) (x2 : Vec F S1024 .f32) (xs0 : Vec F S512x1024 .f32) : Vec F S512x1024 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's pieces for the accumulator cover it. -/
theorem scover2_C_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x1x512x64 .bf16) (x1 : Vec F S1x1024x64 .bf16) (x2 : Vec F S1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1024.size (by sl_kernel_rfl) y

/-- What case C leaves in the accumulator: its pieces read back. -/
def sout2_C_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x1x512x64 .bf16) (x1 : Vec F S1x1024x64 .bf16) (x2 : Vec F S1024 .f32) (xs0 : Vec F S512x1024 .f32) : Vec F S512x1024 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output window's buffer and the accumulator hold after each point -/

/-- THE ACCUMULATION. What the output window's staging buffer and the accumulator hold after the body at position `n`
    (a pair: the output, then the accumulator): the case the closed forms select at `n`, run at the point's memrefs and
    input blocks, the accumulator read at what this leaves at `n - 1`. -/
def outsAt2 (c : Dev nD) : (n : ℕ) → n < cfg2.N → Vec F S512x1024 .f32 × Vec F S512x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 16 = 0) (h1 : ¬t.val % 16 = 15) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left in the accumulator. -/
theorem outsAt2_B (c : Dev nD) (t : Fin cfg2.N) (h0 : ¬t.val % 16 = 0) (h1 : ¬t.val % 16 = 15) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left in the accumulator. -/
theorem outsAt2_C (c : Dev nD) (t : Fin cfg2.N) (h0 : ¬t.val % 16 = 0) (h1 : t.val % 16 = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The tracked invariant -/

/-- The region invariant before position `n`: before the first point the region's own (`ΦA`: the accumulator at
    anything); afterwards the scoped rest with the accumulator at what the point before left in it (`outsAt2`'s second
    component), and the generator register at some state. -/
def PhiS2 (c : Dev nD) : (n : ℕ) → n ≤ cfg2.N → sProp 𝕄
  | 0, _ => Pipeline.ΦA spec2 c
  | n + 1, hn => iprop(restWith c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(restWith c (owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(restWith c (owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the third pipeline on core `c`: the arrays as the region finds them (`V`); after the body at
    point `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := rfl
theorem owed_eq2 (c : Dev nD) (t : Fin (cfg2.N + 1)) : (dat2 V c).owed t = 0 := rfl

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the accumulator at what the point before left (at anything at a first head's point, where
    the body resets it) and takes it back at this point's contents; the output window is handed back untouched where
    it is idle and at the case's pieces at the last head; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 128 := lt_of_lt_of_eq t.isLt (show cfg2.N = 128 from N_2)
  by_cases h0 : t.val % 16 = 0
  · have h1 : ¬t.val % 16 = 15 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold sout2_A_0; (try dsimp only)
    by_cases hz : t.val = 0
    ·
      rw [PhiS2_castSucc V c t, PhiS2_zero V c _ _ hz, PhiA2_eq]
      unfold restWith
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          isplitl [HR20]; · iexact HR20
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    ·
      rw [PhiS2_castSucc V c t, PhiS2_pos V c _ _ hz]
      unfold restWith
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          isplitl [HR20]; · iexact HR20
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0; (try dsimp only)
      rw [PhiS2_castSucc V c t, PhiS2_pos V c _ _ hz]
      unfold restWith
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          isplitl [HR20]; · iexact HR20
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0; (try dsimp only)
      rw [PhiS2_castSucc V c t, PhiS2_pos V c _ _ hz]
      unfold restWith
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          isplitl [HR20]; · iexact HR20
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold restWith
  iintro ⟨⟨HR0, HR1, HR2, HR3, HR4, HR5, HR6, HR7, HR8, HR9, HR10, HR11, HR12, HR13, HR14, HR15, HR16, HR17, HR18, HR19, HR20, HS0⟩, Hg⟩
  isplitl [HR0 HR1 HR2 HR3 HR4 HR5 HR6 HR7 HR8 HR9 HR10 HR11 HR12 HR13 HR14 HR15 HR16 HR17 HR18 HR19 HR20 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Cert.KernelIdeal.Rgn

end
-- ==== Proof.Run.lean ====
/-
  The run of the attention program's @main, for any float instance: seven segments — the host's re-laying of x and of
  the two weights, the QKV projection, the views of q, k and v as 32 batch-and-head slabs, the attention, the view of its
  output back as [2, 16, 2048, 64], the output projection accumulated over the sixteen heads, and the view of the result
  as [2, 2048, 1024]. The contents of every unscoped buffer are folded from the launch memory through the segments: a
  host stretch applies its operations, a pallas_call replaces its windows' arrays by what its write-backs leave. Every
  weakly fair execution terminates without a fault with memory at the fold's last contents; in particular the five
  argument arrays end as launched, since no host operation writes one and a pallas_call reads an argument only through an
  input window.
-/
import proofs.«179285_j61787399520573_2_alg».proof.Proof.Region0
import proofs.«179285_j61787399520573_2_alg».proof.Proof.Region1
import proofs.«179285_j61787399520573_2_alg».proof.Proof.Region2
import Idealize.ShloMosaic.Lib.Pipeline.RegionsLoop
import Idealize.ShloMosaic.Lib.Pipeline.FrameSuffix

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: a host stretch, the QKV projection, a host stretch, the attention, a host stretch, the output
    projection, a host stretch — seven segments, the buffers' contents folded from the launch memory to the return -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the reshape of x, the weights' change of format and re-layout). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pallas_call 0: its arrays at what the write-backs leave, every other buffer as the call found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (q, k, v viewed as [32, 2048, 64]). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After pallas_call 1: its arrays at what the write-backs leave, every other buffer as the call found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the attention output viewed as [2, 16, 2048, 64]). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After pallas_call 2: its arrays at what the write-backs leave, every other buffer as the call found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch (the result viewed as [2, 2048, 1024]): the contents at the return. -/
abbrev W7 : Dev nD → Valuation τ sig (Elt F) := fun c => StableHlo.after hostOps3 (W6 m ρ c)

/-! ## The arguments end as launched: no host operation writes one, and a pallas_call either reads it through an
    input window or does not touch it -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m ρ c (Proc.devRef .tc main_arg4) := (W6_arr m ρ c 2).trans (((dat2 (V5 m ρ) c).arrAt_in 2 rfl _).trans (A_eq2 (V5 m ρ) c 2))
    _ = W4 m ρ c (Proc.devRef .tc main_arg4) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg4) := rfl

/-! ## The proof data family and what rides beside the buffers -/

abbrev adm : (p : Fin 3) → (pcfgs (F := F) p).Adm := fun p => (cfgs p).toPCfg_adm
/-- Each pallas_call's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- Beside the buffers every segment carries the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem hostOps1_noalloc : (hostOps1 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem hostOps3_noalloc : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The three pallas_calls as segments -/

set_option backward.isDefEq.respectTransparency.types false in
/-- Pallas_call 0 as a segment: entered with every unscoped buffer at `W1`, left with them at `W2`. Its windows'
    arrays are split out of the unscoped buffers on entry and put back at their final contents on exit; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at `W3`, left with them at `W4`. Its windows'
    arrays are split out of the unscoped buffers on entry and put back at their final contents on exit; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment: entered with every unscoped buffer at `W5`, left with them at `W6`. Its windows'
    arrays are split out of the unscoped buffers on entry and put back at their final contents on exit; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => owed_eq2 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q_eq2 (V5 m ρ) c w) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest (Ix := Unit) (Name := ℕ) (U := UR sig nD τ) (Lvl := ℕ) (Val := Elt F) spec2 c) : sProp 𝕄) ⊢ Pipeline.ΦA spec2 c := by
      unfold Pipeline.ΦA
      iintro ⟨Hp, -, Hr⟩
      isplitl [Hr]; · iexact Hr
      iexact Hp
    exact h.trans (hin2 (V5 m ρ) c)
  hout c := by
    rw [Pipeline.ownSems0_none]
    have h : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (V5 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (V5 m ρ) c w)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the seven segments, and the launch -/

abbrev segs : List (Pipeline.Seg (pcfgs (F := F)) adm (pdats m ρ) () defs₀ 𝒱₀ L lv) :=
  [ .host (hseg hostOps0 hostOps0_sub hostOps0_noalloc (W0 m ρ)),
    .region (reg0 m ρ),
    .host (hseg hostOps1 hostOps1_sub hostOps1_noalloc (W2 m ρ)),
    .region (reg1 m ρ),
    .host (hseg hostOps2 hostOps2_sub hostOps2_noalloc (W4 m ρ)),
    .region (reg2 m ρ),
    .host (hseg hostOps3 hostOps3_sub hostOps3_noalloc (W6 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and the final
    memory holds every unscoped buffer of every core at the fold's last contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.KernelIdeal.Rgn

end
-- ==== Proof.Region0Value.lean ====
import proofs.«179285_j61787399520573_2_alg».proof.Proof.Region0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # Region 0: the values the QKV projection leaves

What each output block holds after the body, as the payloads of the three input blocks; each
payload read at an index over the exact extended reals — entry (r, n) of the product of the
activations' rows with the weight's rows, plus the bias at n, the column n = o + 64·h + e being
head h, lane e of the q (o = 0), k (o = 1024) or v (o = 2048) third —; and the three output
arrays after the last point as one function of the region's entry contents. -/

set_option maxRecDepth 16384

noncomputable section

namespace Cert.KernelIdeal.Rgn

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Generic
variable {F : FTy → Type} [FloatOps F]
variable (V : (c : Dev nD) → (b : Ref sig .tc) → Buf (Elt F) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- The q block the body leaves is the head-split payload of the three input blocks: one whole store of a
    value computed from three whole loads. -/
theorem out0_3_eq (x0 : Vec F S256x1024 .f32) (x1 : Vec F S3072x1024 .bf16) (x2 : Vec F S3072 .f32) :
    out0_3 x0 x1 x2 = k0_pay2 x0 x1 x2 := by
  unfold out0_3
  rw [View.canon_unit_zero hz4, View.ld_unit_zero (S := S256x1024) hz2, View.ld_unit_zero (S := S3072x1024) hz2,
    View.ld_unit_zero (S := S3072) hz1]
/-- The k block likewise. -/
theorem out0_4_eq (x0 : Vec F S256x1024 .f32) (x1 : Vec F S3072x1024 .bf16) (x2 : Vec F S3072 .f32) :
    out0_4 x0 x1 x2 = k0_pay3 x0 x1 x2 := by
  unfold out0_4
  rw [View.canon_unit_zero hz4, View.ld_unit_zero (S := S256x1024) hz2, View.ld_unit_zero (S := S3072x1024) hz2,
    View.ld_unit_zero (S := S3072) hz1]
/-- The v block likewise. -/
theorem out0_5_eq (x0 : Vec F S256x1024 .f32) (x1 : Vec F S3072x1024 .bf16) (x2 : Vec F S3072 .f32) :
    out0_5 x0 x1 x2 = k0_pay4 x0 x1 x2 := by
  unfold out0_5
  rw [View.canon_unit_zero hz4, View.ld_unit_zero (S := S256x1024) hz2, View.ld_unit_zero (S := S3072x1024) hz2,
    View.ld_unit_zero (S := S3072) hz1]

/-- The block indices of the three input windows, decided over the grid: the activations' block moves one block
    of rows per point; the weight's and the bias's never move. -/
theorem idx_in0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0 :=
  (by decide +kernel : ∀ t : Fin grid0.N, _)

/-- The activations' block at point t is rows 256·t … 256·t + 255 of the array. -/
theorem iblk0_0_apply (c : Dev nD) (t : Fin cfg0.N) (r : Fin 256) (k : Fin 1024) (R : Fin 4096) (hR : R.val = 256 * t.val + r.val) :
    (iblk0 V c 0 t : Vec F S256x1024 .f32) (ix2 r k) = (V c main_v0 : S4096x1024.Idx → Elt F .f32) (ix2 R k) := by
  obtain ⟨e0, e1, -, -, -⟩ := idx_in0 t
  unfold iblk0
  rw [View.read_apply]
  show V c main_v0 _ = V c main_v0 _
  congr 1
  funext a
  apply Fin.ext
  match a with
  | ⟨0, _⟩ => show win0_0.index t (0 : Fin 2) * 256 + 1 * r.val = R.val; rw [e0, hR]; omega
  | ⟨1, _⟩ => show win0_0.index t (1 : Fin 2) * 1024 + 1 * k.val = k.val; rw [e1]; omega

/-- The weight's block at every point is the whole weight. -/
theorem iblk0_1_eq (c : Dev nD) (t : Fin cfg0.N) : (iblk0 V c 1 t : Vec F S3072x1024 .bf16) = V c main_v1 := by
  obtain ⟨-, -, e2, e3, -⟩ := idx_in0 t
  funext y
  unfold iblk0
  rw [View.read_apply]
  show V c main_v1 _ = V c main_v1 _
  congr 1
  funext a
  apply Fin.ext
  match a with
  | ⟨0, _⟩ => show win0_1.index t (0 : Fin 2) * 3072 + 1 * (y 0).val = (y 0).val; rw [e2]; omega
  | ⟨1, _⟩ => show win0_1.index t (1 : Fin 2) * 1024 + 1 * (y 1).val = (y 1).val; rw [e3]; omega

/-- The bias's block at every point is the whole bias. -/
theorem iblk0_2_eq (c : Dev nD) (t : Fin cfg0.N) : (iblk0 V c 2 t : Vec F S3072 .f32) = V c main_arg2 := by
  obtain ⟨-, -, -, -, e4⟩ := idx_in0 t
  funext y
  unfold iblk0
  rw [View.read_apply]
  show V c main_arg2 _ = V c main_arg2 _
  congr 1
  funext a
  apply Fin.ext
  match a with
  | ⟨0, _⟩ => show win0_2.index t (0 : Fin 1) * 3072 + 1 * (y 0).val = (y 0).val; rw [e4]; omega

end Generic

/-! ## The payloads at an index, over the exact extended reals -/

/-- Entry (r, n) of the projection: row r of X against row n of W, plus the bias at n. -/
def qkvAt {R : Nat} (X : (⟨2, ![R, 1024]⟩ : Shape).Idx → EReal) (W : S3072x1024.Idx → EReal) (B : S3072.Idx → EReal) (r : Fin R) (n : Fin 3072) : EReal :=
  (∑ k : Fin 1024, X (ix2 r k) * W (ix2 n k)) + B (ix1 n)

/-- Column o + 64·h + e of the projection: head h, lane e of the third that starts at column o. -/
def colIx (o : Nat) (ho : o + 1024 ≤ 3072) (h : Fin 16) (e : Fin 64) : Fin 3072 := ⟨o + 64 * h.val + e.val, by omega⟩

/-- Row 2048·b + n of the flattened activations: batch b, position n. -/
def rowIx (b : Fin 2) (n : Fin 2048) : Fin 4096 := ⟨2048 * b.val + n.val, by omega⟩

/-- The product's dimension numbers: both operands contract their second axis. -/
abbrev D0 : DotDims S256x1024 S3072x1024 S256x3072 := dot_S256x1024_S3072x1024_S256x3072_1_1_0_0_n_n

theorem lhsIdx0_0 (i : S256x3072.Idx) (q : D0.contr.Idx) : (D0.lhsIdx i q 0).val = (i 0).val := by
  unfold DotDims.lhsIdx
  rw [dif_neg (show ¬(0 : Fin S256x1024.rank) ∈ D0.lhsBatch by decide), dif_pos (show (0 : Fin S256x1024.rank) ∈ D0.lhsNonContracting by decide)]
  rfl
theorem lhsIdx0_1 (i : S256x3072.Idx) (q : D0.contr.Idx) : (D0.lhsIdx i q 1).val = (q ⟨0, by decide⟩).val :=
  D0.lhsIdx_val_of_single rfl i q
theorem rhsIdx0_0 (i : S256x3072.Idx) (q : D0.contr.Idx) : (D0.rhsIdx i q 0).val = (i 1).val := by
  unfold DotDims.rhsIdx
  rw [dif_neg (show ¬(0 : Fin S3072x1024.rank) ∈ D0.rhsBatch by decide), dif_pos (show (0 : Fin S3072x1024.rank) ∈ D0.rhsNonContracting by decide)]
  rfl
theorem rhsIdx0_1 (i : S256x3072.Idx) (q : D0.contr.Idx) : (D0.rhsIdx i q 1).val = (q ⟨0, by decide⟩).val :=
  D0.rhsIdx_val_of_single rfl i q

/-- The product into the zero accumulator, at (r, n): row r of the left operand against row n of the right. -/
theorem mm_apply (a : FVec Ideal S256x1024 .bf16) (w : FVec Ideal S3072x1024 .bf16) (r : Fin 256) (n : Fin 3072) :
    (matmul D0 none a w (constant (F := Ideal) S256x3072 .f32 0x00000000#32) : FVec Ideal S256x3072 .f32) (ix2 r n)
      = ∑ k : Fin 1024, a (ix2 r k) * w (ix2 n k) := by
  refine (Ideal.matmul_constant_zero_apply D0 none a w (ix2 r n)).trans ?_
  rw [← Equiv.sum_comp (ValueIdx.contrEquiv1 D0 1024 rfl rfl).symm]
  refine Finset.sum_congr rfl fun k _ => ?_
  have hk := ValueIdx.contrEquiv1_symm_val D0 1024 rfl rfl k
  have el : D0.lhsIdx (ix2 r n) ((ValueIdx.contrEquiv1 D0 1024 rfl rfl).symm k) = ix2 r k := funext fun a => Fin.ext (by
    match a with
    | ⟨0, _⟩ => exact lhsIdx0_0 _ _
    | ⟨1, _⟩ => exact (lhsIdx0_1 _ _).trans hk)
  have er : D0.rhsIdx (ix2 r n) ((ValueIdx.contrEquiv1 D0 1024 rfl rfl).symm k) = ix2 n k := funext fun a => Fin.ext (by
    match a with
    | ⟨0, _⟩ => exact rhsIdx0_0 _ _
    | ⟨1, _⟩ => exact (rhsIdx0_1 _ _).trans hk)
  rw [el, er]

/-- The bias, given a unit leading axis and repeated over the rows, at (r, n): the bias at n. -/
theorem bias_apply (x2 : Vec Ideal S3072 .f32) (r : Fin 256) (n : Fin 3072) :
    (broadcastTo S256x3072 (shapeCast S1x3072 x2 shapeCasts_S3072_S1x3072) broadcasts_S1x3072_S256x3072 : FVec Ideal S256x3072 .f32) (ix2 r n) = x2 (ix1 n) :=
  (broadcastTo_1b_ab_apply _ _ r n).trans (shapeCast_a_1a_apply x2 _ 0 n)

/-- The product-plus-bias at (r, n); the roundings to bf16 are the identity on exact values. -/
theorem pay1_apply (x0 : Vec Ideal S256x1024 .f32) (x1 : Vec Ideal S3072x1024 .bf16) (x2 : Vec Ideal S3072 .f32) (r : Fin 256) (n : Fin 3072) :
    k0_pay1 (F := Ideal) x0 x1 x2 (ix2 r n) = (∑ k : Fin 1024, x0 (ix2 r k) * x1 (ix2 n k)) + x2 (ix1 n) := by
  have e0 : (truncf .bf16 (shapeCast S256x1024 x0 shapeCasts_S256x1024_S256x1024 : FVec Ideal S256x1024 .f32) bitsLt_bf16_f32 : FVec Ideal S256x1024 .bf16) = x0 := by
    rw [shapeCast_self]; rfl
  have e1 : (shapeCast S3072x1024 x1 shapeCasts_S3072x1024_S3072x1024 : FVec Ideal S3072x1024 .bf16) = x1 := shapeCast_self _ _
  unfold k0_pay1
  show (matmul D0 none (truncf .bf16 (shapeCast S256x1024 x0 shapeCasts_S256x1024_S256x1024 : FVec Ideal S256x1024 .f32) bitsLt_bf16_f32 : FVec Ideal S256x1024 .bf16)
          (shapeCast S3072x1024 x1 shapeCasts_S3072x1024_S3072x1024 : FVec Ideal S3072x1024 .bf16) (constant (F := Ideal) S256x3072 .f32 0x00000000#32) : FVec Ideal S256x3072 .f32) (ix2 r n)
      + (broadcastTo S256x3072 (shapeCast S1x3072 x2 shapeCasts_S3072_S1x3072) broadcasts_S1x3072_S256x3072 : FVec Ideal S256x3072 .f32) (ix2 r n) = _
  rw [e0, e1]
  exact congrArg₂ (· + ·) (mm_apply x0 x1 r n) (bias_apply x2 r n)

/-- The head split of a [256, 3072] value, at (h, r, e): the columns o … o + 1023 cut out, each row's 1024 columns
    read as 16 heads of 64 lanes, rows and heads exchanged, a unit axis put in front — entry (r, o + 64·h + e). -/
theorem headSplit_apply {α : Type} (P : S256x3072.Idx → α) (o : Nat) (ho : o + 1024 ≤ 3072) (hs : S256x3072.Slices ![0, o] S256x1024)
    (u : Fin 1) (h : Fin 16) (r : Fin 256) (e : Fin 64) :
    shapeCast S1x16x256x64 (transpose S16x256x64 [1, 0, 2] (shapeCast S256x16x64 (extractStridedSlice S256x1024 ![0, o] P hs)
        shapeCasts_S256x1024_S256x16x64) transposes_S256x16x64_p1_0_2_S16x256x64) shapeCasts_S16x256x64_S1x16x256x64 (ix4 u h r e)
      = P (ix2 r (colIx o ho h e)) := by
  refine (shapeCast_abc_1abc_apply _ _ u h r e).trans ?_
  refine (transpose_apply _ _ _ (ix3 h r e) (ix3 r h e) fun b => match b with | ⟨0, _⟩ => rfl | ⟨1, _⟩ => rfl | ⟨2, _⟩ => rfl).trans ?_
  refine (shapeCast_apply _ _ (ix3 r h e) (ix2 r (⟨64 * h.val + e.val, by omega⟩ : Fin 1024)) (by
    rw [Shape.rowMajor_val_two, Shape.rowMajor_val_three]
    show r.val * 1024 + (64 * h.val + e.val) = (r.val * 16 + h.val) * 64 + e.val
    omega)).trans ?_
  exact slice2_axis1_apply o P hs r _ (colIx o ho h e) (by show o + 64 * h.val + e.val = o + (64 * h.val + e.val); omega)

theorem pay2_apply (x0 : Vec Ideal S256x1024 .f32) (x1 : Vec Ideal S3072x1024 .bf16) (x2 : Vec Ideal S3072 .f32) (u : Fin 1) (h : Fin 16) (r : Fin 256) (e : Fin 64) :
    k0_pay2 (F := Ideal) x0 x1 x2 (ix4 u h r e) = (∑ k : Fin 1024, x0 (ix2 r k) * x1 (ix2 (colIx 0 (by omega) h e) k)) + x2 (ix1 (colIx 0 (by omega) h e)) :=
  (headSplit_apply (k0_pay1 (F := Ideal) x0 x1 x2) 0 (by omega) slices_S256x3072_o0_0_S256x1024 u h r e).trans (pay1_apply x0 x1 x2 r _)
theorem pay3_apply (x0 : Vec Ideal S256x1024 .f32) (x1 : Vec Ideal S3072x1024 .bf16) (x2 : Vec Ideal S3072 .f32) (u : Fin 1) (h : Fin 16) (r : Fin 256) (e : Fin 64) :
    k0_pay3 (F := Ideal) x0 x1 x2 (ix4 u h r e) = (∑ k : Fin 1024, x0 (ix2 r k) * x1 (ix2 (colIx 1024 (by omega) h e) k)) + x2 (ix1 (colIx 1024 (by omega) h e)) :=
  (headSplit_apply (k0_pay1 (F := Ideal) x0 x1 x2) 1024 (by omega) slices_S256x3072_o0_1024_S256x1024 u h r e).trans (pay1_apply x0 x1 x2 r _)
theorem pay4_apply (x0 : Vec Ideal S256x1024 .f32) (x1 : Vec Ideal S3072x1024 .bf16) (x2 : Vec Ideal S3072 .f32) (u : Fin 1) (h : Fin 16) (r : Fin 256) (e : Fin 64) :
    k0_pay4 (F := Ideal) x0 x1 x2 (ix4 u h r e) = (∑ k : Fin 1024, x0 (ix2 r k) * x1 (ix2 (colIx 2048 (by omega) h e) k)) + x2 (ix1 (colIx 2048 (by omega) h e)) :=
  (headSplit_apply (k0_pay1 (F := Ideal) x0 x1 x2) 2048 (by omega) slices_S256x3072_o0_2048_S256x1024 u h r e).trans (pay1_apply x0 x1 x2 r _)

/-! ## The three output arrays after the last point -/

/-- One third of the projection laid out by heads: at (b, h, n, e) the entry of row 2048·b + n and column o + 64·h + e. -/
def qkvG (o : Nat) (ho : o + 1024 ≤ 3072) (X : S4096x1024.Idx → EReal) (W : S3072x1024.Idx → EReal) (B : S3072.Idx → EReal) : S2x16x2048x64.Idx → EReal :=
  fun i => qkvAt X W B (rowIx (i 0) (i 2)) (colIx o ho (i 1) (i 3))

theorem qkvG_apply (o : Nat) (ho : o + 1024 ≤ 3072) (X : S4096x1024.Idx → EReal) (W : S3072x1024.Idx → EReal) (B : S3072.Idx → EReal)
    (b : Fin 2) (h : Fin 16) (n : Fin 2048) (e : Fin 64) :
    qkvG o ho X W B (ix4 b h n e) = (∑ k : Fin 1024, X (ix2 (rowIx b n) k) * W (ix2 (colIx o ho h e) k)) + B (ix1 (colIx o ho h e)) := rfl

/-- The output windows' block indices, decided over the grid: point t holds batch t / 8, positions
    256·(t mod 8) … 256·(t mod 8) + 255, all heads and lanes. -/
theorem idx_out0_3 : ∀ t : Fin cfg0.N, win0_3.index t (0 : Fin 4) = t.val / 8 ∧ win0_3.index t (1 : Fin 4) = 0
    ∧ win0_3.index t (2 : Fin 4) = t.val % 8 ∧ win0_3.index t (3 : Fin 4) = 0 :=
  (by decide +kernel : ∀ t : Fin grid0.N, _)
theorem idx_out0_4 : ∀ t : Fin cfg0.N, win0_4.index t (0 : Fin 4) = t.val / 8 ∧ win0_4.index t (1 : Fin 4) = 0
    ∧ win0_4.index t (2 : Fin 4) = t.val % 8 ∧ win0_4.index t (3 : Fin 4) = 0 :=
  (by decide +kernel : ∀ t : Fin grid0.N, _)
theorem idx_out0_5 : ∀ t : Fin cfg0.N, win0_5.index t (0 : Fin 4) = t.val / 8 ∧ win0_5.index t (1 : Fin 4) = 0
    ∧ win0_5.index t (2 : Fin 4) = t.val % 8 ∧ win0_5.index t (3 : Fin 4) = 0 :=
  (by decide +kernel : ∀ t : Fin grid0.N, _)

/-- The entry the body computes at (h, r, e) of point t's block — from a block x0 that is rows 256·t … of X — is
    the projection's entry at the array index i the block's (h, r, e) sits at: batch t / 8, position
    256·(t mod 8) + r, and 2048·(t / 8) + 256·(t mod 8) + r = 256·t + r. -/
theorem flushed_entry (o : Nat) (ho : o + 1024 ≤ 3072) (X : S4096x1024.Idx → EReal) (W : S3072x1024.Idx → EReal) (B : S3072.Idx → EReal)
    (x0 : Vec Ideal S256x1024 .f32) (t : Nat) (ht : t < 16)
    (hx : ∀ (r : Fin 256) (k : Fin 1024) (R : Fin 4096), R.val = 256 * t + r.val → x0 (ix2 r k) = X (ix2 R k))
    (i : S2x16x2048x64.Idx) (h : Fin 16) (r : Fin 256) (e : Fin 64)
    (h0 : (i 0).val = t / 8) (h1 : (i 1).val = h.val) (h2 : (i 2).val = 256 * (t % 8) + r.val) (h3 : (i 3).val = e.val) :
    (∑ k : Fin 1024, x0 (ix2 r k) * W (ix2 (colIx o ho h e) k)) + B (ix1 (colIx o ho h e)) = qkvG o ho X W B i := by
  have hc : colIx o ho (i 1) (i 3) = colIx o ho h e :=
    Fin.ext (by show o + 64 * (i 1).val + (i 3).val = o + 64 * h.val + e.val; rw [h1, h3])
  unfold qkvG qkvAt
  rw [hc]
  refine congrArg (· + B (ix1 (colIx o ho h e))) (Finset.sum_congr rfl fun k _ => ?_)
  rw [hx r k (rowIx (i 0) (i 2)) (by show 2048 * (i 0).val + (i 2).val = 256 * t + r.val; rw [h0, h2]; omega)]

variable (V : (c : Dev nD) → (b : Ref sig .tc) → Buf (Elt Ideal) ((c : Thread nD τ).loc b))

/-- What point t writes back to the q array is block t of the projection's q third of the entry contents. -/
theorem flushed0_3_eq (c : Dev nD) (t : Fin cfg0.N) :
    (dat0 V c).flushed 3 t = ((cfg0.win 3).blk t).view.read (Elt Ideal) (qkvG 0 (by omega) (V c main_v0) (V c main_v1) (V c main_arg2)) := by
  show (cfg0.win 3).cut (grid0.coords t) ((dat0 V c).after 3 t) = _
  rw [after0_3, out0_3_eq, iblk0_1_eq, iblk0_2_eq]
  obtain ⟨e0, e1, e2, e3⟩ := idx_out0_3 t
  have ht : t.val < 16 := Nat.lt_of_lt_of_eq t.isLt N_0
  funext y
  obtain ⟨u, h, r, e, rfl⟩ : ∃ (u : Fin 1) (h : Fin 16) (r : Fin 256) (e : Fin 64), y = ix4 u h r e := ⟨y 0, y 1, y 2, y 3, eq_ix4 y⟩
  rw [View.read_apply]
  refine Eq.trans (b := k0_pay2 (F := Ideal) (iblk0 V c 0 t) (V c main_v1) (V c main_arg2) (ix4 u h r e)) rfl ?_
  refine (pay2_apply (iblk0 V c 0 t) (V c main_v1) (V c main_arg2) u h r e).trans ?_
  refine flushed_entry 0 (by omega) (V c main_v0) (V c main_v1) (V c main_arg2) (iblk0 V c 0 t) t.val ht
    (fun r k R hR => iblk0_0_apply V c t r k R hR) _ h r e ?_ ?_ ?_ ?_
  · show win0_3.index t (0 : Fin 4) * 1 + 1 * u.val = t.val / 8
    rw [e0]; omega
  · show win0_3.index t (1 : Fin 4) * 16 + 1 * h.val = h.val
    rw [e1]; omega
  · show win0_3.index t (2 : Fin 4) * 256 + 1 * r.val = 256 * (t.val % 8) + r.val
    rw [e2]; omega
  · show win0_3.index t (3 : Fin 4) * 64 + 1 * e.val = e.val
    rw [e3]; omega

/-- An index of the q array is in point t's block iff each coordinate is in the block's range on its axis. -/
theorem mem_blk0_3 (t : Fin cfg0.N) (i : S2x16x2048x64.Idx) :
    i ∈ ((cfg0.win 3).blk t).view.set ↔ ∀ a : Fin 4, win0_3.index t a * S1x16x256x64.size a ≤ (i a).val
      ∧ (i a).val < win0_3.index t a * S1x16x256x64.size a + S1x16x256x64.size a := by
  show i ∈ ((View.whole main_v5_0).slice (win0_3.rect t)).set ↔ _
  rw [View.set_slice_whole, Rect.mem_set_unit]
  exact Iff.rfl

/-- Every index (b, h, n, e) of the q array is written back: by point 8·b + n / 256. -/
theorem covered0_3 (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ : ∃ t : Fin cfg0.N, t.val = 8 * (i 0).val + (i 2).val / 256 :=
    ⟨⟨8 * (i 0).val + (i 2).val / 256, Nat.lt_of_lt_of_eq (by omega) N_0.symm⟩, rfl⟩
  obtain ⟨e0, e1, e2, e3⟩ := idx_out0_3 t
  refine ⟨t, flush0_3 t, ?_⟩
  rw [mem_blk0_3]
  intro a
  match a with
  | ⟨0, _⟩ => show win0_3.index t (0 : Fin 4) * 1 ≤ (i 0).val ∧ (i 0).val < win0_3.index t (0 : Fin 4) * 1 + 1
              rw [e0]; omega
  | ⟨1, _⟩ => show win0_3.index t (1 : Fin 4) * 16 ≤ (i 1).val ∧ (i 1).val < win0_3.index t (1 : Fin 4) * 16 + 16
              rw [e1]; omega
  | ⟨2, _⟩ => show win0_3.index t (2 : Fin 4) * 256 ≤ (i 2).val ∧ (i 2).val < win0_3.index t (2 : Fin 4) * 256 + 256
              rw [e2]; omega
  | ⟨3, _⟩ => show win0_3.index t (3 : Fin 4) * 64 ≤ (i 3).val ∧ (i 3).val < win0_3.index t (3 : Fin 4) * 64 + 64
              rw [e3]; omega

/-- The q array after the last point: the projection's q third of the entry contents, laid out by heads. -/
theorem final0_3 (c : Dev nD) :
    (dat0 V c).arrAt 3 cfg0.N = qkvG 0 (by omega) (V c main_v0) (V c main_v1) (V c main_arg2) :=
  (dat0 V c).arrAt_eq_of_cover 3 _ (fun t _ => flushed0_3_eq V c t) covered0_3

/-- What point t writes back to the k array is block t of the projection's k third of the entry contents. -/
theorem flushed0_4_eq (c : Dev nD) (t : Fin cfg0.N) :
    (dat0 V c).flushed 4 t = ((cfg0.win 4).blk t).view.read (Elt Ideal) (qkvG 1024 (by omega) (V c main_v0) (V c main_v1) (V c main_arg2)) := by
  show (cfg0.win 4).cut (grid0.coords t) ((dat0 V c).after 4 t) = _
  rw [after0_4, out0_4_eq, iblk0_1_eq, iblk0_2_eq]
  obtain ⟨e0, e1, e2, e3⟩ := idx_out0_4 t
  have ht : t.val < 16 := Nat.lt_of_lt_of_eq t.isLt N_0
  funext y
  obtain ⟨u, h, r, e, rfl⟩ : ∃ (u : Fin 1) (h : Fin 16) (r : Fin 256) (e : Fin 64), y = ix4 u h r e := ⟨y 0, y 1, y 2, y 3, eq_ix4 y⟩
  rw [View.read_apply]
  refine Eq.trans (b := k0_pay3 (F := Ideal) (iblk0 V c 0 t) (V c main_v1) (V c main_arg2) (ix4 u h r e)) rfl ?_
  refine (pay3_apply (iblk0 V c 0 t) (V c main_v1) (V c main_arg2) u h r e).trans ?_
  refine flushed_entry 1024 (by omega) (V c main_v0) (V c main_v1) (V c main_arg2) (iblk0 V c 0 t) t.val ht
    (fun r k R hR => iblk0_0_apply V c t r k R hR) _ h r e ?_ ?_ ?_ ?_
  · show win0_4.index t (0 : Fin 4) * 1 + 1 * u.val = t.val / 8
    rw [e0]; omega
  · show win0_4.index t (1 : Fin 4) * 16 + 1 * h.val = h.val
    rw [e1]; omega
  · show win0_4.index t (2 : Fin 4) * 256 + 1 * r.val = 256 * (t.val % 8) + r.val
    rw [e2]; omega
  · show win0_4.index t (3 : Fin 4) * 64 + 1 * e.val = e.val
    rw [e3]; omega

/-- An index of the k array is in point t's block iff each coordinate is in the block's range on its axis. -/
theorem mem_blk0_4 (t : Fin cfg0.N) (i : S2x16x2048x64.Idx) :
    i ∈ ((cfg0.win 4).blk t).view.set ↔ ∀ a : Fin 4, win0_4.index t a * S1x16x256x64.size a ≤ (i a).val
      ∧ (i a).val < win0_4.index t a * S1x16x256x64.size a + S1x16x256x64.size a := by
  show i ∈ ((View.whole main_v5_1).slice (win0_4.rect t)).set ↔ _
  rw [View.set_slice_whole, Rect.mem_set_unit]
  exact Iff.rfl

/-- Every index (b, h, n, e) of the k array is written back: by point 8·b + n / 256. -/
theorem covered0_4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ : ∃ t : Fin cfg0.N, t.val = 8 * (i 0).val + (i 2).val / 256 :=
    ⟨⟨8 * (i 0).val + (i 2).val / 256, Nat.lt_of_lt_of_eq (by omega) N_0.symm⟩, rfl⟩
  obtain ⟨e0, e1, e2, e3⟩ := idx_out0_4 t
  refine ⟨t, flush0_4 t, ?_⟩
  rw [mem_blk0_4]
  intro a
  match a with
  | ⟨0, _⟩ => show win0_4.index t (0 : Fin 4) * 1 ≤ (i 0).val ∧ (i 0).val < win0_4.index t (0 : Fin 4) * 1 + 1
              rw [e0]; omega
  | ⟨1, _⟩ => show win0_4.index t (1 : Fin 4) * 16 ≤ (i 1).val ∧ (i 1).val < win0_4.index t (1 : Fin 4) * 16 + 16
              rw [e1]; omega
  | ⟨2, _⟩ => show win0_4.index t (2 : Fin 4) * 256 ≤ (i 2).val ∧ (i 2).val < win0_4.index t (2 : Fin 4) * 256 + 256
              rw [e2]; omega
  | ⟨3, _⟩ => show win0_4.index t (3 : Fin 4) * 64 ≤ (i 3).val ∧ (i 3).val < win0_4.index t (3 : Fin 4) * 64 + 64
              rw [e3]; omega

/-- The k array after the last point: the projection's k third of the entry contents, laid out by heads. -/
theorem final0_4 (c : Dev nD) :
    (dat0 V c).arrAt 4 cfg0.N = qkvG 1024 (by omega) (V c main_v0) (V c main_v1) (V c main_arg2) :=
  (dat0 V c).arrAt_eq_of_cover 4 _ (fun t _ => flushed0_4_eq V c t) covered0_4

/-- What point t writes back to the v array is block t of the projection's v third of the entry contents. -/
theorem flushed0_5_eq (c : Dev nD) (t : Fin cfg0.N) :
    (dat0 V c).flushed 5 t = ((cfg0.win 5).blk t).view.read (Elt Ideal) (qkvG 2048 (by omega) (V c main_v0) (V c main_v1) (V c main_arg2)) := by
  show (cfg0.win 5).cut (grid0.coords t) ((dat0 V c).after 5 t) = _
  rw [after0_5, out0_5_eq, iblk0_1_eq, iblk0_2_eq]
  obtain ⟨e0, e1, e2, e3⟩ := idx_out0_5 t
  have ht : t.val < 16 := Nat.lt_of_lt_of_eq t.isLt N_0
  funext y
  obtain ⟨u, h, r, e, rfl⟩ : ∃ (u : Fin 1) (h : Fin 16) (r : Fin 256) (e : Fin 64), y = ix4 u h r e := ⟨y 0, y 1, y 2, y 3, eq_ix4 y⟩
  rw [View.read_apply]
  refine Eq.trans (b := k0_pay4 (F := Ideal) (iblk0 V c 0 t) (V c main_v1) (V c main_arg2) (ix4 u h r e)) rfl ?_
  refine (pay4_apply (iblk0 V c 0 t) (V c main_v1) (V c main_arg2) u h r e).trans ?_
  refine flushed_entry 2048 (by omega) (V c main_v0) (V c main_v1) (V c main_arg2) (iblk0 V c 0 t) t.val ht
    (fun r k R hR => iblk0_0_apply V c t r k R hR) _ h r e ?_ ?_ ?_ ?_
  · show win0_5.index t (0 : Fin 4) * 1 + 1 * u.val = t.val / 8
    rw [e0]; omega
  · show win0_5.index t (1 : Fin 4) * 16 + 1 * h.val = h.val
    rw [e1]; omega
  · show win0_5.index t (2 : Fin 4) * 256 + 1 * r.val = 256 * (t.val % 8) + r.val
    rw [e2]; omega
  · show win0_5.index t (3 : Fin 4) * 64 + 1 * e.val = e.val
    rw [e3]; omega

/-- An index of the v array is in point t's block iff each coordinate is in the block's range on its axis. -/
theorem mem_blk0_5 (t : Fin cfg0.N) (i : S2x16x2048x64.Idx) :
    i ∈ ((cfg0.win 5).blk t).view.set ↔ ∀ a : Fin 4, win0_5.index t a * S1x16x256x64.size a ≤ (i a).val
      ∧ (i a).val < win0_5.index t a * S1x16x256x64.size a + S1x16x256x64.size a := by
  show i ∈ ((View.whole main_v5_2).slice (win0_5.rect t)).set ↔ _
  rw [View.set_slice_whole, Rect.mem_set_unit]
  exact Iff.rfl

/-- Every index (b, h, n, e) of the v array is written back: by point 8·b + n / 256. -/
theorem covered0_5 (i : S2x16x2048x64.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ : ∃ t : Fin cfg0.N, t.val = 8 * (i 0).val + (i 2).val / 256 :=
    ⟨⟨8 * (i 0).val + (i 2).val / 256, Nat.lt_of_lt_of_eq (by omega) N_0.symm⟩, rfl⟩
  obtain ⟨e0, e1, e2, e3⟩ := idx_out0_5 t
  refine ⟨t, flush0_5 t, ?_⟩
  rw [mem_blk0_5]
  intro a
  match a with
  | ⟨0, _⟩ => show win0_5.index t (0 : Fin 4) * 1 ≤ (i 0).val ∧ (i 0).val < win0_5.index t (0 : Fin 4) * 1 + 1
              rw [e0]; omega
  | ⟨1, _⟩ => show win0_5.index t (1 : Fin 4) * 16 ≤ (i 1).val ∧ (i 1).val < win0_5.index t (1 : Fin 4) * 16 + 16
              rw [e1]; omega
  | ⟨2, _⟩ => show win0_5.index t (2 : Fin 4) * 256 ≤ (i 2).val ∧ (i 2).val < win0_5.index t (2 : Fin 4) * 256 + 256
              rw [e2]; omega
  | ⟨3, _⟩ => show win0_5.index t (3 : Fin 4) * 64 ≤ (i 3).val ∧ (i 3).val < win0_5.index t (3 : Fin 4) * 64 + 64
              rw [e3]; omega

/-- The v array after the last point: the projection's v third of the entry contents, laid out by heads. -/
theorem final0_5 (c : Dev nD) :
    (dat0 V c).arrAt 5 cfg0.N = qkvG 2048 (by omega) (V c main_v0) (V c main_v1) (V c main_arg2) :=
  (dat0 V c).arrAt_eq_of_cover 5 _ (fun t _ => flushed0_5_eq V c t) covered0_5

end Cert.KernelIdeal.Rgn

end
-- ==== Proof.AttnSpec.lean ====
/-
  Multi-head self-attention over x[2, 2048, 1024] with 16 heads of width 64, as ONE function of the five
  argument arrays, index by index, on the extended reals.

  The layers, each a function of explicit coordinates:
  * the three projections  Q, K, V (b, h, n, e) = (∑ c, x (b, n, c) · W (s·1024 + 64·h + e, c)) + bias (s·1024 + 64·h + e)
    for s = 0, 1, 2: the 3072 output features of the first matrix are laid out as (s, h, e), row-major;
  * the scores  (∑ e, Q (b, h, n, e) · K (b, h, k, e)) · 1/8, the scale kept as its bit pattern;
  * the softmax of a row of 2048 scores: the row's maximum taken from −∞ (and once more against −∞), the
    exponentials of the differences, their sum taken from 0, the quotient;
  * the attention output  ∑ k, P (b, h, n, k) · V (b, h, k, e);
  * the output projection  (∑ c, A (b, c / 64, n, c % 64) · Wp (d, c)) + bp d: the heads' outputs are concatenated
    along the feature axis, feature c belonging to head c / 64 at position c % 64.
  Nothing here mentions a program: the argument arrays are functions of coordinates.
-/
import Idealize.ShloMosaic.PureOps.Ideal
import Idealize.ShloMosaic.Lib.ValueIdx

noncomputable section

open Idealize.ShloMosaic

namespace Cert.AttnSpec

/-- The pattern of −∞ (the initial value of the row maximum). -/
def negInf : EReal := Ideal.ofBits .f32 0xFF800000#32
/-- The pattern of 0 (the initial value of the row sum). -/
def zeroF : EReal := Ideal.ofBits .f32 0x00000000#32
/-- The pattern of the scale 1/8 = 64^(-1/2). -/
def scale : EReal := Ideal.ofBits .f32 0x3E000000#32

/-- Row `s·1024 + 64·h + e` of the first weight matrix: the feature (s, h, e) of the fused projection. -/
def qkvRow (s : Fin 3) (h : Fin 16) (e : Fin 64) : Fin 3072 :=
  ⟨s.val * 1024 + 64 * h.val + e.val, by have := s.isLt; have := h.isLt; have := e.isLt; omega⟩

/-- Feature `64·h + e` of the concatenated heads. -/
def headCol (h : Fin 16) (e : Fin 64) : Fin 1024 :=
  ⟨64 * h.val + e.val, by have := h.isLt; have := e.isLt; omega⟩

/-- The head a concatenated feature belongs to, and its position inside the head. -/
def colHead (c : Fin 1024) : Fin 16 := ⟨c.val / 64, by have := c.isLt; omega⟩
def colPos (c : Fin 1024) : Fin 64 := ⟨c.val % 64, Nat.mod_lt _ (by decide)⟩

section
variable (x : Fin 2 → Fin 2048 → Fin 1024 → EReal) (w : Fin 3072 → Fin 1024 → EReal) (bq : Fin 3072 → EReal)
  (pw : Fin 1024 → Fin 1024 → EReal) (pb : Fin 1024 → EReal)

/-- The fused projection at part `s` (0 the queries, 1 the keys, 2 the values), head `h`, token `n`, position `e`. -/
def qkv (s : Fin 3) (b : Fin 2) (h : Fin 16) (n : Fin 2048) (e : Fin 64) : EReal :=
  (∑ c : Fin 1024, x b n c * w (qkvRow s h e) c) + bq (qkvRow s h e)

/-- The queries, keys and values. -/
def Qh (b : Fin 2) (h : Fin 16) (n : Fin 2048) (e : Fin 64) : EReal := qkv x w bq 0 b h n e
def Kh (b : Fin 2) (h : Fin 16) (n : Fin 2048) (e : Fin 64) : EReal := qkv x w bq 1 b h n e
def Vh (b : Fin 2) (h : Fin 16) (n : Fin 2048) (e : Fin 64) : EReal := qkv x w bq 2 b h n e

/-- The scaled score of query token `n` against key token `k`. -/
def score (b : Fin 2) (h : Fin 16) (n k : Fin 2048) : EReal :=
  (∑ e : Fin 64, Qh x w bq b h n e * Kh x w bq b h k e) * scale

end

/-! ### The softmax of one row of 2048 scores -/

/-- The row's maximum: the fold of `max` from −∞ over the 2048 scores, and `max` with −∞ once more. -/
def rowMax (s : Fin 2048 → EReal) : EReal :=
  max negInf ((Finset.univ : Finset (Fin 2048)).fold max negInf s)

/-- The exponential of a score's distance below the row's maximum. -/
def rowExp (s : Fin 2048 → EReal) (k : Fin 2048) : EReal := Ideal.exp (s k - rowMax s)

/-- The row's normaliser: 0 plus the sum of the exponentials. -/
def rowDen (s : Fin 2048 → EReal) : EReal := zeroF + ∑ k : Fin 2048, rowExp s k

/-- The softmax weight of key `k` in the row. -/
def rowSoftmax (s : Fin 2048 → EReal) (k : Fin 2048) : EReal := Ideal.div (rowExp s k) (rowDen s)

/-- The row's weighted sum of values. -/
def rowAttn (s v : Fin 2048 → EReal) : EReal := ∑ k : Fin 2048, rowSoftmax s k * v k

section
variable (x : Fin 2 → Fin 2048 → Fin 1024 → EReal) (w : Fin 3072 → Fin 1024 → EReal) (bq : Fin 3072 → EReal)
  (pw : Fin 1024 → Fin 1024 → EReal) (pb : Fin 1024 → EReal)

/-- The attention weights. -/
def P (b : Fin 2) (h : Fin 16) (n k : Fin 2048) : EReal := rowSoftmax (score x w bq b h n) k

/-- The attention output of head `h` at token `n`, position `e`. -/
def A (b : Fin 2) (h : Fin 16) (n : Fin 2048) (e : Fin 64) : EReal :=
  ∑ k : Fin 2048, P x w bq b h n k * Vh x w bq b h k e

theorem A_eq_rowAttn (b : Fin 2) (h : Fin 16) (n : Fin 2048) (e : Fin 64) :
    A x w bq b h n e = rowAttn (score x w bq b h n) (fun k => Vh x w bq b h k e) := rfl

/-- The result: the output projection of the concatenated heads, plus its bias. -/
def result (b : Fin 2) (n : Fin 2048) (d : Fin 1024) : EReal :=
  (∑ c : Fin 1024, A x w bq b (colHead c) n (colPos c) * pw d c) + pb d

end

end Cert.AttnSpec

end
-- ==== Proof.HostReads.lean ====
/-
  What the host stretches of the attention program's @main do to the buffers, read at an index, and which buffers
  reach a later pallas_call untouched.
-/
import proofs.«179285_j61787399520573_2_alg».proof.Proof.Run
import proofs.«179285_j61787399520573_2_alg».proof.Proof.Region0Value
import proofs.«179285_j61787399520573_2_alg».proof.Proof.AttnSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ) (ρ : Dev nD → PrngReg)

open Idealize.ShloMosaic.ValueIdx

/-! # The host stretches read at an index

Between the pallas_calls @main only re-lays arrays: x viewed as [4096, 1024]; q, k, v viewed as [32, 2048, 64] with row
`16·b + h`; the attention output viewed back as [2, 16, 2048, 64]; the result viewed as [2, 2048, 1024]; and, before the
first call, the projection weight cut into its sixteen head slices `w_h[h, d, e] = proj_w[d, 64·h + e]`. A change of
float format is the identity on extended reals. -/

/-- Batch-and-head `16·b + h` of the [32, ·, ·] views. -/
def bhIx (b : Fin 2) (h : Fin 16) : Fin 32 := ⟨16 * b.val + h.val, by have := b.isLt; have := h.isLt; omega⟩

/-- The result is the last call's [4096, 1024] output viewed as [2, 2048, 1024]. -/
theorem W7_v12_apply (c : Dev nD) (b : Fin 2) (n : Fin 2048) (d : Fin 1024) :
    (W7 m ρ c (Proc.devRef .tc main_v12) : S2x2048x1024.Idx → Elt F .f32) (ix3 b n d)
      = (W6 m ρ c (Proc.devRef .tc main_v11) : S4096x1024.Idx → Elt F .f32) (ix2 (rowIx b n) d) := by
  have e : (W7 m ρ c (Proc.devRef .tc main_v12) : S2x2048x1024.Idx → Elt F .f32)
      = shapeCast S2x2048x1024 (W6 m ρ c (Proc.devRef .tc main_v11) : S4096x1024.Idx → Elt F .f32) shapeCasts_S4096x1024_S2x2048x1024 := by
    show StableHlo.after hostOps3 (W6 m ρ c) (Proc.devRef .tc main_v12) = _
    after_results; rfl
  rw [e]
  refine shapeCast_apply _ _ _ _ ?_
  show (S4096x1024.rowMajor (ix2 (rowIx b n) d)).val = (S2x2048x1024.rowMajor (ix3 b n d)).val
  rw [Shape.rowMajor_val_two, Shape.rowMajor_val_three]
  show (2048 * b.val + n.val) * 1024 + d.val = (b.val * 2048 + n.val) * 1024 + d.val
  omega

/-- The attention output as the last call reads it: [32, 2048, 64] viewed as [2, 16, 2048, 64]. -/
theorem W5_v10_apply (c : Dev nD) (b : Fin 2) (h : Fin 16) (n : Fin 2048) (e : Fin 64) :
    (W5 m ρ c (Proc.devRef .tc main_v10) : S2x16x2048x64.Idx → Elt F .bf16) (ix4 b h n e)
      = (W4 m ρ c (Proc.devRef .tc main_v9) : S32x2048x64.Idx → Elt F .bf16) (ix3 (bhIx b h) n e) := by
  have e' : (W5 m ρ c (Proc.devRef .tc main_v10) : S2x16x2048x64.Idx → Elt F .bf16)
      = shapeCast S2x16x2048x64 (W4 m ρ c (Proc.devRef .tc main_v9) : S32x2048x64.Idx → Elt F .bf16) shapeCasts_S32x2048x64_S2x16x2048x64 := by
    show StableHlo.after hostOps2 (W4 m ρ c) (Proc.devRef .tc main_v10) = _
    after_results; rfl
  rw [e']
  refine shapeCast_apply _ _ _ _ ?_
  show (S32x2048x64.rowMajor (ix3 (bhIx b h) n e)).val = (S2x16x2048x64.rowMajor (ix4 b h n e)).val
  rw [Shape.rowMajor_val_three, Shape.rowMajor_val_four]
  show ((16 * b.val + h.val) * 2048 + n.val) * 64 + e.val = (((b.val * 16 + h.val) * 2048 + n.val) * 64 + e.val)
  omega

/-- q, k or v as the attention call reads it: [2, 16, 2048, 64] viewed as [32, 2048, 64]. -/
theorem W3_v6_apply (c : Dev nD) (b : Fin 2) (h : Fin 16) (n : Fin 2048) (e : Fin 64) :
    (W3 m ρ c (Proc.devRef .tc main_v6) : S32x2048x64.Idx → Elt F .bf16) (ix3 (bhIx b h) n e)
      = (W2 m ρ c (Proc.devRef .tc main_v5_0) : S2x16x2048x64.Idx → Elt F .bf16) (ix4 b h n e) := by
  have e' : (W3 m ρ c (Proc.devRef .tc main_v6) : S32x2048x64.Idx → Elt F .bf16)
      = shapeCast S32x2048x64 (W2 m ρ c (Proc.devRef .tc main_v5_0) : S2x16x2048x64.Idx → Elt F .bf16) shapeCasts_S2x16x2048x64_S32x2048x64 := by
    show StableHlo.after hostOps1 (W2 m ρ c) (Proc.devRef .tc main_v6) = _
    after_results; rfl
  rw [e']
  refine shapeCast_apply _ _ _ _ ?_
  show (S2x16x2048x64.rowMajor (ix4 b h n e)).val = (S32x2048x64.rowMajor (ix3 (bhIx b h) n e)).val
  rw [Shape.rowMajor_val_three, Shape.rowMajor_val_four]
  show (((b.val * 16 + h.val) * 2048 + n.val) * 64 + e.val) = ((16 * b.val + h.val) * 2048 + n.val) * 64 + e.val
  omega

/-- q, k or v as the attention call reads it: [2, 16, 2048, 64] viewed as [32, 2048, 64]. -/
theorem W3_v7_apply (c : Dev nD) (b : Fin 2) (h : Fin 16) (n : Fin 2048) (e : Fin 64) :
    (W3 m ρ c (Proc.devRef .tc main_v7) : S32x2048x64.Idx → Elt F .bf16) (ix3 (bhIx b h) n e)
      = (W2 m ρ c (Proc.devRef .tc main_v5_1) : S2x16x2048x64.Idx → Elt F .bf16) (ix4 b h n e) := by
  have e' : (W3 m ρ c (Proc.devRef .tc main_v7) : S32x2048x64.Idx → Elt F .bf16)
      = shapeCast S32x2048x64 (W2 m ρ c (Proc.devRef .tc main_v5_1) : S2x16x2048x64.Idx → Elt F .bf16) shapeCasts_S2x16x2048x64_S32x2048x64 := by
    show StableHlo.after hostOps1 (W2 m ρ c) (Proc.devRef .tc main_v7) = _
    after_results; rfl
  rw [e']
  refine shapeCast_apply _ _ _ _ ?_
  show (S2x16x2048x64.rowMajor (ix4 b h n e)).val = (S32x2048x64.rowMajor (ix3 (bhIx b h) n e)).val
  rw [Shape.rowMajor_val_three, Shape.rowMajor_val_four]
  show (((b.val * 16 + h.val) * 2048 + n.val) * 64 + e.val) = ((16 * b.val + h.val) * 2048 + n.val) * 64 + e.val
  omega

/-- q, k or v as the attention call reads it: [2, 16, 2048, 64] viewed as [32, 2048, 64]. -/
theorem W3_v8_apply (c : Dev nD) (b : Fin 2) (h : Fin 16) (n : Fin 2048) (e : Fin 64) :
    (W3 m ρ c (Proc.devRef .tc main_v8) : S32x2048x64.Idx → Elt F .bf16) (ix3 (bhIx b h) n e)
      = (W2 m ρ c (Proc.devRef .tc main_v5_2) : S2x16x2048x64.Idx → Elt F .bf16) (ix4 b h n e) := by
  have e' : (W3 m ρ c (Proc.devRef .tc main_v8) : S32x2048x64.Idx → Elt F .bf16)
      = shapeCast S32x2048x64 (W2 m ρ c (Proc.devRef .tc main_v5_2) : S2x16x2048x64.Idx → Elt F .bf16) shapeCasts_S2x16x2048x64_S32x2048x64 := by
    show StableHlo.after hostOps1 (W2 m ρ c) (Proc.devRef .tc main_v8) = _
    after_results; rfl
  rw [e']
  refine shapeCast_apply _ _ _ _ ?_
  show (S2x16x2048x64.rowMajor (ix4 b h n e)).val = (S32x2048x64.rowMajor (ix3 (bhIx b h) n e)).val
  rw [Shape.rowMajor_val_three, Shape.rowMajor_val_four]
  show (((b.val * 16 + h.val) * 2048 + n.val) * 64 + e.val) = ((16 * b.val + h.val) * 2048 + n.val) * 64 + e.val
  omega

/-- x as the first call reads it: [2, 2048, 1024] viewed as [4096, 1024]. -/
theorem W1_v0_apply (c : Dev nD) (b : Fin 2) (n : Fin 2048) (k : Fin 1024) :
    (W1 m ρ c (Proc.devRef .tc main_v0) : S4096x1024.Idx → Elt F .f32) (ix2 (rowIx b n) k)
      = (m ((c : Thread nD τ).loc main_arg0) : S2x2048x1024.Idx → Elt F .f32) (ix3 b n k) := by
  have e' : (W1 m ρ c (Proc.devRef .tc main_v0) : S4096x1024.Idx → Elt F .f32)
      = shapeCast S4096x1024 (m ((c : Thread nD τ).loc main_arg0) : S2x2048x1024.Idx → Elt F .f32) shapeCasts_S2x2048x1024_S4096x1024 := by
    show StableHlo.after hostOps0 (W0 m ρ c) (Proc.devRef .tc main_v0) = _
    after_results; rfl
  rw [e']
  refine shapeCast_apply _ _ _ _ ?_
  show (S2x2048x1024.rowMajor (ix3 b n k)).val = (S4096x1024.rowMajor (ix2 (rowIx b n) k)).val
  rw [Shape.rowMajor_val_two, Shape.rowMajor_val_three]
  show (b.val * 2048 + n.val) * 1024 + k.val = (2048 * b.val + n.val) * 1024 + k.val
  omega

/-! ## At the extended reals: the weights -/

section AtIdeal
variable (mI : (ℓ : Loc nD τ sig) → Buf (Elt Ideal) ℓ)

/-- The QKV weight as the first call reads it: a change of float format, the identity on extended reals. -/
theorem W1_v1_apply (c : Dev nD) (i : S3072x1024.Idx) :
    (W1 mI ρ c (Proc.devRef .tc main_v1) : S3072x1024.Idx → EReal) i
      = (mI ((c : Thread nD τ).loc main_arg1) : S3072x1024.Idx → EReal) i := by
  have e' : (W1 mI ρ c (Proc.devRef .tc main_v1) : FVec Ideal S3072x1024 .bf16)
      = truncf (F := Ideal) .bf16 (mI ((c : Thread nD τ).loc main_arg1) : FVec Ideal S3072x1024 .f32) bitsLt_bf16_f32 := by
    show StableHlo.after hostOps0 (W0 mI ρ c) (Proc.devRef .tc main_v1) = _
    after_results <;> rfl
  show (W1 mI ρ c (Proc.devRef .tc main_v1) : FVec Ideal S3072x1024 .bf16) i = _
  rw [e']; rfl

/-- The projection weight's head slices: `w_h[h, d, e] = proj_w[d, 64·h + e]` (a view as [1024, 16, 64], the first two
    axes exchanged, a change of float format). -/
theorem W1_v4_apply (c : Dev nD) (h : Fin 16) (d : Fin 1024) (e : Fin 64) :
    (W1 mI ρ c (Proc.devRef .tc main_v4) : S16x1024x64.Idx → EReal) (ix3 h d e)
      = (mI ((c : Thread nD τ).loc main_arg3) : S1024x1024.Idx → EReal) (ix2 d (Cert.AttnSpec.headCol h e)) := by
  have e' : (W1 mI ρ c (Proc.devRef .tc main_v4) : FVec Ideal S16x1024x64 .bf16)
      = truncf (F := Ideal) .bf16 (transpose S16x1024x64 [1, 0, 2]
          (shapeCast S1024x16x64 (mI ((c : Thread nD τ).loc main_arg3) : FVec Ideal S1024x1024 .f32) shapeCasts_S1024x1024_S1024x16x64)
          transposes_S1024x16x64_S16x1024x64_1_0_2) bitsLt_bf16_f32 := by
    show StableHlo.after hostOps0 (W0 mI ρ c) (Proc.devRef .tc main_v4) = _
    after_results <;> rfl
  show (W1 mI ρ c (Proc.devRef .tc main_v4) : FVec Ideal S16x1024x64 .bf16) (ix3 h d e) = _
  rw [e', truncf_apply]
  rw [transpose_apply _ _ _ (ix3 h d e) (ix3 d h e) (by
    intro b; match b with | ⟨0, _⟩ => rfl | ⟨1, _⟩ => rfl | ⟨2, _⟩ => rfl)]
  refine shapeCast_apply _ _ _ _ ?_
  show (S1024x1024.rowMajor (ix2 d (Cert.AttnSpec.headCol h e))).val = (S1024x16x64.rowMajor (ix3 d h e)).val
  rw [Shape.rowMajor_val_two, Shape.rowMajor_val_three]
  show d.val * 1024 + (64 * h.val + e.val) = (d.val * 16 + h.val) * 64 + e.val
  omega

end AtIdeal

/-! ## Buffers that ride through: no host operation writes them and no later call stages them as an output -/

/-- The projection weight's head slices reach the last call as the first host stretch left them. -/
theorem W5_v4 (c : Dev nD) : W5 m ρ c (Proc.devRef .tc main_v4) = W1 m ρ c (Proc.devRef .tc main_v4) :=
  calc W5 m ρ c (Proc.devRef .tc main_v4)
    _ = W4 m ρ c (Proc.devRef .tc main_v4) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide)))
    _ = W3 m ρ c (Proc.devRef .tc main_v4) := W4_of_ne m ρ c main_v4 (by decide)
    _ = W2 m ρ c (Proc.devRef .tc main_v4) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide)))
    _ = W1 m ρ c (Proc.devRef .tc main_v4) := W2_of_ne m ρ c main_v4 (by decide)

/-- The projection bias reaches the last call as launched. -/
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide)))
    _ = m ((c : Thread nD τ).loc main_arg4) := rfl

/-- The QKV bias reaches the first call as launched. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide)))
    _ = m ((c : Thread nD τ).loc main_arg2) := rfl

end Cert.KernelIdeal.Rgn

end
-- ==== Proof.ComposeQKV.lean ====
/-
  The first pallas_call's three outputs are the specification's projected queries, keys and values of the launch
  arguments: entry (b, h, n, e) of output s is  (∑ₖ x[b, n, k] · qkv_w[1024·s + 64·h + e, k]) + qkv_b[1024·s + 64·h + e].
-/
import proofs.«179285_j61787399520573_2_alg».proof.Proof.HostReads

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The launch arguments as functions of coordinates -/

def xA (c : Dev nD) : Fin 2 → Fin 2048 → Fin 1024 → EReal := fun b n k => (m ((c : Thread nD τ).loc main_arg0) : S2x2048x1024.Idx → EReal) (ix3 b n k)
def wA (c : Dev nD) : Fin 3072 → Fin 1024 → EReal := fun r k => (m ((c : Thread nD τ).loc main_arg1) : S3072x1024.Idx → EReal) (ix2 r k)
def bA (c : Dev nD) : Fin 3072 → EReal := fun r => (m ((c : Thread nD τ).loc main_arg2) : S3072.Idx → EReal) (ix1 r)
def pwA (c : Dev nD) : Fin 1024 → Fin 1024 → EReal := fun d k => (m ((c : Thread nD τ).loc main_arg3) : S1024x1024.Idx → EReal) (ix2 d k)
def pbA (c : Dev nD) : Fin 1024 → EReal := fun d => (m ((c : Thread nD τ).loc main_arg4) : S1024.Idx → EReal) (ix1 d)

/-- Row `o + 64·h + e` of the QKV weight is the specification's row of slab `s` when `o = 1024·s`. -/
theorem colIx_eq (s : Fin 3) (o : Nat) (ho : o + 1024 ≤ 3072) (hs : o = s.val * 1024) (h : Fin 16) (e : Fin 64) :
    colIx o ho h e = Cert.AttnSpec.qkvRow s h e := by
  apply Fin.ext
  show o + 64 * h.val + e.val = s.val * 1024 + 64 * h.val + e.val
  omega

/-- One entry of the formula the first call's outputs hold, over the arrays the call found, is the specification's
    entry over the launch arguments: x is only re-laid as [4096, 1024], the weight only changes float format, the bias
    is untouched. -/
theorem qkvG_entry (c : Dev nD) (s : Fin 3) (o : Nat) (ho : o + 1024 ≤ 3072) (hs : o = s.val * 1024)
    (b : Fin 2) (h : Fin 16) (n : Fin 2048) (e : Fin 64) :
    qkvG o ho (V1 m ρ c main_v0) (V1 m ρ c main_v1) (V1 m ρ c main_arg2) (ix4 b h n e)
      = Cert.AttnSpec.qkv (xA m c) (wA m c) (bA m c) s b h n e := by
  rw [qkvG_apply, colIx_eq s o ho hs h e]
  unfold Cert.AttnSpec.qkv xA wA bA
  exact congrArg₂ (· + ·)
    (Finset.sum_congr rfl fun k _ => congrArg₂ (· * ·) (W1_v0_apply m ρ c b n k) (W1_v1_apply ρ m c _))
    (congrFun (W1_arg2 m ρ c) _)

theorem W2_v5_0_apply (c : Dev nD) (b : Fin 2) (h : Fin 16) (n : Fin 2048) (e : Fin 64) :
    (W2 m ρ c (Proc.devRef .tc main_v5_0) : S2x16x2048x64.Idx → EReal) (ix4 b h n e)
      = Cert.AttnSpec.Qh (xA m c) (wA m c) (bA m c) b h n e := by
  have h1 : W2 m ρ c (Proc.devRef .tc main_v5_0) = (dat0 (V1 m ρ) c).arrAt 3 cfg0.N := W2_arr m ρ c 3
  rw [h1, final0_3]
  exact qkvG_entry m ρ c 0 0 (by omega) rfl b h n e

theorem W2_v5_1_apply (c : Dev nD) (b : Fin 2) (h : Fin 16) (n : Fin 2048) (e : Fin 64) :
    (W2 m ρ c (Proc.devRef .tc main_v5_1) : S2x16x2048x64.Idx → EReal) (ix4 b h n e)
      = Cert.AttnSpec.Kh (xA m c) (wA m c) (bA m c) b h n e := by
  have h1 : W2 m ρ c (Proc.devRef .tc main_v5_1) = (dat0 (V1 m ρ) c).arrAt 4 cfg0.N := W2_arr m ρ c 4
  rw [h1, final0_4]
  exact qkvG_entry m ρ c 1 1024 (by omega) rfl b h n e

theorem W2_v5_2_apply (c : Dev nD) (b : Fin 2) (h : Fin 16) (n : Fin 2048) (e : Fin 64) :
    (W2 m ρ c (Proc.devRef .tc main_v5_2) : S2x16x2048x64.Idx → EReal) (ix4 b h n e)
      = Cert.AttnSpec.Vh (xA m c) (wA m c) (bA m c) b h n e := by
  have h1 : W2 m ρ c (Proc.devRef .tc main_v5_2) = (dat0 (V1 m ρ) c).arrAt 5 cfg0.N := W2_arr m ρ c 5
  rw [h1, final0_5]
  exact qkvG_entry m ρ c 2 2048 (by omega) rfl b h n e

end Cert.KernelIdeal.Rgn

end
-- ==== Proof.RefIsSpec.lean ====
/-
  The reference program's result is the specification.

  The printed reference computes, operation by operation: the fused projection x · Wᵀ + bias over 3072 features; its
  re-layout as (part, batch, head, token, position) by a reshape, a transpose, three slices and three reshapes; the scores
  Q · Kᵀ scaled by 1/8; each row's maximum taken from −∞, the exponentials of the differences, their sum taken from 0 and the
  quotient; the weighted sum of the values; the heads put side by side again by a transpose and a reshape; the output
  projection and its bias. Read at an index, each layout operation moves the index and each arithmetic one acts on the
  elements, so the result at (b, n, d) is `AttnSpec.result` of the five argument arrays read through their coordinates.
  The only arithmetic in the index maps is the row-major identity of the reshapes:
  (((b·2048 + n)·3 + s)·16 + h)·64 + e  =  (b·2048 + n)·3072 + (s·1024 + 64·h + e).
-/
import proofs.«179285_j61787399520573_2_alg».proof.Proof.Gen.ReferenceIdeal.Read
import proofs.«179285_j61787399520573_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx Cert.AttnSpec

/-- The argument arrays as functions of coordinates. -/
abbrev argX (x0 : (⟨S2x2048x1024, .f32⟩ : BufTy).Contents (Elt Ideal)) : Fin 2 → Fin 2048 → Fin 1024 → EReal :=
  fun b n c => x0 (ix3 b n c)
abbrev argW (x1 : (⟨S3072x1024, .f32⟩ : BufTy).Contents (Elt Ideal)) : Fin 3072 → Fin 1024 → EReal :=
  fun r c => x1 (ix2 r c)
abbrev argB (x2 : (⟨S3072, .f32⟩ : BufTy).Contents (Elt Ideal)) : Fin 3072 → EReal :=
  fun r => x2 (ix1 r)
abbrev argPW (x3 : (⟨S1024x1024, .f32⟩ : BufTy).Contents (Elt Ideal)) : Fin 1024 → Fin 1024 → EReal :=
  fun d c => x3 (ix2 d c)
abbrev argPB (x4 : (⟨S1024, .f32⟩ : BufTy).Contents (Elt Ideal)) : Fin 1024 → EReal :=
  fun d => x4 (ix1 d)

/-! ### The index maps of the layout operations at explicit coordinates -/

theorem lidx0_eq (b : Fin 2) (n : Fin 2048) (r : Fin 3072) (c : Fin 1024) :
    lidx_main_v0 (ix3 b n r) c = ix3 b n c :=
  funext fun a => Fin.ext (by match a with | ⟨0, _⟩ => rfl | ⟨1, _⟩ => rfl | ⟨2, _⟩ => rfl)

theorem ridx0_eq (b : Fin 2) (n : Fin 2048) (r : Fin 3072) (c : Fin 1024) :
    ridx_main_v0 (ix3 b n r) c = ix2 r c :=
  funext fun a => Fin.ext (by match a with | ⟨0, _⟩ => rfl | ⟨1, _⟩ => rfl)

theorem idx1_2_eq (b : Fin 2) (n : Fin 2048) (r : Fin 3072) :
    idx_main_v1 (idx_main_v2 (ix3 b n r)) = ix1 r :=
  funext fun a => Fin.ext (by match a with | ⟨0, _⟩ => rfl)

/-- The fused projection with its bias, at batch `b`, token `n`, feature `r`. -/
theorem v3_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (n : Fin 2048) (r : Fin 3072) :
    val_main_v3 (F := Ideal) x0 x1 x2 (ix3 b n r) = (∑ c : Fin 1024, argX x0 b n c * argW x1 r c) + argB x2 r := by
  rw [val_main_v3_apply, val_main_v0_apply, val_main_v2_apply, val_main_v1_apply, idx1_2_eq]
  simp only [lidx0_eq, ridx0_eq, Ideal.addf_def]

/-- The reshape [2,16,2048,64] → [1,2,16,2048,64] read backwards (the same map for the three parts). -/
theorem idx7_eq (b : Fin 2) (h : Fin 16) (n : Fin 2048) (e : Fin 64) :
    idx_main_v7 (ix4 b h n e) = ix5 (0 : Fin 1) b h n e := by
  have := b.isLt; have := h.isLt; have := n.isLt; have := e.isLt
  funext a; apply Fin.ext
  match a with
  | ⟨0, _⟩ => rfl
  | ⟨1, _⟩ => show (((b.val * 16 + h.val) * 2048 + n.val) * 64 + e.val) / 2097152 % 2 = b.val; omega
  | ⟨2, _⟩ => show (((b.val * 16 + h.val) * 2048 + n.val) * 64 + e.val) / 131072 % 16 = h.val; omega
  | ⟨3, _⟩ => show (((b.val * 16 + h.val) * 2048 + n.val) * 64 + e.val) / 64 % 2048 = n.val; omega
  | ⟨4, _⟩ => show (((b.val * 16 + h.val) * 2048 + n.val) * 64 + e.val) % 64 = e.val; omega

theorem idx9_eq (b : Fin 2) (h : Fin 16) (n : Fin 2048) (e : Fin 64) :
    idx_main_v9 (ix4 b h n e) = ix5 (0 : Fin 1) b h n e := idx7_eq b h n e

theorem idx11_eq (b : Fin 2) (h : Fin 16) (n : Fin 2048) (e : Fin 64) :
    idx_main_v11 (ix4 b h n e) = ix5 (0 : Fin 1) b h n e := idx7_eq b h n e

/-- The three slices of the part axis. -/
theorem idx6_eq (b : Fin 2) (h : Fin 16) (n : Fin 2048) (e : Fin 64) :
    idx_main_v6 (ix5 (0 : Fin 1) b h n e) = ix5 (0 : Fin 3) b h n e :=
  funext fun a => Fin.ext (by match a with | ⟨0, _⟩ => rfl | ⟨1, _⟩ => rfl | ⟨2, _⟩ => rfl | ⟨3, _⟩ => rfl | ⟨4, _⟩ => rfl)

theorem idx8_eq (b : Fin 2) (h : Fin 16) (n : Fin 2048) (e : Fin 64) :
    idx_main_v8 (ix5 (0 : Fin 1) b h n e) = ix5 (1 : Fin 3) b h n e :=
  funext fun a => Fin.ext (by match a with | ⟨0, _⟩ => rfl | ⟨1, _⟩ => rfl | ⟨2, _⟩ => rfl | ⟨3, _⟩ => rfl | ⟨4, _⟩ => rfl)

theorem idx10_eq (b : Fin 2) (h : Fin 16) (n : Fin 2048) (e : Fin 64) :
    idx_main_v10 (ix5 (0 : Fin 1) b h n e) = ix5 (2 : Fin 3) b h n e :=
  funext fun a => Fin.ext (by match a with | ⟨0, _⟩ => rfl | ⟨1, _⟩ => rfl | ⟨2, _⟩ => rfl | ⟨3, _⟩ => rfl | ⟨4, _⟩ => rfl)

/-- The transpose (part, batch, head, token, position) ← (batch, token, part, head, position). -/
theorem idx5_eq (s : Fin 3) (b : Fin 2) (h : Fin 16) (n : Fin 2048) (e : Fin 64) :
    idx_main_v5 (ix5 s b h n e) = ix5 b n s h e :=
  funext fun a => Fin.ext (by match a with | ⟨0, _⟩ => rfl | ⟨1, _⟩ => rfl | ⟨2, _⟩ => rfl | ⟨3, _⟩ => rfl | ⟨4, _⟩ => rfl)

/-- The reshape of the 3072 features as (part, head, position): feature s·1024 + 64·h + e. -/
theorem idx4_eq (s : Fin 3) (b : Fin 2) (h : Fin 16) (n : Fin 2048) (e : Fin 64) :
    idx_main_v4 (ix5 b n s h e) = ix3 b n (qkvRow s h e) := by
  have := b.isLt; have := h.isLt; have := n.isLt; have := e.isLt; have := s.isLt
  funext a; apply Fin.ext
  match a with
  | ⟨0, _⟩ => show ((((b.val * 2048 + n.val) * 3 + s.val) * 16 + h.val) * 64 + e.val) / 6291456 = b.val; omega
  | ⟨1, _⟩ => show ((((b.val * 2048 + n.val) * 3 + s.val) * 16 + h.val) * 64 + e.val) / 3072 % 2048 = n.val; omega
  | ⟨2, _⟩ =>
    show ((((b.val * 2048 + n.val) * 3 + s.val) * 16 + h.val) * 64 + e.val) % 3072 = s.val * 1024 + 64 * h.val + e.val
    omega

/-- The queries, keys and values of the reference are the specification's. -/
theorem v7_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n : Fin 2048) (e : Fin 64) :
    val_main_v7 (F := Ideal) x0 x1 x2 (ix4 b h n e) = Qh (argX x0) (argW x1) (argB x2) b h n e := by
  rw [val_main_v7_apply, idx7_eq, val_main_v6_apply, idx6_eq, val_main_v5_apply, idx5_eq, val_main_v4_apply, idx4_eq, v3_at]
  rfl

theorem v9_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n : Fin 2048) (e : Fin 64) :
    val_main_v9 (F := Ideal) x0 x1 x2 (ix4 b h n e) = Kh (argX x0) (argW x1) (argB x2) b h n e := by
  rw [val_main_v9_apply, idx9_eq, val_main_v8_apply, idx8_eq, val_main_v5_apply, idx5_eq, val_main_v4_apply, idx4_eq, v3_at]
  rfl

theorem v11_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n : Fin 2048) (e : Fin 64) :
    val_main_v11 (F := Ideal) x0 x1 x2 (ix4 b h n e) = Vh (argX x0) (argW x1) (argB x2) b h n e := by
  rw [val_main_v11_apply, idx11_eq, val_main_v10_apply, idx10_eq, val_main_v5_apply, idx5_eq, val_main_v4_apply, idx4_eq, v3_at]
  rfl

/-! ### Scores -/

theorem lidx12_eq (b : Fin 2) (h : Fin 16) (n k : Fin 2048) (e : Fin 64) :
    lidx_main_v12 (ix4 b h n k) e = ix4 b h n e :=
  funext fun a => Fin.ext (by match a with | ⟨0, _⟩ => rfl | ⟨1, _⟩ => rfl | ⟨2, _⟩ => rfl | ⟨3, _⟩ => rfl)

theorem ridx12_eq (b : Fin 2) (h : Fin 16) (n k : Fin 2048) (e : Fin 64) :
    ridx_main_v12 (ix4 b h n k) e = ix4 b h k e :=
  funext fun a => Fin.ext (by match a with | ⟨0, _⟩ => rfl | ⟨1, _⟩ => rfl | ⟨2, _⟩ => rfl | ⟨3, _⟩ => rfl)

/-- The scaled scores of the reference are the specification's. -/
theorem v14_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n k : Fin 2048) :
    val_main_v14 (F := Ideal) x0 x1 x2 (ix4 b h n k) = score (argX x0) (argW x1) (argB x2) b h n k := by
  rw [val_main_v14_apply, val_main_v12_apply, val_main_v13_apply, val_main_cst_apply]
  simp only [lidx12_eq, ridx12_eq, v7_at, v9_at, Ideal.mulf_def, Ideal.ofBits_def]
  rfl

/-! ### The row maximum: each element is a fold of `max` over the key axis of the scores -/

theorem red_d3 : S2x16x2048x2048.Reduces [3] S2x16x2048 := by decide

/-- The row index (b, h, n) with key `k` put back on the last axis. -/
theorem lift_eq (b : Fin 2) (h : Fin 16) (n : Fin 2048) (k : Fin (S2x16x2048x2048.size 3)) :
    red_d3.lift (ix3 b h n) k = ix4 b h n (⟨k.val, k.isLt⟩ : Fin 2048) := by
  funext c; apply Fin.ext
  fin_cases c <;> rfl

theorem v15_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n : Fin 2048) :
    val_main_v15 (F := Ideal) x0 x1 x2 (ix3 b h n)
      = (Finset.univ : Finset (Fin 2048)).fold max negInf (score (argX x0) (argW x1) (argB x2) b h n) := by
  unfold val_main_v15
  rw [Host.reduce_eq_fold_single FloatOps.maximumf _ _ reducesTo_S2x16x2048x2048_S2x16x2048_d3 red_d3 h_S_]
  have hf : (val_main_v14 (F := Ideal) x0 x1 x2 ∘ red_d3.lift (ix3 b h n))
      = fun k : Fin 2048 => score (argX x0) (argW x1) (argB x2) b h n k := funext fun k => by
    show val_main_v14 (F := Ideal) x0 x1 x2 (red_d3.lift (ix3 b h n) k) = _
    rw [lift_eq, v14_at]
    rfl
  exact congrArg (fun f => Finset.fold max (Ideal.ofBits .f32 0xFF800000#32) f (Finset.univ : Finset (Fin 2048))) hf

theorem v17_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n : Fin 2048) :
    val_main_v17 (F := Ideal) x0 x1 x2 (ix3 b h n) = rowMax (score (argX x0) (argW x1) (argB x2) b h n) := by
  rw [val_main_v17_apply, val_main_v16_apply, val_main_cst_1_apply, v15_at]
  rfl

/-! ### Exponentials, normaliser, weights -/

theorem idx18_19_eq (b : Fin 2) (h : Fin 16) (n k : Fin 2048) :
    idx_main_v18 (idx_main_v19 (ix4 b h n k)) = ix3 b h n :=
  funext fun a => Fin.ext (by match a with | ⟨0, _⟩ => rfl | ⟨1, _⟩ => rfl | ⟨2, _⟩ => rfl)

theorem idx23_24_eq (b : Fin 2) (h : Fin 16) (n k : Fin 2048) :
    idx_main_v23 (idx_main_v24 (ix4 b h n k)) = ix3 b h n :=
  funext fun a => Fin.ext (by match a with | ⟨0, _⟩ => rfl | ⟨1, _⟩ => rfl | ⟨2, _⟩ => rfl)

theorem idx22_eq (b : Fin 2) (h : Fin 16) (n k : Fin 2048) :
    idx_main_v22 (ix3 b h n) k = ix4 b h n k :=
  funext fun a => Fin.ext (by match a with | ⟨0, _⟩ => rfl | ⟨1, _⟩ => rfl | ⟨2, _⟩ => rfl | ⟨3, _⟩ => rfl)

theorem v21_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n k : Fin 2048) :
    val_main_v21 (F := Ideal) x0 x1 x2 (ix4 b h n k) = rowExp (score (argX x0) (argW x1) (argB x2) b h n) k := by
  rw [val_main_v21_apply, val_main_v20_apply, v14_at, val_main_v19_apply, val_main_v18_apply, idx18_19_eq, v17_at]
  rfl

theorem v22_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n : Fin 2048) :
    val_main_v22 (F := Ideal) x0 x1 x2 (ix3 b h n) = rowDen (score (argX x0) (argW x1) (argB x2) b h n) := by
  rw [val_main_v22_apply, val_main_cst_2_apply]
  simp only [idx22_eq, v21_at, Ideal.ofBits_def]
  rfl

theorem v25_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n k : Fin 2048) :
    val_main_v25 (F := Ideal) x0 x1 x2 (ix4 b h n k) = P (argX x0) (argW x1) (argB x2) b h n k := by
  rw [val_main_v25_apply, v21_at, val_main_v24_apply, val_main_v23_apply, idx23_24_eq, v22_at]
  rfl

/-! ### The attention output and the output projection -/

theorem lidx26_eq (b : Fin 2) (h : Fin 16) (n : Fin 2048) (e : Fin 64) (k : Fin 2048) :
    lidx_main_v26 (ix4 b h n e) k = ix4 b h n k :=
  funext fun a => Fin.ext (by match a with | ⟨0, _⟩ => rfl | ⟨1, _⟩ => rfl | ⟨2, _⟩ => rfl | ⟨3, _⟩ => rfl)

theorem ridx26_eq (b : Fin 2) (h : Fin 16) (n : Fin 2048) (e : Fin 64) (k : Fin 2048) :
    ridx_main_v26 (ix4 b h n e) k = ix4 b h k e :=
  funext fun a => Fin.ext (by match a with | ⟨0, _⟩ => rfl | ⟨1, _⟩ => rfl | ⟨2, _⟩ => rfl | ⟨3, _⟩ => rfl)

theorem v26_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (n : Fin 2048) (e : Fin 64) :
    val_main_v26 (F := Ideal) x0 x1 x2 (ix4 b h n e) = A (argX x0) (argW x1) (argB x2) b h n e := by
  rw [val_main_v26_apply]
  simp only [lidx26_eq, ridx26_eq, v25_at, v11_at]
  rfl

/-- The heads side by side: feature `c` of token `n` is head `c / 64`, position `c % 64`. -/
theorem idx27_28_eq (b : Fin 2) (n : Fin 2048) (c : Fin 1024) :
    idx_main_v27 (idx_main_v28 (ix3 b n c)) = ix4 b (colHead c) n (colPos c) := by
  have := b.isLt; have := n.isLt; have := c.isLt
  funext a; apply Fin.ext
  match a with
  | ⟨0, _⟩ => show ((b.val * 2048 + n.val) * 1024 + c.val) / 2097152 = b.val; omega
  | ⟨1, _⟩ => show ((b.val * 2048 + n.val) * 1024 + c.val) / 64 % 16 = c.val / 64; omega
  | ⟨2, _⟩ => show ((b.val * 2048 + n.val) * 1024 + c.val) / 1024 % 2048 = n.val; omega
  | ⟨3, _⟩ => show ((b.val * 2048 + n.val) * 1024 + c.val) % 64 = c.val % 64; omega

theorem v28_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (n : Fin 2048) (c : Fin 1024) :
    val_main_v28 (F := Ideal) x0 x1 x2 (ix3 b n c) = A (argX x0) (argW x1) (argB x2) b (colHead c) n (colPos c) := by
  rw [val_main_v28_apply, val_main_v27_apply, idx27_28_eq, v26_at]

theorem lidx29_eq (b : Fin 2) (n : Fin 2048) (d c : Fin 1024) :
    lidx_main_v29 (ix3 b n d) c = ix3 b n c :=
  funext fun a => Fin.ext (by match a with | ⟨0, _⟩ => rfl | ⟨1, _⟩ => rfl | ⟨2, _⟩ => rfl)

theorem ridx29_eq (b : Fin 2) (n : Fin 2048) (d c : Fin 1024) :
    ridx_main_v29 (ix3 b n d) c = ix2 d c :=
  funext fun a => Fin.ext (by match a with | ⟨0, _⟩ => rfl | ⟨1, _⟩ => rfl)

theorem idx30_31_eq (b : Fin 2) (n : Fin 2048) (d : Fin 1024) :
    idx_main_v30 (idx_main_v31 (ix3 b n d)) = ix1 d :=
  funext fun a => Fin.ext (by match a with | ⟨0, _⟩ => rfl)

/-- THE REFERENCE IS THE SPECIFICATION: the last stage of the reference, at (b, n, d), is `AttnSpec.result` of the five
    argument arrays read through their coordinates. -/
theorem val_main_v32_at (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) (b : Fin 2) (n : Fin 2048) (d : Fin 1024) :
    val_main_v32 (F := Ideal) x0 x1 x2 x3 x4 (ix3 b n d)
      = result (argX x0) (argW x1) (argB x2) (argPW x3) (argPB x4) b n d := by
  rw [val_main_v32_apply, val_main_v29_apply, val_main_v31_apply, val_main_v30_apply, idx30_31_eq]
  simp only [lidx29_eq, ridx29_eq, v28_at, Ideal.addf_def]
  rfl

/-- The same as an equation of arrays: the run's result term is the specification read at each index's coordinates. -/
theorem res_main_v32_eq (m : (ℓ : Loc nD τ sig) → Buf (Elt Ideal) ℓ) (c : Dev nD) :
    (Cert.ReferenceIdeal.Value.res_main_v32 (F := Ideal) m c : S2x2048x1024.Idx → EReal)
      = fun i => result (argX (m ((c.tc : Thread nD τ).loc main_arg0))) (argW (m ((c.tc : Thread nD τ).loc main_arg1)))
          (argB (m ((c.tc : Thread nD τ).loc main_arg2))) (argPW (m ((c.tc : Thread nD τ).loc main_arg3)))
          (argPB (m ((c.tc : Thread nD τ).loc main_arg4))) (i 0) (i 1) (i 2) := by
  rw [val_main_v32_eq]
  funext i
  obtain ⟨b, n, d, rfl⟩ : ∃ (b : Fin 2) (n : Fin 2048) (d : Fin 1024), i = ix3 b n d := ⟨i 0, i 1, i 2, eq_ix3 i⟩
  exact val_main_v32_at _ _ _ _ _ b n d

end Cert.ReferenceIdeal.RefValue

end
-- ==== Proof.FiniteArgs.lean ====
/-
  From the printed precondition to "every entry of every argument is a real number".

  The precondition is the conjunction, over the five arguments, of "every entry's absolute value is below +∞": each
  conjunct a comparison of |x| with the pattern of +∞, entry by entry, folded by `and` from 1 over all axes. A fold by
  `and` that is 1 had a 1 at every entry; on the extended reals |x| = max x (−x) is below ⊤ exactly when x is neither ⊤
  nor ⊥, that is, when x is (the coercion of) a real.
-/
import proofs.«179285_j61787399520573_2_alg».proof.Pre_finite_inputs
import Idealize.ShloMosaic.Lib.ReduceAll
import Idealize.ShloMosaic.Lib.ValueIdx
import Idealize.ShloMosaic.PureOps.Ideal

noncomputable section

namespace Cert.FiniteArgs

open Idealize.ShloMosaic Cert.Pre_finite_inputs

instance : Subsingleton S_.Idx := ⟨fun a b => funext fun d => d.elim0⟩

/-- The pattern the absolute values are compared with is +∞. -/
theorem posInf_eq_top : Ideal.ofBits .f32 0x7F800000#32 = ⊤ := by
  simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [posInf_eq_top] at h
  induction x using EReal.rec with
  | bot => simp [Ideal.cmp] at h
  | top => simp [Ideal.cmp] at h
  | coe r => exact ⟨r, rfl⟩

/-- One conjunct: if the fold by `and` of the entrywise comparisons |x| < +∞ is 1, every entry of `x` is a real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) (i : s.Idx) :
    ∃ r : ℝ, x i = (r : EReal) :=
  real_of_abs_lt (x i) (Host.reduce_andi_all _ _ hr hu ValueIdx.ix0 e i)

variable [Cert.Pre_finite_inputs.Facts]

/-- The precondition at the ideal values gives real entries in all five arguments. -/
theorem args_real (x0 : FVec Ideal S2x2048x1024 .f32) (x1 : FVec Ideal S3072x1024 .f32) (x2 : FVec Ideal S3072 .f32)
    (x3 : FVec Ideal S1024x1024 .f32) (x4 : FVec Ideal S1024 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [fn, fn_part1] at h0
  obtain ⟨h18, e4⟩ := IntOp.andi_eq_one.1 h0
  obtain ⟨h13, e3⟩ := IntOp.andi_eq_one.1 h18
  obtain ⟨h8, e2⟩ := IntOp.andi_eq_one.1 h13
  obtain ⟨e0, e1⟩ := IntOp.andi_eq_one.1 h8
  exact ⟨all_real x0 _ _ _ e0, all_real x1 _ _ _ e1, all_real x2 _ _ _ e2, all_real x3 _ _ _ e3, all_real x4 _ _ _ e4⟩

end Cert.FiniteArgs

end
-- ==== Proof.Claims.lean ====
/-
  The claims of the certificate, assembled.

  Both idealized programs run and leave their arguments as launched (their frames). The idealization rewrote no
  operation, so there is nothing to preserve. For the algebraic claim the common result is the kernel's output array at
  the return: the kernel's run ends with it by definition, and the reference's run ends with its composed term, which is the
  specification of the five arguments at every index; the memories agree on the arguments; the precondition makes every
  argument entry a real; and for real arguments the kernel's output array is the same specification at every index. That last
  statement is taken here as a hypothesis.
-/
import proofs.«179285_j61787399520573_2_alg».proof.Defs
import proofs.«179285_j61787399520573_2_alg».proof.Proof.Gen.KernelIdeal
import proofs.«179285_j61787399520573_2_alg».proof.Proof.Gen.ReferenceIdeal
import proofs.«179285_j61787399520573_2_alg».proof.Proof.Gen.ReferenceIdeal.Run
import proofs.«179285_j61787399520573_2_alg».proof.Proof.Gen.Pre_finite_inputs
import proofs.«179285_j61787399520573_2_alg».proof.Proof.Run
import proofs.«179285_j61787399520573_2_alg».proof.Proof.ComposeQKV
import proofs.«179285_j61787399520573_2_alg».proof.Proof.RefIsSpec
import proofs.«179285_j61787399520573_2_alg».proof.Proof.FiniteArgs

noncomputable section

namespace Cert.Proof.AttnClaims

open Idealize.ShloMosaic Idealize.ShloMosaic.TcCoe Idealize.ShloMosaic.ValueIdx Idealize.SL.Sem

/-- The idealized kernel runs and leaves its arguments as launched. -/
theorem frame_ki : Cert.frame_KernelIdeal := fun m ρ _ => Cert.KernelIdeal.Rgn.frame (F := Ideal) m ρ

/-- The idealized reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal.Rgn in
/-- The two idealized programs end with one result array, given that the kernel's output array is the specification of
    its real arguments at every index. -/
theorem algebraic_of
    (hres : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD)
      (hx : ∀ b n k, ∃ r : ℝ, xA m c b n k = (r : EReal)) (hw : ∀ r k, ∃ t : ℝ, wA m c r k = (t : EReal))
      (hb : ∀ r, ∃ t : ℝ, bA m c r = (t : EReal)) (b : Fin 2) (n : Fin 2048) (d : Fin 1024),
      (W7 m ρ c (Proc.devRef .tc Cert.KernelIdeal.main_v12) : Cert.KernelIdeal.S2x2048x1024.Idx → EReal) (ValueIdx.ix3 b n d)
        = Cert.AttnSpec.result (xA m c) (wA m c) (bA m c) (pwA m c) (pbA m c) b n d) :
    Cert.algebraic_KernelIdeal_ReferenceIdeal := by
  intro m ρ m' ρ' hpre hagree
  refine ⟨fun c => W7 m ρ c (Proc.devRef .tc Cert.KernelIdeal.main_v12), ?_, ?_⟩
  · exact (θ_run Cert.KernelIdeal.defs _ _).mono (fun r h c =>
      ⟨h c _ (mem_uc Cert.KernelIdeal.main_v12 (by decide)),
       (h c _ (mem_uc Cert.KernelIdeal.main_arg0 (by decide))).trans (W7_main_arg0 m ρ c),
       (h c _ (mem_uc Cert.KernelIdeal.main_arg1 (by decide))).trans (W7_main_arg1 m ρ c),
       (h c _ (mem_uc Cert.KernelIdeal.main_arg2 (by decide))).trans (W7_main_arg2 m ρ c),
       (h c _ (mem_uc Cert.KernelIdeal.main_arg3 (by decide))).trans (W7_main_arg3 m ρ c),
       (h c _ (mem_uc Cert.KernelIdeal.main_arg4 (by decide))).trans (W7_main_arg4 m ρ c)⟩) (run_all m ρ)
  · refine (θ_run Cert.ReferenceIdeal.defs _ _).mono (fun r h c => ⟨(h c).1.trans ?_, (h c).2⟩)
      (Cert.ReferenceIdeal.Value.run (F := Ideal) m' ρ')
    -- every argument entry is a real
    obtain ⟨f0, f1, f2, f3, f4⟩ := Cert.FiniteArgs.args_real _ _ _ _ _ (hpre c)
    have hx : ∀ b n k, ∃ r : ℝ, xA m c b n k = (r : EReal) := fun b n k => f0 (ix3 b n k)
    have hw : ∀ r k, ∃ t : ℝ, wA m c r k = (t : EReal) := fun r k => f1 (ix2 r k)
    have hb : ∀ r, ∃ t : ℝ, bA m c r = (t : EReal) := fun r => f2 (ix1 r)
    -- the memories agree on the arguments
    have hX : Cert.ReferenceIdeal.RefValue.argX _ = xA m c :=
      funext fun b => funext fun n => funext fun k => congrFun (hagree c).1 (ix3 b n k)
    have hW : Cert.ReferenceIdeal.RefValue.argW _ = wA m c :=
      funext fun r => funext fun k => congrFun (hagree c).2.1 (ix2 r k)
    have hB : Cert.ReferenceIdeal.RefValue.argB _ = bA m c :=
      funext fun r => congrFun (hagree c).2.2.1 (ix1 r)
    have hPW : Cert.ReferenceIdeal.RefValue.argPW _ = pwA m c :=
      funext fun d => funext fun k => congrFun (hagree c).2.2.2.1 (ix2 d k)
    have hPB : Cert.ReferenceIdeal.RefValue.argPB _ = pbA m c :=
      funext fun d => congrFun (hagree c).2.2.2.2 (ix1 d)
    show (Cert.ReferenceIdeal.Value.res_main_v32 (F := Ideal) m' c : Cert.ReferenceIdeal.S2x2048x1024.Idx → EReal)
      = (W7 m ρ c (Proc.devRef .tc Cert.KernelIdeal.main_v12) : Cert.KernelIdeal.S2x2048x1024.Idx → EReal)
    rw [Cert.ReferenceIdeal.Read.val_main_v32_eq]
    funext i
    obtain ⟨b, n, d, rfl⟩ : ∃ (b : Fin 2) (n : Fin 2048) (d : Fin 1024), i = ix3 b n d := ⟨i 0, i 1, i 2, eq_ix3 i⟩
    rw [Cert.ReferenceIdeal.RefValue.val_main_v32_at, hX, hW, hB, hPW, hPB]
    exact (hres m ρ c hx hw hb b n d).symm

end Cert.Proof.AttnClaims

end
-- ==== Proof.KRegion0.lean ====
import proofs.«179285_j61787399520573_2_alg».proof.Proof.Gen.Kernel.Launch
import proofs.«179285_j61787399520573_2_alg».proof.Proof.Gen.Kernel.Skeleton
import proofs.«179285_j61787399520573_2_alg».proof.Proof.Gen.Kernel.Points
import Idealize.ShloMosaic.Lib.Pipeline.FrameBody
import Idealize.ShloMosaic.Lib.Ring
import Idealize.ShloMosaic.Lib.Tactic

/-! # Region 0: the QKV projection, its half of the frame at entry contents V

The first region runs over 16 grid points. At point t it reads a block of 256 rows of the
activations (window 0), the whole bf16 weight (window 1) and the whole bias (window 2), and
writes three blocks of shape [1,16,256,64] — the q, k and v rows of those 256 positions, already
split into the 16 heads (windows 3, 4, 5). Nothing is carried from one point to the next: every
output block is stored whole at every point, so what each staging buffer holds after the body
is a function of the three input blocks alone.

Everything is stated at a parameter V, the TensorCore's buffer contents when the region is
entered, and is generic in the float model F. -/

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the block of point t whether or not it was fetched there, for any
    proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight is fetched once; its block index never moves, so its buffer holds the whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias, likewise fetched once, is in its buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S256x1024 := Rect.unit (s := S256x1024) ![0, 0] S256x1024.size inb_S256x1024_S256x1024_0_0
abbrev r0_1 : Rect S3072x1024 := Rect.unit (s := S3072x1024) ![0, 0] S3072x1024.size inb_S3072x1024_S3072x1024_0_0
abbrev r0_2 : Rect S3072 := Rect.unit (s := S3072) ![0] S3072.size inb_S3072_S3072_0
abbrev r0_3 : Rect S1x16x256x64 := Rect.unit (s := S1x16x256x64) ![0, 0, 0, 0] S1x16x256x64.size inb_S1x16x256x64_S1x16x256x64_0_0_0_0

/-! ## What the body leaves in each output window's buffer -/

/-- The q block after the body, from the three input blocks: its one whole store as a piece. -/
def out0_3 (x0 : Vec F S256x1024 .f32) (x1 : Vec F S3072x1024 .bf16) (x2 : Vec F S3072 .f32) : Vec F S1x16x256x64 .bf16 :=
  View.canon [⟨r0_3, k0_pay2 (View.ld x0 r0_0) (View.ld x1 r0_1) (View.ld x2 r0_2)⟩]

/-- The k block after the body. -/
def out0_4 (x0 : Vec F S256x1024 .f32) (x1 : Vec F S3072x1024 .bf16) (x2 : Vec F S3072 .f32) : Vec F S1x16x256x64 .bf16 :=
  View.canon [⟨r0_3, k0_pay3 (View.ld x0 r0_0) (View.ld x1 r0_1) (View.ld x2 r0_2)⟩]

/-- The v block after the body. -/
def out0_5 (x0 : Vec F S256x1024 .f32) (x1 : Vec F S3072x1024 .bf16) (x2 : Vec F S3072 .f32) : Vec F S1x16x256x64 .bf16 :=
  View.canon [⟨r0_3, k0_pay4 (View.ld x0 r0_0) (View.ld x1 r0_1) (View.ld x2 r0_2)⟩]

/-- A whole store covers the buffer. -/
theorem cover0_3 (p0 : Vec F S1x16x256x64 .bf16) (y : S1x16x256x64.Idx) :
    ∃ pc ∈ ([⟨r0_3, p0⟩] : List (View.Piece (Elt F) S1x16x256x64 .bf16)), y ∈ pc.1.set :=
  View.cover_of_tiled [⟨r0_3, p0⟩] S1x16x256x64.size (by rfl) y

/-! ## The body's triple -/

set_option maxHeartbeats 1000000 in
/-- The kernel body on whole staging memrefs — the three inputs' at contents x0, x1, x2, the three outputs' at
    anything — runs to the continuation holding the inputs' as they were and each output's at its block of the
    inputs. The body loads each output buffer before storing it whole; the loaded value is not used. -/
theorem sound_kernel0 (c : Dev nD) (E : Set ℕ) (i : grid0.Coords)
    (arg1 : Memref sig .tc .vmem S256x1024 .f32) (harg1 : arg1.IsWhole) (arg2 : Memref sig .tc .vmem S3072x1024 .bf16) (harg2 : arg2.IsWhole)
    (arg3 : Memref sig .tc .vmem S3072 .f32) (harg3 : arg3.IsWhole) (arg4 : Memref sig .tc .vmem S1x16x256x64 .bf16) (harg4 : arg4.IsWhole)
    (arg5 : Memref sig .tc .vmem S1x16x256x64 .bf16) (harg5 : arg5.IsWhole) (arg6 : Memref sig .tc .vmem S1x16x256x64 .bf16) (harg6 : arg6.IsWhole)
    (x0 : Vec F S256x1024 .f32) (x1 : Vec F S3072x1024 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_3 _)
  iexists _; isplitr
  swap; · iexact H5
  ipureintro
  exact View.read_writes_eq_canon _ _ _ (cover0_3 _)

/-! ## The pipeline's proof data -/

/-- The proof data of the region on core c: the arrays as the region finds them; after the body at point t each
    input's buffer at its block and each output's at its block of the three input blocks; the invariant is the
    untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Every window is held at the full share. -/
theorem q_eq0 (c : Dev nD) (w : Fin cfg0.W) : (dat0 V c).q w = fullShare := by
  dsimp only [dat0]

/-- Nothing is owed at any boundary. -/
theorem owed_eq0 (c : Dev nD) (t : Fin (cfg0.N + 1)) : (dat0 V c).owed t = 0 := by
  dsimp only [dat0]

/-- The invariant is the untouched rest of the core at every boundary. -/
theorem Φ_eq0 (c : Dev nD) (t : Fin (cfg0.N + 1)) : (dat0 V c).Φ t = Pipeline.ΦA spec0 c := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the region -/

/-- The invariant at the first boundary is the rest of the core as the launch hands it over. -/
theorem hin0 (c : Dev nD) : Pipeline.ΦA spec0 c ⊢ (dat0 V c).Φ 0 := .rfl

/-- and at the last boundary it is handed back unchanged. -/
theorem hout0 (c : Dev nD) : (dat0 V c).Φ (Fin.last cfg0.N) ⊢ Pipeline.ΦA spec0 c := .rfl

end Cert.Kernel.Rgn

end
-- ==== Proof.KRegion1RunA.lean ====
/-
  Region 1 (the attention kernel on its 32 × 2 × 2 grid), first part: the two branch conditions of the body in closed
  form over the grid, where the output window is idle, the memrefs the body is called with, the region invariant with
  the three scratch buffers (running maximum, running sum, accumulator) singled out, and the body's triple at a
  point with key tile 0: the scratch buffers are reset and then updated, the output block is not touched.
-/
import proofs.«179285_j61787399520573_2_alg».proof.Proof.Gen.Kernel.Launch
import proofs.«179285_j61787399520573_2_alg».proof.Proof.Gen.Kernel.Skeleton
import proofs.«179285_j61787399520573_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional of the body (key tile 0: reset the scratch buffers), from the grid coordinates. -/
abbrev cond1_0 (i : grid1.Coords) : Prop := (Scalar.cmpi .ne (Scalar.extui (Scalar.cmpi .eq (BitVec.ofNat 32 (i 2).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The last conditional of the body (key tile 1: store the output block). -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At an even point the output window is idle: nothing is stored into its block, -/
theorem idleAt1_3_A : ∀ t : Fin cfg1.N, cond1_0 (grid1.coords t) → ¬cond1_1 (grid1.coords t) → cfg1.idle 3 (grid1.coords t) = true := by decide +kernel
/-- and the block is not written back there. -/
theorem noFlush1_3_A : ∀ t : Fin cfg1.N, cond1_0 (grid1.coords t) → ¬cond1_1 (grid1.coords t) → (cfg1.win 3).flush t = false := by decide +kernel
/-- At an odd point the output window is live. -/
theorem liveAt1_3_B : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x1024x64 .bf16 := (Memref.whole cc1_stg3_0 : Memref sig .tc .vmem S1x1024x64 .bf16).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .bf16 := win1_3.stage (cfg1.slots t 3)
abbrev hs1_3 (t : Fin cfg1.N) : (ms1_3 t).IsWhole := hstage1_3 ((cfg1.slots t 3).cast nbuf1_3)
/-- The three scratch operands: the running maximum, the running sum, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-! ## The region invariant, the scratch buffers singled out -/

/-- Everything the region invariant holds besides the three scratch buffers: the other scoped buffers at some
    contents and the generator register at some state. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f) ∗ (∃ r, prngReg c r))

/-- The region invariant: the three scratch buffers at some contents, and the rest. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ (∃ d, owns (c : Thread nD τ) scM1_2 fullShare d) ∗ Rest1 c) := by
  have e : (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) := by
    unfold Pipeline.ΦA; rw [scopedRest1_eq]; simp only [scM1_0, scM1_1, scM1_2, owns_whole]; try rfl
  rw [e]; unfold Rest1
  have h1 : (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) : sProp 𝕄)
      ⊢ iprop((∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f) ∗ (∃ r, prngReg c r)) := by
    iintro ⟨⟨A0, A1, A2, A3, A4, A5, A6, A7, A8, A9, S0, S1, S2, B0, B1, B2, B3, B4, B5, B6, B7⟩, Hg⟩
    isplitl [S0]; · iexact S0
    isplitl [S1]; · iexact S1
    isplitl [S2]; · iexact S2
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact Hg
  have h2 : (iprop((∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) := by
    iintro ⟨S0, S1, S2, A0, A1, A2, A3, A4, A5, A6, A7, A8, A9, B0, B1, B2, B3, B4, B5, B6, B7, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    isplitl [S2]; · iexact S2
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  exact Entails.antisymm h1 h2

/-! ## The body at a point with key tile 0 -/

set_option maxHeartbeats 4000000 in
/-- At a point of key tile 0 (first conditional taken, last not): on whole memrefs — the three input blocks at their
    contents, the output block at contents handed back untouched, the scratch buffers at anything — the body runs to the
    continuation with the inputs and the output block as they were and each scratch buffer with the pieces its stores
    wrote (last store first): the reset, then the update of the tile. The pieces are what the execution finds. -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) :
    Σ' (L3 : List (View.Piece (Elt F) S1x1024x64 .bf16)), Σ' (LS0 : List (View.Piece (Elt F) S1024x1 .f32)), Σ' (LS1 : List (View.Piece (Elt F) S1024x1 .f32)), { LS2 : List (View.Piece (Elt F) S1024x64 .f32) //
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Rgn

end
-- ==== Proof.KRegion1RunB.lean ====
/-
  Region 1, the body's triple at a point with key tile 1: no reset; the scratch buffers hold what the point of key
  tile 0 left, the tile update is applied over them, and the output block is stored as accumulator / running sum.
-/
import proofs.«179285_j61787399520573_2_alg».proof.Proof.KRegion1RunA

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point of key tile 1 (first conditional not taken, last taken): on whole memrefs — the three input blocks at
    their contents, the scratch buffers at the contents the point before left, the output block at anything — the body
    runs to the continuation with the inputs as they were and the output block and each scratch buffer with the pieces
    its stores wrote. The pieces are what the execution finds. -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    Σ' (L3 : List (View.Piece (Elt F) S1x1024x64 .bf16)), Σ' (LS0 : List (View.Piece (Elt F) S1024x1 .f32)), Σ' (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Rgn

end
-- ==== Proof.KRegion1.lean ====
/-
  Region 1 of the program: the attention kernel on the grid (batch·head, query tile, key tile) = 32 × 2 × 2, point
  t = 4·bh + 2·qi + ki. Stated at a parameter `V`, the TensorCore's buffer contents when the region is entered.

  The kernel keeps three scratch buffers between points — the running maximum, the running sum and the accumulator of
  the online softmax. At a point with key tile 0 they are reset and updated with the tile, and the output block is left
  alone (the window is idle there and not written back); at the point with key tile 1 that follows they are updated over
  what the first point left and the output block is stored. `outsAt1` follows this recursion over the points; the region
  invariant `PhiS1` carries the three scratch buffers at `outsAt1`'s components from one point to the next.
-/
import proofs.«179285_j61787399520573_2_alg».proof.Proof.KRegion1RunB

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is `V`'s and whose body leaves the block in
    place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- At a point of key tile 0 nothing is stored into the output block: a placeholder nothing consults. -/
def out1_A_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) : Vec F S1x1024x64 .bf16 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Its stores into each scratch buffer cover the buffer (each store is of the whole buffer). -/
theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

theorem scover1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

theorem scover1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) (y : S1024x64.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x64.size (by sl_kernel_rfl) y

/-- What the point leaves in the running maximum, the running sum, the accumulator: the pieces read back. -/
def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

def sout1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

def sout1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1x1024x64 .bf16) (x1 : Vec F S1x1024x64 .bf16) (x2 : Vec F S1x1024x64 .bf16) : Vec F S1024x64 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- At a point of key tile 1 the store into the output block covers it, -/
theorem cover1_B_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1x1024x64.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x64.size (by sl_kernel_rfl) y

/-- and so do the stores into each scratch buffer. -/
theorem scover1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

theorem scover1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

theorem scover1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) (y : S1024x64.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x64.size (by sl_kernel_rfl) y

/-- What that point leaves in the output block and the three scratch buffers. -/
def out1_B_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1x1024x64 .bf16 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

def sout1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

def sout1_B_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

def sout1_B_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) : Vec F S1024x64 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-! ## What the output block and the scratch buffers hold after each point -/

/-- After an even point `t` (key tile 0): the output placeholder, then the three scratch buffers, from the point's blocks. -/
def outA (c : Dev nD) (t : Fin cfg1.N) (h0 : t.val % 2 = 0) : Vec F S1x1024x64 .bf16 × Vec F S1024x1 .f32 × Vec F S1024x1 .f32 × Vec F S1024x64 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t))

/-- After an odd point `t` (key tile 1), over the scratch contents `xs·` the point before left. -/
def outB (c : Dev nD) (t : Fin cfg1.N) (h1 : t.val % 2 = 1) (xs0 : Vec F S1024x1 .f32) (xs1 : Vec F S1024x1 .f32) (xs2 : Vec F S1024x64 .f32) : Vec F S1x1024x64 .bf16 × Vec F S1024x1 .f32 × Vec F S1024x1 .f32 × Vec F S1024x64 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => (by omega : ¬(t).val % 2 = 0) ((hcond1_0 t).mp h)) ((hcond1_1 t).mpr h1) (iblk1 V c 0 t) (iblk1 V c 1 t) (iblk1 V c 2 t) xs0 xs1 xs2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => (by omega : ¬(t).val % 2 = 0) ((hcond1_0 t).mp h)) ((hcond1_1 t).mpr h1) (iblk1 V c 0 t) (iblk1 V c 1 t) (iblk1 V c 2 t) xs0 xs1 xs2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => (by omega : ¬(t).val % 2 = 0) ((hcond1_0 t).mp h)) ((hcond1_1 t).mpr h1) (iblk1 V c 0 t) (iblk1 V c 1 t) (iblk1 V c 2 t) xs0 xs1 xs2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => (by omega : ¬(t).val % 2 = 0) ((hcond1_0 t).mp h)) ((hcond1_1 t).mpr h1) (iblk1 V c 0 t) (iblk1 V c 1 t) (iblk1 V c 2 t) xs0 xs1 xs2)

/-- THE RECURSION over the points: an even point starts afresh from its blocks, an odd point continues from the scratch
    contents of the point before. Components: the output block, the running maximum, the running sum, the accumulator. -/
def outsAt1 (c : Dev nD) : (n : ℕ) → n < cfg1.N → Vec F S1x1024x64 .bf16 × Vec F S1024x1 .f32 × Vec F S1024x1 .f32 × Vec F S1024x64 .f32
  | 0, hn => outA V c ⟨0, hn⟩ (Nat.zero_mod _)
  | n + 1, hn =>
    if h0 : (n + 1) % 2 = 0 then outA V c ⟨n + 1, hn⟩ h0
    else outB V c ⟨n + 1, hn⟩ (by show (n + 1) % 2 = 1; omega) (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 2 = 0) : outsAt1 V c t.val t.isLt = outA V c t h0 := by
  obtain ⟨n, hn⟩ := t
  cases n with
  | zero => exact rfl
  | succ n => exact (dif_pos h0).trans rfl

theorem outsAt1_B (c : Dev nD) (t : Fin cfg1.N) (h1 : t.val % 2 = 1) :
    outsAt1 V c t.val t.isLt = outB V c t h1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h1); omega)
  | succ n => exact (dif_neg (by (try dsimp only at h1); omega)).trans rfl

/-! ## The region invariant, point by point -/

/-- Before position `n`: at the start the launch's invariant (every scratch buffer at anything); afterwards the three
    scratch buffers at what the point before left, and the rest. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ Rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ Rest1 c) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ Rest1 c) := by
  cases n with
  | zero => exact absurd rfl hz
  | succ n => rfl

/-! ## The pipeline's proof data -/

/-- The proof data of the region on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window: an input at its block, the output at `outsAt1`'s first component. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the parity of the point says which case it is in. At
    an even point the invariant hands over the scratch buffers at anything (first point) or at what the point before left
    (forgotten: the case resets them), the output block goes through untouched; at an odd point the scratch buffers are
    handed over at what the even point before left. Either way the invariant takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0]
    unfold outA sout1_A_0 sout1_A_1 sout1_A_2; (try dsimp only)
    by_cases hz : t.val = 0
    · rw [PhiS1_castSucc V c t, PhiS1_zero V c _ _ hz, PhiA1_eq]
      iintro ⟨⟨HS0, HS1, HS2, HR⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS0, HS1, HS2, HR⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 HR]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h1]
    unfold outB out1_B_3 sout1_B_0 sout1_B_1 sout1_B_2; (try dsimp only)
    rw [PhiS1_castSucc V c t, PhiS1_pos V c _ _ hz]
    iintro ⟨⟨HS0, HS1, HS2, HR⟩, Ho, ⟨%d0, H0⟩, ⟨%d1, H1⟩, ⟨%d2, H2⟩, ⟨%d3, H3⟩⟩
    iapply ((kernelRun1_B c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 HR]
    · isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, HS1, HS2, HR⟩
  isplitl [HS0]; · iexists _; iexact HS0
  isplitl [HS1]; · iexists _; iexact HS1
  isplitl [HS2]; · iexists _; iexact HS2
  iexact HR

theorem hout1 (c : Dev nD) : (dat1 V c).Φ (Fin.last cfg1.N) ⊢ Pipeline.ΦA spec1 c :=
  Phi_out1 V c _ (by rw [Fin.val_last]; have : cfg1.N = 128 := N_1; omega)

end Cert.Kernel.Rgn

end
-- ==== Proof.KRegion2Run.lean ====
import proofs.«179285_j61787399520573_2_alg».proof.Proof.Gen.Kernel.Launch
import proofs.«179285_j61787399520573_2_alg».proof.Proof.Gen.Kernel.Skeleton
import proofs.«179285_j61787399520573_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The output projection's body, case by case

The third pallas_call accumulates, over the sixteen heads `h` of one row tile, the head's partial product into an
f32 accumulator it keeps between grid points: the first head's point resets the accumulator to zero before adding,
the last head's point stores accumulator plus bias into the output block. Three control cases, by the head
coordinate: A (`h = 0`), B (`0 < h < 15`), C (`h = 15`). This module holds the branch conditions in closed form, where
the output window is idle, the staging and accumulator memrefs, and the body's triple in each case. -/

/-! ## The body's branch conditions -/

/-- The condition of the body's first `scf.if` (the accumulator reset), from the grid coordinates: the head coordinate is 0. -/
abbrev cond2_0 (i : grid2.Coords) : Prop := (Scalar.cmpi .ne (Scalar.extui (Scalar.cmpi .eq (BitVec.ofNat 32 (i 1).val) 0#32)) 0#32) = 1#1
/-- It holds at the first head's points only — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second `scf.if` (the output store): the head coordinate is 15. -/
abbrev cond2_1 (i : grid2.Coords) : Prop := k2_cond2 i = 1#1
/-- It holds at the last head's points only — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Before the last head the output window is idle (nothing is stored into it) and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last head it is live. -/
theorem liveAt2_3 : ∀ t : Fin cfg2.N, cond2_1 (grid2.coords t) → cfg2.idle 3 (grid2.coords t) = false := by decide +kernel

/-! ## The memrefs the body is called with -/

/-- One staging buffer of the output window, through which its contents are stated (the choice does not matter). -/
abbrev VO2_3 : View sig .tc .vmem S512x1024 .f32 := (Memref.whole cc2_stg3_0 : Memref sig .tc .vmem S512x1024 .f32).view
/-- Each window's current staging memref at point `t`, and its wholeness. -/
abbrev ms2_0 (t : Fin cfg2.N) : Memref sig .tc .vmem S1x1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S512x1024 .f32 := Memref.whole cc2_scratch0
/-- The accumulator as a view: what it holds is stated through it. -/
abbrev VS2_0 : View sig .tc .vmem S512x1024 .f32 := scM2_0.view

/-- The scoped buffers of the other two pallas_calls, each whole at some contents, in front of `S`: the region's
    scoped rest with the accumulator's conjunct left open. -/
abbrev restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ S)

/-- The region's invariant with the accumulator as a memref owned at some contents. -/
theorem PhiA2_eq (c : Dev nD) :
    (Pipeline.ΦA spec2 c : sProp 𝕄)
      = iprop(restWith c iprop(∃ d, owns (c : Thread nD τ) scM2_0 fullShare d) ∗ (∃ r, prngReg c r)) := by
  unfold Pipeline.ΦA; rw [scopedRest2_eq]; simp only [scM2_0, owns_whole]; try rfl

/-! ## The body's triple, case by case: a subtype whose pieces the run finds -/

set_option maxHeartbeats 1000000 in
/-- CASE A (the first head: the reset taken, the output store not taken). On whole memrefs — the inputs' at their
    contents, the output's (idle here) at contents `xi3` handed back untouched, the accumulator at anything — the body
    runs to the continuation holding the inputs' as they were and the accumulator with the pieces `LS0` written: the
    pieces are the witness the run finds. -/
noncomputable def kernelRun2_A (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x1x512x64 .bf16) (x1 : Vec F S1x1024x64 .bf16) (x2 : Vec F S1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__proj_kernel i arg2 harg2 arg3 harg3 arg4 harg4 arg5 harg5 arg6 harg6) K } := by
  refine ⟨[], ?_, fun xi3 E K => ?run⟩
  case run =>
    simp only [cc2__proj_kernel_eq_skeleton]; unfold cc2__proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (a middle head: neither `scf.if` taken). The inputs' memrefs at their contents, the output's (idle here)
    at `xi3` handed back untouched, the accumulator at what the point before left (`xs0`); the body runs to the
    continuation holding the accumulator with the pieces `LS0` written. -/
noncomputable def kernelRun2_B (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x1x512x64 .bf16) (x1 : Vec F S1x1024x64 .bf16) (x2 : Vec F S1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__proj_kernel i arg2 harg2 arg3 harg3 arg4 harg4 arg5 harg5 arg6 harg6) K } := by
  refine ⟨[], ?_, fun xi3 E K => ?run⟩
  case run =>
    simp only [cc2__proj_kernel_eq_skeleton]; unfold cc2__proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (the last head: the reset not taken, the output store taken). The inputs' memrefs at their contents, the
    output's at anything, the accumulator at what the point before left (`xs0`); the body runs to the continuation
    holding the output's memref with the pieces `L3` written and the accumulator with `LS0`. -/
noncomputable def kernelRun2_C (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x1x512x64 .bf16) (x1 : Vec F S1x1024x64 .bf16) (x2 : Vec F S1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__proj_kernel i arg2 harg2 arg3 harg3 arg4 harg4 arg5 harg5 arg6 harg6) K } := by
  refine ⟨?_, ?_, fun E K => ?run⟩
  case run =>
    simp only [cc2__proj_kernel_eq_skeleton]; unfold cc2__proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Rgn

end
-- ==== Proof.KRegion2.lean ====
import proofs.«179285_j61787399520573_2_alg».proof.Proof.KRegion2Run

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The output projection's region at the entry contents `V`: proof data and body obligation -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- Case A stores nothing into the output window (idle at its points and not written back there): no pieces — a
    placeholder that nothing consults. -/
def out2_A_3 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x1x512x64 .bf16) (x1 : Vec F S1x1024x64 .bf16) (x2 : Vec F S1024 .f32) : Vec F S512x1024 .f32 :=
  VO2_3.read (Elt F) (VO2_3.writes (Elt F) VO2_3.junk (kernelRun2_A c i arg2 harg2 arg3 harg3 arg4 harg4 arg5 harg5 arg6 harg6 hc0 hc1 x0 x1 x2).1)

/-- Case A's pieces for the accumulator cover it. -/
theorem scover2_A_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x1x512x64 .bf16) (x1 : Vec F S1x1024x64 .bf16) (x2 : Vec F S1024 .f32) (y : S512x1024.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S512x1024.size (by sl_kernel_rfl) y

/-- What case A leaves in the accumulator: its pieces read back. -/
def sout2_A_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i)
    (x0 : Vec F S1x1x512x64 .bf16) (x1 : Vec F S1x1024x64 .bf16) (x2 : Vec F S1024 .f32) : Vec F S512x1024 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output window (idle at its points and not written back there): no pieces — a
    placeholder that nothing consults. -/
def out2_B_3 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x1x512x64 .bf16) (x1 : Vec F S1x1024x64 .bf16) (x2 : Vec F S1024 .f32) (xs0 : Vec F S512x1024 .f32) : Vec F S512x1024 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's pieces for the accumulator cover it. -/
theorem scover2_B_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x1x512x64 .bf16) (x1 : Vec F S1x1024x64 .bf16) (x2 : Vec F S1024 .f32) (xs0 : Vec F S512x1024 .f32) (y : S512x1024.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S512x1024.size (by sl_kernel_rfl) y

/-- What case B leaves in the accumulator: its pieces read back. -/
def sout2_B_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i)
    (x0 : Vec F S1x1x512x64 .bf16) (x1 : Vec F S1x1024x64 .bf16) (x2 : Vec F S1024 .f32) (xs0 : Vec F S512x1024 .f32) : Vec F S512x1024 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's pieces for the output window tile its block (one store of the whole block), so they cover it. -/
theorem cover2_C_3 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x1x512x64 .bf16) (x1 : Vec F S1x1024x64 .bf16) (x2 : Vec F S1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x1024.size (by sl_kernel_rfl) y

/-- What case C leaves in the output window's staging buffer: its pieces read back. -/
def out2_C_3 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x1x512x64 .bf16) (x1 : Vec F S1x1024x64 .bf16) (x2 : Vec F S1024 .f32) (xs0 : Vec F S512x1024 .f32) : Vec F S512x1024 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's pieces for the accumulator cover it. -/
theorem scover2_C_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x1x512x64 .bf16) (x1 : Vec F S1x1024x64 .bf16) (x2 : Vec F S1024 .f32) (xs0 : Vec F S512x1024 .f32) (y : S512x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x1024.size (by sl_kernel_rfl) y

/-- What case C leaves in the accumulator: its pieces read back. -/
def sout2_C_0 (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i)
    (x0 : Vec F S1x1x512x64 .bf16) (x1 : Vec F S1x1024x64 .bf16) (x2 : Vec F S1024 .f32) (xs0 : Vec F S512x1024 .f32) : Vec F S512x1024 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output window's buffer and the accumulator hold after each point -/

/-- THE ACCUMULATION. What the output window's staging buffer and the accumulator hold after the body at position `n`
    (a pair: the output, then the accumulator): the case the closed forms select at `n`, run at the point's memrefs and
    input blocks, the accumulator read at what this leaves at `n - 1`. -/
def outsAt2 (c : Dev nD) : (n : ℕ) → n < cfg2.N → Vec F S512x1024 .f32 × Vec F S512x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 16 = 0) (h1 : ¬t.val % 16 = 15) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left in the accumulator. -/
theorem outsAt2_B (c : Dev nD) (t : Fin cfg2.N) (h0 : ¬t.val % 16 = 0) (h1 : ¬t.val % 16 = 15) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left in the accumulator. -/
theorem outsAt2_C (c : Dev nD) (t : Fin cfg2.N) (h0 : ¬t.val % 16 = 0) (h1 : t.val % 16 = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The tracked invariant -/

/-- The region invariant before position `n`: before the first point the region's own (`ΦA`: the accumulator at
    anything); afterwards the scoped rest with the accumulator at what the point before left in it (`outsAt2`'s second
    component), and the generator register at some state. -/
def PhiS2 (c : Dev nD) : (n : ℕ) → n ≤ cfg2.N → sProp 𝕄
  | 0, _ => Pipeline.ΦA spec2 c
  | n + 1, hn => iprop(restWith c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(restWith c (owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(restWith c (owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the third pipeline on core `c`: the arrays as the region finds them (`V`); after the body at
    point `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := rfl
theorem owed_eq2 (c : Dev nD) (t : Fin (cfg2.N + 1)) : (dat2 V c).owed t = 0 := rfl

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the accumulator at what the point before left (at anything at a first head's point, where
    the body resets it) and takes it back at this point's contents; the output window is handed back untouched where
    it is idle and at the case's pieces at the last head; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 128 := lt_of_lt_of_eq t.isLt (show cfg2.N = 128 from N_2)
  by_cases h0 : t.val % 16 = 0
  · have h1 : ¬t.val % 16 = 15 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold sout2_A_0; (try dsimp only)
    by_cases hz : t.val = 0
    ·
      rw [PhiS2_castSucc V c t, PhiS2_zero V c _ _ hz, PhiA2_eq]
      unfold restWith
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          isplitl [HR20]; · iexact HR20
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    ·
      rw [PhiS2_castSucc V c t, PhiS2_pos V c _ _ hz]
      unfold restWith
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          isplitl [HR20]; · iexact HR20
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0; (try dsimp only)
      rw [PhiS2_castSucc V c t, PhiS2_pos V c _ _ hz]
      unfold restWith
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          isplitl [HR20]; · iexact HR20
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B_0; (try dsimp only)
      rw [PhiS2_castSucc V c t, PhiS2_pos V c _ _ hz]
      unfold restWith
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HR19]; · iexact HR19
          isplitl [HR20]; · iexact HR20
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold restWith
  iintro ⟨⟨HR0, HR1, HR2, HR3, HR4, HR5, HR6, HR7, HR8, HR9, HR10, HR11, HR12, HR13, HR14, HR15, HR16, HR17, HR18, HR19, HR20, HS0⟩, Hg⟩
  isplitl [HR0 HR1 HR2 HR3 HR4 HR5 HR6 HR7 HR8 HR9 HR10 HR11 HR12 HR13 HR14 HR15 HR16 HR17 HR18 HR19 HR20 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Cert.Kernel.Rgn

end
-- ==== Proof.KRun.lean ====
/-
  The run of the attention program's @main, for any float instance: seven segments — the host's re-laying of x and of
  the two weights, the QKV projection, the views of q, k and v as 32 batch-and-head slabs, the attention, the view of its
  output back as [2, 16, 2048, 64], the output projection accumulated over the sixteen heads, and the view of the result
  as [2, 2048, 1024]. The contents of every unscoped buffer are folded from the launch memory through the segments: a
  host stretch applies its operations, a pallas_call replaces its windows' arrays by what its write-backs leave. Every
  weakly fair execution terminates without a fault with memory at the fold's last contents; in particular the five
  argument arrays end as launched, since no host operation writes one and a pallas_call reads an argument only through an
  input window.
-/
import proofs.«179285_j61787399520573_2_alg».proof.Proof.KRegion0
import proofs.«179285_j61787399520573_2_alg».proof.Proof.KRegion1
import proofs.«179285_j61787399520573_2_alg».proof.Proof.KRegion2
import Idealize.ShloMosaic.Lib.Pipeline.RegionsLoop
import Idealize.ShloMosaic.Lib.Pipeline.FrameSuffix

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: a host stretch, the QKV projection, a host stretch, the attention, a host stretch, the output
    projection, a host stretch — seven segments, the buffers' contents folded from the launch memory to the return -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the reshape of x, the weights' change of format and re-layout). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After pallas_call 0: its arrays at what the write-backs leave, every other buffer as the call found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (q, k, v viewed as [32, 2048, 64]). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After pallas_call 1: its arrays at what the write-backs leave, every other buffer as the call found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the attention output viewed as [2, 16, 2048, 64]). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After pallas_call 2: its arrays at what the write-backs leave, every other buffer as the call found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch (the result viewed as [2, 2048, 1024]): the contents at the return. -/
abbrev W7 : Dev nD → Valuation τ sig (Elt F) := fun c => StableHlo.after hostOps3 (W6 m ρ c)

/-! ## The arguments end as launched: no host operation writes one, and a pallas_call either reads it through an
    input window or does not touch it -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W5 m ρ c (Proc.devRef .tc main_arg4) := (W6_arr m ρ c 2).trans (((dat2 (V5 m ρ) c).arrAt_in 2 rfl _).trans (A_eq2 (V5 m ρ) c 2))
    _ = W4 m ρ c (Proc.devRef .tc main_arg4) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
          repeat' apply And.intro
          all_goals exact StableHlo.devRef_ne_of_ne (by decide)))
    _ = m ((c : Thread nD τ).loc main_arg4) := rfl

/-! ## The proof data family and what rides beside the buffers -/

abbrev adm : (p : Fin 3) → (pcfgs (F := F) p).Adm := fun p => (cfgs p).toPCfg_adm
/-- Each pallas_call's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- Beside the buffers every segment carries the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem hostOps1_noalloc : (hostOps1 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem hostOps3_noalloc : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The three pallas_calls as segments -/

set_option backward.isDefEq.respectTransparency.types false in
/-- Pallas_call 0 as a segment: entered with every unscoped buffer at `W1`, left with them at `W2`. Its windows'
    arrays are split out of the unscoped buffers on entry and put back at their final contents on exit; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at `W3`, left with them at `W4`. Its windows'
    arrays are split out of the unscoped buffers on entry and put back at their final contents on exit; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) : sProp 𝕄) ⊢ Pipeline.ΦA spec1 c := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment: entered with every unscoped buffer at `W5`, left with them at `W6`. Its windows'
    arrays are split out of the unscoped buffers on entry and put back at their final contents on exit; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => owed_eq2 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q_eq2 (V5 m ρ) c w) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest (Ix := Unit) (Name := ℕ) (U := UR sig nD τ) (Lvl := ℕ) (Val := Elt F) spec2 c) : sProp 𝕄) ⊢ Pipeline.ΦA spec2 c := by
      unfold Pipeline.ΦA
      iintro ⟨Hp, -, Hr⟩
      isplitl [Hr]; · iexact Hr
      iexact Hp
    exact h.trans (hin2 (V5 m ρ) c)
  hout c := by
    rw [Pipeline.ownSems0_none]
    have h : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (V5 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (V5 m ρ) c w)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the seven segments, and the launch -/

abbrev segs : List (Pipeline.Seg (pcfgs (F := F)) adm (pdats m ρ) () defs₀ 𝒱₀ L lv) :=
  [ .host (hseg hostOps0 hostOps0_sub hostOps0_noalloc (W0 m ρ)),
    .region (reg0 m ρ),
    .host (hseg hostOps1 hostOps1_sub hostOps1_noalloc (W2 m ρ)),
    .region (reg1 m ρ),
    .host (hseg hostOps2 hostOps2_sub hostOps2_noalloc (W4 m ρ)),
    .region (reg2 m ρ),
    .host (hseg hostOps3 hostOps3_sub hostOps3_noalloc (W6 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and the final
    memory holds every unscoped buffer of every core at the fold's last contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩) (run_all m ρ)

end Cert.Kernel.Rgn

end
-- ==== Proof.ClaimsK.lean ====
/-
  The kernel as printed (its floats bit patterns) runs and leaves its arguments as launched: the frame of the run of @main,
  which does not depend on what the float operations compute.
-/
import proofs.«179285_j61787399520573_2_alg».proof.Defs
import proofs.«179285_j61787399520573_2_alg».proof.Proof.Gen.Kernel
import proofs.«179285_j61787399520573_2_alg».proof.Proof.Gen.Pre_finite_inputs
import proofs.«179285_j61787399520573_2_alg».proof.Proof.KRun

noncomputable section

namespace Cert.Proof.AttnClaims

open Idealize.ShloMosaic Idealize.SL.Sem

/-- The kernel at the bit-exact values runs and leaves its arguments as launched. -/
theorem frame_k : Cert.frame_Kernel := fun m ρ _ => Cert.Kernel.Rgn.frame (F := Bits) m ρ

end Cert.Proof.AttnClaims

end
-- ==== Proof.AttnOnline.lean ====
/-
  Online (two-tile) softmax attention for ONE query row and ONE output column, as plain functions on the
  extended reals. `s j k` is the scaled score of the row against key `1024 * j + k` (tile `j`, lane `k`);
  `v j k` is that key's value entry in the chosen output column. One tile step takes the running maximum
  `m`, the running sum `l` and the accumulator entry `a` to

      m' = max m (fold of max over the tile's scores, from -∞)
      l' = exp (m - m') * l + ∑ k, exp (s k - m')
      a' = exp (m - m') * a + ∑ k, exp (s k - m') * v k

  and the row's output entry is `a₂ / l₂` after the two tiles, from `m₀ = -∞`, `l₀ = a₀ = 0`. The start values are
  kept as the bit patterns they are written with; `m0_eq`, `l0_eq`, `a0_eq` give `⊥` and `0`.
-/
import Mathlib
import Idealize.ShloMosaic.PureOps.Ideal
import Idealize.ShloMosaic.PureOps.Ideal.Laws

noncomputable section

namespace Cert.AttnOnline

open Idealize.ShloMosaic

/-- The running maximum before the first tile: the f32 pattern of `-∞`. -/
def m0 : EReal := Ideal.ofBits .f32 0xFF800000#32
/-- The running sum before the first tile: the f32 pattern of `0`. -/
def l0 : EReal := Ideal.ofBits .f32 0x00000000#32
/-- The accumulator entry before the first tile: the f32 pattern of `0`. -/
def a0 : EReal := Ideal.ofBits .f32 0x00000000#32

theorem m0_eq : m0 = ⊥ := by simp [m0, Ideal.ofBits, Ideal.ieee]
theorem l0_eq : l0 = 0 := by simp [l0, Ideal.ofBits, Ideal.ieee]
theorem a0_eq : a0 = 0 := by simp [a0, Ideal.ofBits, Ideal.ieee]

/-- A tile's maximum score: the fold of `max` over the 1024 lanes, from the pattern of `-∞`. -/
def tileMax (s : Fin 1024 → EReal) : EReal :=
  (Finset.univ : Finset (Fin 1024)).fold max (Ideal.ofBits .f32 0xFF800000#32) s

/-- The running maximum after a tile. -/
def mNext (m : EReal) (s : Fin 1024 → EReal) : EReal := max m (tileMax s)

/-- The factor that rescales what was accumulated under the old maximum. -/
def alpha (m : EReal) (s : Fin 1024 → EReal) : EReal := Ideal.exp (m - mNext m s)

/-- A lane's weight in the tile, under the new maximum. -/
def p (m : EReal) (s : Fin 1024 → EReal) (k : Fin 1024) : EReal := Ideal.exp (s k - mNext m s)

/-- The running sum after a tile. -/
def lNext (m l : EReal) (s : Fin 1024 → EReal) : EReal := alpha m s * l + ∑ k : Fin 1024, p m s k

/-- The accumulator entry after a tile. -/
def aNext (m a : EReal) (s v : Fin 1024 → EReal) : EReal := alpha m s * a + ∑ k : Fin 1024, p m s k * v k

variable (s v : Fin 2 → Fin 1024 → EReal)

/-- After tile 0. -/
def m1 : EReal := mNext m0 (s 0)
def l1 : EReal := lNext m0 l0 (s 0)
def a1 : EReal := aNext m0 a0 (s 0) (v 0)

/-- After tile 1. -/
def m2 : EReal := mNext (m1 s) (s 1)
def l2 : EReal := lNext (m1 s) (l1 s) (s 1)
def a2 : EReal := aNext (m1 s) (a1 s v) (s 1) (v 1)

/-- The row's output entry in the chosen column. -/
def out : EReal := Ideal.div (a2 s v) (l2 s)

end Cert.AttnOnline
-- ==== Proof.ProjAccum.lean ====
import Mathlib
import Idealize.ShloMosaic.PureOps.Ideal
import Idealize.ShloMosaic.PureOps.Ideal.Laws

/-!
The output projection accumulated over the sixteen heads, at one output entry, as a plain function of the
sixteen per-head partial products and the bias entry — no program in it.

At one entry the kernel keeps an accumulator: the first head's point overwrites it with the f32 zero literal,
every head's point (the first included) adds that head's partial product to it, in the order of the heads,
and the last head's point stores the accumulator plus the bias entry as the output. `upTo z p n` is the
accumulator after the first `n` heads from the start value `z`; `out p bias` is the stored entry.
-/

noncomputable section

namespace Cert.ProjAccum

open Idealize.ShloMosaic

/-- The accumulator after the first `n` heads, started at `z`: head `n`'s partial product is added on the
    right of what the heads before it left. (Past the sixteenth head nothing is added.) -/
def upTo (z : EReal) (p : Fin 16 → EReal) : ℕ → EReal
  | 0 => z
  | n + 1 => if h : n < 16 then upTo z p n + p ⟨n, h⟩ else upTo z p n

@[simp] theorem upTo_zero (z : EReal) (p : Fin 16 → EReal) : upTo z p 0 = z := rfl

/-- One more head: its partial product is added on the right. -/
theorem upTo_succ (z : EReal) (p : Fin 16 → EReal) (n : ℕ) (hn : n < 16) :
    upTo z p (n + 1) = upTo z p n + p ⟨n, hn⟩ := by
  show (if h : n < 16 then upTo z p n + p ⟨n, h⟩ else upTo z p n) = _
  rw [dif_pos hn]

/-- The value the accumulator is reset to at the first head: the f32 pattern of all zero bits. -/
def zero32 : EReal := Ideal.ofBits .f32 0x00000000#32

/-- It is the extended real zero. -/
theorem zero32_eq : zero32 = 0 := Ideal.ofBits_zero_f32

/-- The accumulator after heads `0 … h` (that is, after the point of head `h`), from the zero literal. -/
def partialAcc (p : Fin 16 → EReal) (h : ℕ) : EReal := upTo zero32 p (h + 1)

/-- After the first head: the zero literal plus its partial product. -/
theorem partialAcc_zero (p : Fin 16 → EReal) : partialAcc p 0 = Ideal.ofBits .f32 0x00000000#32 + p 0 :=
  upTo_succ zero32 p 0 (by decide)

/-- After head `h + 1`: what head `h` left plus head `h + 1`'s partial product. -/
theorem partialAcc_succ (p : Fin 16 → EReal) (h : ℕ) (hh : h + 1 < 16) :
    partialAcc p (h + 1) = partialAcc p h + p ⟨h + 1, hh⟩ :=
  upTo_succ zero32 p (h + 1) hh

/-- The stored output entry: the accumulator after all sixteen heads, plus the bias entry. -/
def out (p : Fin 16 → EReal) (bias : EReal) : EReal := partialAcc p 15 + bias

end Cert.ProjAccum

end
-- ==== Proof.AttnLaw.lean ====
/-
  The algebra that joins a tiled evaluation of attention to the specification.

  1. The softmax-weighted sum of a row, computed ONLINE over two tiles of 1024 keys. Per tile the running maximum is
     raised to the tile's maximum, the running normaliser and the running weighted sum are rescaled by the exponential of
     the old maximum minus the new one, and the tile's exponentials (against the new maximum) are added. For real scores
     and values every running maximum after the first tile is a real number μ, the normaliser is ∑ exp (s − μ) over the keys
     seen so far and the weighted sum is ∑ exp (s − μ) · v over them: rescaling by exp (μ − μ') turns exp (s − μ) into
     exp (s − μ'). From −∞ the first rescaling factor is exp (−∞) = 0 and the first tile starts the sums. The quotient of the
     two sums does not depend on the shift μ, since exp (s − μ) = exp (−μ) · exp s and the factor cancels; so it is the
     softmax-weighted sum as the specification writes it, with the whole row's maximum as the shift.
  2. A sum over 16 · 64 features, accumulated head by head from 0, is the sum over the 1024 features: feature c belongs
     to head c / 64 at position c % 64.
  3. Sums and products of reals are reals: the projections and the scores of real arguments are real.
-/
import Idealize.ShloMosaic.PureOps.Ideal.Laws
import proofs.«179285_j61787399520573_2_alg».proof.Proof.AttnSpec
import proofs.«179285_j61787399520573_2_alg».proof.Proof.AttnOnline
import proofs.«179285_j61787399520573_2_alg».proof.Proof.ProjAccum

noncomputable section

open Idealize.ShloMosaic

namespace Cert.AttnLaw

open Cert.AttnSpec

/-! ### Patterns -/

theorem negInf_eq_bot : negInf = ⊥ := (rfl : negInf = Cert.AttnOnline.m0).trans Cert.AttnOnline.m0_eq

theorem zeroF_eq_zero : zeroF = 0 := Ideal.ofBits_zero_f32

/-- The scale is the real 1/8. -/
theorem scale_eq : scale = ((0.125 : ℝ) : EReal) := by
  simp [scale, Ideal.ofBits, Ideal.ieee, -EReal.coe_mul]; norm_num

/-! ### Sums and maxima of coerced reals -/

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-- The fold of `max` from −∞ over a nonempty finite family of reals is a real. -/
theorem fold_max_real {ι : Type*} (t : Finset ι) (ht : t.Nonempty) (f : ι → ℝ) :
    ∃ r : ℝ, t.fold max (⊥ : EReal) (fun i => (f i : EReal)) = (r : EReal) := by
  classical
  induction ht using Finset.Nonempty.cons_induction with
  | singleton a => exact ⟨f a, by rw [Finset.fold_singleton]; exact max_bot_right _⟩
  | cons a s ha hs ih =>
    obtain ⟨r, hr⟩ := ih
    exact ⟨max (f a) r, by rw [Finset.fold_cons, hr, coe_max]⟩

/-! ### One step of the online recurrence over a tile of real scores and values -/

open Cert.AttnOnline in
/-- The first tile, from −∞, 0 and 0: the maximum is a real μ and the sums are the tile's, against μ. -/
theorem step_from_bot (s v : Fin 1024 → ℝ) :
    ∃ μ : ℝ, mNext (⊥ : EReal) (fun k => (s k : EReal)) = (μ : EReal)
      ∧ lNext (⊥ : EReal) 0 (fun k => (s k : EReal)) = ((∑ k, Real.exp (s k - μ) : ℝ) : EReal)
      ∧ aNext (⊥ : EReal) 0 (fun k => (s k : EReal)) (fun k => (v k : EReal))
          = ((∑ k, Real.exp (s k - μ) * v k : ℝ) : EReal) := by
  obtain ⟨r, hr⟩ := fold_max_real Finset.univ Finset.univ_nonempty s
  have hM : mNext (⊥ : EReal) (fun k => (s k : EReal)) = (r : EReal) := by
    unfold mNext tileMax; rw [← m0, m0_eq, hr]; exact max_bot_left _
  refine ⟨r, hM, ?_, ?_⟩
  · unfold lNext alpha p
    rw [hM, mul_zero, zero_add, coe_sum]
    exact Finset.sum_congr rfl fun k _ => by rw [← EReal.coe_sub, Ideal.exp_coe]
  · unfold aNext alpha p
    rw [hM, mul_zero, zero_add, coe_sum]
    exact Finset.sum_congr rfl fun k _ => by rw [← EReal.coe_sub, Ideal.exp_coe, EReal.coe_mul]

open Cert.AttnOnline in
/-- A later tile, from a real maximum μ and real sums. -/
theorem step_from_real (μ L A : ℝ) (s v : Fin 1024 → ℝ) :
    ∃ μ' : ℝ, mNext (μ : EReal) (fun k => (s k : EReal)) = (μ' : EReal)
      ∧ lNext (μ : EReal) (L : EReal) (fun k => (s k : EReal))
          = ((Real.exp (μ - μ') * L + ∑ k, Real.exp (s k - μ') : ℝ) : EReal)
      ∧ aNext (μ : EReal) (A : EReal) (fun k => (s k : EReal)) (fun k => (v k : EReal))
          = ((Real.exp (μ - μ') * A + ∑ k, Real.exp (s k - μ') * v k : ℝ) : EReal) := by
  obtain ⟨r, hr⟩ := fold_max_real Finset.univ Finset.univ_nonempty s
  have hM : mNext (μ : EReal) (fun k => (s k : EReal)) = ((max μ r : ℝ) : EReal) := by
    unfold mNext tileMax; rw [← m0, m0_eq, hr, coe_max]
  refine ⟨max μ r, hM, ?_, ?_⟩
  · unfold lNext alpha p
    rw [hM, EReal.coe_add, EReal.coe_mul, coe_sum, ← EReal.coe_sub, Ideal.exp_coe]
    exact congrArg (_ + ·) (Finset.sum_congr rfl fun k _ => by rw [← EReal.coe_sub, Ideal.exp_coe])
  · unfold aNext alpha p
    rw [hM, EReal.coe_add, EReal.coe_mul, coe_sum, ← EReal.coe_sub, Ideal.exp_coe]
    exact congrArg (_ + ·) (Finset.sum_congr rfl fun k _ => by rw [← EReal.coe_sub, Ideal.exp_coe, EReal.coe_mul])

/-! ### The 2048 keys as two tiles of 1024 -/

/-- Key `1024 · j + k`: lane `k` of tile `j`. -/
def key (j : Fin 2) (k : Fin 1024) : Fin 2048 :=
  ⟨1024 * j.val + k.val, by have := j.isLt; have := k.isLt; omega⟩

/-- A sum over the keys is the sum over tile 0 plus the sum over tile 1. -/
theorem sum_keys {M : Type*} [AddCommMonoid M] (f : Fin 2048 → M) :
    ∑ K : Fin 2048, f K = ∑ k : Fin 1024, f (key 0 k) + ∑ k : Fin 1024, f (key 1 k) := by
  refine (@Fin.sum_univ_add M _ 1024 1024 f).trans ?_
  refine congrArg₂ (· + ·) (Finset.sum_congr rfl fun k _ => congrArg f (Fin.ext ?_))
    (Finset.sum_congr rfl fun k _ => congrArg f (Fin.ext ?_))
  · show k.val = 1024 * 0 + k.val; omega
  · show 1024 + k.val = 1024 * 1 + k.val; omega

/-! ### The real-number core -/

theorem exp_shift (a b c : ℝ) : Real.exp (a - b) * Real.exp (c - a) = Real.exp (-b) * Real.exp c := by
  rw [← Real.exp_add, ← Real.exp_add]; congr 1; ring

theorem exp_shift' (c b : ℝ) : Real.exp (c - b) = Real.exp (-b) * Real.exp c := by
  rw [← Real.exp_add]; congr 1; ring

/-- Two tiles' rescaled sums, divided, are the softmax-weighted sum under any shift `M`. -/
theorem real_core (S V : Fin 2048 → ℝ) (μ1 μ2 M : ℝ) :
    (Real.exp (μ1 - μ2) * (∑ k : Fin 1024, Real.exp (S (key 0 k) - μ1) * V (key 0 k))
        + ∑ k : Fin 1024, Real.exp (S (key 1 k) - μ2) * V (key 1 k))
      * (1 / (Real.exp (μ1 - μ2) * (∑ k : Fin 1024, Real.exp (S (key 0 k) - μ1))
        + ∑ k : Fin 1024, Real.exp (S (key 1 k) - μ2)))
    = ∑ K : Fin 2048, Real.exp (S K - M) * (1 / ∑ K' : Fin 2048, Real.exp (S K' - M)) * V K := by
  have hA : Real.exp (μ1 - μ2) * (∑ k : Fin 1024, Real.exp (S (key 0 k) - μ1) * V (key 0 k))
        + ∑ k : Fin 1024, Real.exp (S (key 1 k) - μ2) * V (key 1 k)
      = Real.exp (-μ2) * ∑ K : Fin 2048, Real.exp (S K) * V K := by
    rw [sum_keys (fun K => Real.exp (S K) * V K), mul_add, Finset.mul_sum, Finset.mul_sum, Finset.mul_sum]
    refine congrArg₂ (· + ·) (Finset.sum_congr rfl fun k _ => ?_) (Finset.sum_congr rfl fun k _ => ?_)
    · rw [← mul_assoc, exp_shift, mul_assoc]
    · rw [exp_shift', mul_assoc]
  have hL : Real.exp (μ1 - μ2) * (∑ k : Fin 1024, Real.exp (S (key 0 k) - μ1))
        + ∑ k : Fin 1024, Real.exp (S (key 1 k) - μ2)
      = Real.exp (-μ2) * ∑ K : Fin 2048, Real.exp (S K) := by
    rw [sum_keys (fun K => Real.exp (S K)), mul_add, Finset.mul_sum, Finset.mul_sum, Finset.mul_sum]
    refine congrArg₂ (· + ·) (Finset.sum_congr rfl fun k _ => ?_) (Finset.sum_congr rfl fun k _ => ?_)
    · exact exp_shift _ _ _
    · exact exp_shift' _ _
  have hD : ∑ K' : Fin 2048, Real.exp (S K' - M) = Real.exp (-M) * ∑ K' : Fin 2048, Real.exp (S K') := by
    rw [Finset.mul_sum]; exact Finset.sum_congr rfl fun k _ => exp_shift' _ _
  have hR : ∑ K : Fin 2048, Real.exp (S K - M) * (1 / ∑ K' : Fin 2048, Real.exp (S K' - M)) * V K
      = (Real.exp (-M) * (1 / (Real.exp (-M) * ∑ K' : Fin 2048, Real.exp (S K')))) * ∑ K : Fin 2048, Real.exp (S K) * V K := by
    rw [hD]
    refine (Finset.sum_congr rfl fun k _ => ?_).trans (Finset.mul_sum _ _ _).symm
    rw [exp_shift']; ring
  have hpos : 0 < ∑ K : Fin 2048, Real.exp (S K) :=
    Finset.sum_pos (fun k _ => Real.exp_pos _) Finset.univ_nonempty
  rw [hA, hL, hR]
  have h1 := (Real.exp_pos (-μ2)).ne'
  have h2 := (Real.exp_pos (-M)).ne'
  have h3 := hpos.ne'
  field_simp

/-! ### The specification's row, for real scores and values -/

/-- The row's weighted sum is a real quotient, with the row's maximum (a real) as the shift. -/
theorem rowAttn_real (S V : Fin 2048 → ℝ) :
    ∃ M : ℝ, rowAttn (fun k => (S k : EReal)) (fun k => (V k : EReal))
      = ((∑ K : Fin 2048, Real.exp (S K - M) * (1 / ∑ K' : Fin 2048, Real.exp (S K' - M)) * V K : ℝ) : EReal) := by
  obtain ⟨M, hM⟩ := fold_max_real Finset.univ Finset.univ_nonempty S
  have hmax : rowMax (fun k => (S k : EReal)) = (M : EReal) := by
    unfold rowMax; rw [negInf_eq_bot, hM]; exact max_bot_left _
  have hexp : ∀ k, rowExp (fun k => (S k : EReal)) k = ((Real.exp (S k - M) : ℝ) : EReal) := fun k => by
    unfold rowExp; rw [hmax, ← EReal.coe_sub, Ideal.exp_coe]
  have hden : rowDen (fun k => (S k : EReal)) = ((∑ K' : Fin 2048, Real.exp (S K' - M) : ℝ) : EReal) := by
    unfold rowDen; rw [zeroF_eq_zero, zero_add, coe_sum]
    exact Finset.sum_congr rfl fun k _ => hexp k
  have hpos : 0 < ∑ K' : Fin 2048, Real.exp (S K' - M) :=
    Finset.sum_pos (fun k _ => Real.exp_pos _) Finset.univ_nonempty
  refine ⟨M, ?_⟩
  unfold rowAttn
  rw [coe_sum]
  refine Finset.sum_congr rfl fun k _ => ?_
  unfold rowSoftmax
  rw [hexp, hden, Ideal.div_coe hpos.ne', ← EReal.coe_mul, ← EReal.coe_mul]

/-! ### The online evaluation is the specification's row -/

open Cert.AttnOnline in
theorem out_eq_rowAttn_real (S V : Fin 2048 → ℝ) :
    out (fun j k => (S (key j k) : EReal)) (fun j k => (V (key j k) : EReal))
      = rowAttn (fun k => (S k : EReal)) (fun k => (V k : EReal)) := by
  obtain ⟨μ1, hm1, hl1, ha1⟩ := step_from_bot (fun k => S (key 0 k)) (fun k => V (key 0 k))
  obtain ⟨μ2, _, hl2, ha2⟩ := step_from_real μ1 (∑ k, Real.exp (S (key 0 k) - μ1))
    (∑ k, Real.exp (S (key 0 k) - μ1) * V (key 0 k)) (fun k => S (key 1 k)) (fun k => V (key 1 k))
  obtain ⟨M, hR⟩ := rowAttn_real S V
  have hpos : 0 < Real.exp (μ1 - μ2) * (∑ k : Fin 1024, Real.exp (S (key 0 k) - μ1))
      + ∑ k : Fin 1024, Real.exp (S (key 1 k) - μ2) :=
    add_pos_of_nonneg_of_pos
      (mul_nonneg (Real.exp_pos _).le (Finset.sum_nonneg fun k _ => (Real.exp_pos _).le))
      (Finset.sum_pos (fun k _ => Real.exp_pos _) Finset.univ_nonempty)
  rw [hR]
  show Ideal.div
      (aNext (mNext m0 (fun k => (S (key 0 k) : EReal)))
        (aNext m0 a0 (fun k => (S (key 0 k) : EReal)) (fun k => (V (key 0 k) : EReal)))
        (fun k => (S (key 1 k) : EReal)) (fun k => (V (key 1 k) : EReal)))
      (lNext (mNext m0 (fun k => (S (key 0 k) : EReal)))
        (lNext m0 l0 (fun k => (S (key 0 k) : EReal))) (fun k => (S (key 1 k) : EReal))) = _
  rw [m0_eq, l0_eq, a0_eq, hm1, hl1, ha1, hl2, ha2, Ideal.div_coe hpos.ne', ← EReal.coe_mul, real_core S V μ1 μ2 M]

/-- THE LAW of the attention region: for real scores and values, the two-tile online evaluation of a row
    (tile `j`, lane `k` holding key `1024 · j + k`) is the specification's softmax-weighted sum of the row. -/
theorem out_eq_rowAttn (S V : Fin 2048 → EReal) (hS : ∀ k, ∃ r : ℝ, S k = (r : EReal))
    (hV : ∀ k, ∃ r : ℝ, V k = (r : EReal)) :
    Cert.AttnOnline.out (fun j k => S (key j k)) (fun j k => V (key j k)) = rowAttn S V := by
  choose sr hsr using hS
  choose vr hvr using hV
  obtain rfl : S = fun k => (sr k : EReal) := funext hsr
  obtain rfl : V = fun k => (vr k : EReal) := funext hvr
  exact out_eq_rowAttn_real sr vr

/-! ### The output projection accumulated head by head -/

/-- The accumulator after `n` heads is the start value plus the first `n` heads' terms. -/
theorem upTo_eq_sum (z : EReal) (p : Fin 16 → EReal) :
    ∀ (n : ℕ) (hn : n ≤ 16), Cert.ProjAccum.upTo z p n = z + ∑ i : Fin n, p ⟨i.val, lt_of_lt_of_le i.isLt hn⟩
  | 0, _ => by simp
  | n + 1, hn => by
    rw [Cert.ProjAccum.upTo_succ z p n (by omega), upTo_eq_sum z p n (by omega), Fin.sum_univ_castSucc, add_assoc]
    rfl

/-- A sum over the 1024 concatenated features is the sum over the 16 heads of the sums over the 64 positions. -/
theorem sum_heads {M : Type*} [AddCommMonoid M] (f : Fin 16 → Fin 64 → M) :
    ∑ h : Fin 16, ∑ e : Fin 64, f h e = ∑ c : Fin 1024, f (colHead c) (colPos c) := by
  rw [← Fintype.sum_prod_type' f]
  refine Fintype.sum_equiv (finProdFinEquiv : Fin 16 × Fin 64 ≃ Fin (16 * 64)) _ (fun c : Fin 1024 => f (colHead c) (colPos c))
    fun x => ?_
  obtain ⟨h, e⟩ := x
  have hh := h.isLt; have he := e.isLt
  have e1 : colHead (finProdFinEquiv (h, e)) = h := Fin.ext (by
    show (e.val + 64 * h.val) / 64 = h.val; omega)
  have e2 : colPos (finProdFinEquiv (h, e)) = e := Fin.ext (by
    show (e.val + 64 * h.val) % 64 = e.val; omega)
  show f h e = f (colHead (finProdFinEquiv (h, e))) (colPos (finProdFinEquiv (h, e)))
  rw [e1, e2]

/-- THE LAW of the projection region: the head-by-head accumulation from the zero pattern, plus the bias, is the sum over
    the 1024 features plus the bias. No finiteness: regrouping in a commutative monoid. -/
theorem projAccum_out_eq (o w : Fin 16 → Fin 64 → EReal) (bias : EReal) :
    Cert.ProjAccum.out (fun h => ∑ e : Fin 64, o h e * w h e) bias
      = (∑ c : Fin 1024, o (colHead c) (colPos c) * w (colHead c) (colPos c)) + bias := by
  unfold Cert.ProjAccum.out Cert.ProjAccum.partialAcc
  rw [upTo_eq_sum _ _ 16 le_rfl, Cert.ProjAccum.zero32_eq, zero_add, ← sum_heads (fun h e => o h e * w h e)]

/-! ### Real arguments give real projections and scores -/

section Real
variable (x : Fin 2 → Fin 2048 → Fin 1024 → EReal) (w : Fin 3072 → Fin 1024 → EReal) (bq : Fin 3072 → EReal)

theorem qkv_real (hx : ∀ b n c, ∃ r : ℝ, x b n c = (r : EReal)) (hw : ∀ r c, ∃ t : ℝ, w r c = (t : EReal))
    (hb : ∀ r, ∃ t : ℝ, bq r = (t : EReal)) (s : Fin 3) (b : Fin 2) (h : Fin 16) (n : Fin 2048) (e : Fin 64) :
    ∃ r : ℝ, qkv x w bq s b h n e = (r : EReal) := by
  choose xr hxr using hx
  choose wr hwr using hw
  choose br hbr using hb
  refine ⟨(∑ c : Fin 1024, xr b n c * wr (qkvRow s h e) c) + br (qkvRow s h e), ?_⟩
  unfold qkv
  rw [EReal.coe_add, coe_sum, hbr]
  exact congrArg (· + _) (Finset.sum_congr rfl fun c _ => by rw [hxr, hwr, EReal.coe_mul])

theorem Qh_real (hx : ∀ b n c, ∃ r : ℝ, x b n c = (r : EReal)) (hw : ∀ r c, ∃ t : ℝ, w r c = (t : EReal))
    (hb : ∀ r, ∃ t : ℝ, bq r = (t : EReal)) (b : Fin 2) (h : Fin 16) (n : Fin 2048) (e : Fin 64) :
    ∃ r : ℝ, Qh x w bq b h n e = (r : EReal) := qkv_real x w bq hx hw hb 0 b h n e

theorem Kh_real (hx : ∀ b n c, ∃ r : ℝ, x b n c = (r : EReal)) (hw : ∀ r c, ∃ t : ℝ, w r c = (t : EReal))
    (hb : ∀ r, ∃ t : ℝ, bq r = (t : EReal)) (b : Fin 2) (h : Fin 16) (n : Fin 2048) (e : Fin 64) :
    ∃ r : ℝ, Kh x w bq b h n e = (r : EReal) := qkv_real x w bq hx hw hb 1 b h n e

theorem Vh_real (hx : ∀ b n c, ∃ r : ℝ, x b n c = (r : EReal)) (hw : ∀ r c, ∃ t : ℝ, w r c = (t : EReal))
    (hb : ∀ r, ∃ t : ℝ, bq r = (t : EReal)) (b : Fin 2) (h : Fin 16) (n : Fin 2048) (e : Fin 64) :
    ∃ r : ℝ, Vh x w bq b h n e = (r : EReal) := qkv_real x w bq hx hw hb 2 b h n e

theorem score_real (hx : ∀ b n c, ∃ r : ℝ, x b n c = (r : EReal)) (hw : ∀ r c, ∃ t : ℝ, w r c = (t : EReal))
    (hb : ∀ r, ∃ t : ℝ, bq r = (t : EReal)) (b : Fin 2) (h : Fin 16) (n k : Fin 2048) :
    ∃ r : ℝ, score x w bq b h n k = (r : EReal) := by
  choose qr hqr using fun e => Qh_real x w bq hx hw hb b h n e
  choose kr hkr using fun e => Kh_real x w bq hx hw hb b h k e
  refine ⟨(∑ e : Fin 64, qr e * kr e) * 0.125, ?_⟩
  unfold score
  rw [scale_eq, EReal.coe_mul, coe_sum]
  exact congrArg (· * _) (Finset.sum_congr rfl fun e _ => by rw [hqr, hkr, EReal.coe_mul])

end Real

/-! ### The two laws against the specification's layers -/

/-- Head `c / 64`, position `c % 64` is feature `c` again. -/
theorem headCol_colHead_colPos (c : Fin 1024) : headCol (colHead c) (colPos c) = c :=
  Fin.ext (by show 64 * (c.val / 64) + c.val % 64 = c.val; omega)

theorem colHead_headCol (h : Fin 16) (e : Fin 64) : colHead (headCol h e) = h :=
  Fin.ext (by have := h.isLt; have := e.isLt; show (64 * h.val + e.val) / 64 = h.val; omega)

theorem colPos_headCol (h : Fin 16) (e : Fin 64) : colPos (headCol h e) = e :=
  Fin.ext (by have := h.isLt; have := e.isLt; show (64 * h.val + e.val) % 64 = e.val; omega)

/-- The same law with the second factor a function of the feature: head `h`'s term pairs position `e` with
    feature `64 · h + e`. -/
theorem projAccum_out_eq_cols (o : Fin 16 → Fin 64 → EReal) (g : Fin 1024 → EReal) (bias : EReal) :
    Cert.ProjAccum.out (fun h => ∑ e : Fin 64, o h e * g (headCol h e)) bias
      = (∑ c : Fin 1024, o (colHead c) (colPos c) * g c) + bias := by
  rw [projAccum_out_eq o (fun h e => g (headCol h e)) bias]
  simp only [headCol_colHead_colPos]

/-- The projection region against the specification: the head-by-head accumulation of the attention outputs against
    row `d` of the output weights, plus the bias entry, is the result at (b, n, d). -/
theorem projAccum_out_eq_result (x : Fin 2 → Fin 2048 → Fin 1024 → EReal) (w : Fin 3072 → Fin 1024 → EReal)
    (bq : Fin 3072 → EReal) (pw : Fin 1024 → Fin 1024 → EReal) (pb : Fin 1024 → EReal)
    (b : Fin 2) (n : Fin 2048) (d : Fin 1024) :
    Cert.ProjAccum.out (fun h => ∑ e : Fin 64, A x w bq b h n e * pw d (headCol h e)) (pb d)
      = result x w bq pw pb b n d :=
  projAccum_out_eq_cols (fun h e => A x w bq b h n e) (pw d) (pb d)

/-- The attention region against the specification: for real arguments the two-tile online evaluation of row
    (b, h, n), column `e`, is the attention output there. -/
theorem out_eq_A (x : Fin 2 → Fin 2048 → Fin 1024 → EReal) (w : Fin 3072 → Fin 1024 → EReal) (bq : Fin 3072 → EReal)
    (hx : ∀ b n c, ∃ r : ℝ, x b n c = (r : EReal)) (hw : ∀ r c, ∃ t : ℝ, w r c = (t : EReal))
    (hb : ∀ r, ∃ t : ℝ, bq r = (t : EReal)) (b : Fin 2) (h : Fin 16) (n : Fin 2048) (e : Fin 64) :
    Cert.AttnOnline.out (fun j k => score x w bq b h n (key j k)) (fun j k => Vh x w bq b h (key j k) e)
      = A x w bq b h n e :=
  (out_eq_rowAttn (score x w bq b h n) (fun k => Vh x w bq b h k e)
    (fun k => score_real x w bq hx hw hb b h n k) (fun k => Vh_real x w bq hx hw hb b h k e)).trans
    (A_eq_rowAttn x w bq b h n e).symm

end Cert.AttnLaw

end
-- ==== Proof.Region1Value.lean ====
/-
  Region 1, the values. First, generic in the float instance: what each case of the attention kernel's body leaves in the
  three scratch buffers and in the output block, as the kernel's own arithmetic (the payloads `k1_pay·`) of the blocks it
  loads. Then, at the extended reals and at explicit coordinates (query row `r`, output column `e`): each payload read at
  an index is one step of the online softmax of `Cert.AttnOnline` on the row's scaled scores
  `s k = (∑ d, q r d · k k d) · 2⁻³` and the column's value entries `v k`; what the scratch buffers hold after the first
  key tile and what the output block holds after the second; and the whole output array after the region.
-/
import proofs.«179285_j61787399520573_2_alg».proof.Proof.Region1
import proofs.«179285_j61787399520573_2_alg».proof.Proof.AttnOnline
import proofs.«179285_j61787399520573_2_alg».proof.Proof.AttnLaw
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## What each case leaves, as the kernel's payloads (any float instance) -/

theorem att_hz2 : (![0, 0] : Fin 2 → Nat) = fun _ => 0 := funext fun a => by fin_cases a <;> rfl
theorem att_hz3 : (![0, 0, 0] : Fin 3 → Nat) = fun _ => 0 := funext fun a => by fin_cases a <;> rfl

/-- One tile's update of the running maximum `m`, the running sum `l`, the accumulator `a`, from the query block `x0`,
    the key block `x1`, the value block `x2`; and the output block from the accumulator and the sum. -/
abbrev newM (x0 x1 : Vec F S1x1024x64 .bf16) (m : Vec F S1024x1 .f32) : Vec F S1024x1 .f32 := k1_pay2 (k1_pay9 x0 x1 m)
abbrev newL (x0 x1 : Vec F S1x1024x64 .bf16) (m l : Vec F S1024x1 .f32) : Vec F S1024x1 .f32 := k1_pay12 x0 x1 m m l
abbrev newA (x0 x1 x2 : Vec F S1x1024x64 .bf16) (m : Vec F S1024x1 .f32) (a : Vec F S1024x64 .f32) : Vec F S1024x64 .f32 :=
  k1_pay1 (k1_pay7 x2) (k1_pay10 x0 x1 m m) (k1_pay11 x0 x1 m) a

/-- At a point of key tile 0 the scratch buffers end at the update of the reset values. -/
theorem soutA0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (x0 : Vec F S1x1024x64 .bf16) (x1 : Vec F S1x1024x64 .bf16) (x2 : Vec F S1x1024x64 .bf16) :
    sout1_A_0 c i arg3 harg3 arg4 harg4 arg5 harg5 arg6 harg6 arg7 harg7 arg8 harg8 arg9 harg9 hc0 hc1 x0 x1 x2 = newM x0 x1 (k1_pay4 (F := F)) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  try sl_unfold_words
  rw [View.canon_cons_unit_zero att_hz2]
  simp only [View.readAt_eq_ld, harg3.read_unread, harg4.read_unread, harg5.read_unread, View.ld_unit_zero (S := S1x1024x64) att_hz3, View.readCov_unit_zero (S := S1024x1) _ att_hz2, View.readCov_unit_zero (S := S1024x64) _ att_hz2]

theorem soutA1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (x0 : Vec F S1x1024x64 .bf16) (x1 : Vec F S1x1024x64 .bf16) (x2 : Vec F S1x1024x64 .bf16) :
    sout1_A_1 c i arg3 harg3 arg4 harg4 arg5 harg5 arg6 harg6 arg7 harg7 arg8 harg8 arg9 harg9 hc0 hc1 x0 x1 x2 = newL x0 x1 (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  try sl_unfold_words
  rw [View.canon_cons_unit_zero att_hz2]
  simp only [View.readAt_eq_ld, harg3.read_unread, harg4.read_unread, harg5.read_unread, View.ld_unit_zero (S := S1x1024x64) att_hz3, View.readCov_unit_zero (S := S1024x1) _ att_hz2, View.readCov_unit_zero (S := S1024x64) _ att_hz2]

theorem soutA2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i) (x0 : Vec F S1x1024x64 .bf16) (x1 : Vec F S1x1024x64 .bf16) (x2 : Vec F S1x1024x64 .bf16) :
    sout1_A_2 c i arg3 harg3 arg4 harg4 arg5 harg5 arg6 harg6 arg7 harg7 arg8 harg8 arg9 harg9 hc0 hc1 x0 x1 x2 = newA x0 x1 x2 (k1_pay4 (F := F)) (k1_pay6 (F := F)) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  try sl_unfold_words
  rw [View.canon_cons_unit_zero att_hz2]
  simp only [View.readAt_eq_ld, harg3.read_unread, harg4.read_unread, harg5.read_unread, View.ld_unit_zero (S := S1x1024x64) att_hz3, View.readCov_unit_zero (S := S1024x1) _ att_hz2, View.readCov_unit_zero (S := S1024x64) _ att_hz2]

/-- At a point of key tile 1 they end at the update of what they held, and the output block at accumulator / sum. -/
theorem soutB0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    sout1_B_0 c i arg3 harg3 arg4 harg4 arg5 harg5 arg6 harg6 arg7 harg7 arg8 harg8 arg9 harg9 hc0 hc1 x0 x1 x2 xs0 xs1 xs2 = newM x0 x1 xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  try sl_unfold_words
  rw [View.canon_unit_zero att_hz2]
  simp only [View.readAt_eq_ld, harg3.read_unread, harg4.read_unread, harg5.read_unread, harg7.read_unread, harg8.read_unread, harg9.read_unread, View.ld_unit_zero (S := S1x1024x64) att_hz3, View.ld_unit_zero (S := S1024x1) att_hz2, View.ld_unit_zero (S := S1024x64) att_hz2, View.readCov_unit_zero (S := S1024x1) _ att_hz2, View.readCov_unit_zero (S := S1024x64) _ att_hz2]

theorem soutB1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    sout1_B_1 c i arg3 harg3 arg4 harg4 arg5 harg5 arg6 harg6 arg7 harg7 arg8 harg8 arg9 harg9 hc0 hc1 x0 x1 x2 xs0 xs1 xs2 = newL x0 x1 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  try sl_unfold_words
  rw [View.canon_unit_zero att_hz2]
  simp only [View.readAt_eq_ld, harg3.read_unread, harg4.read_unread, harg5.read_unread, harg7.read_unread, harg8.read_unread, harg9.read_unread, View.ld_unit_zero (S := S1x1024x64) att_hz3, View.ld_unit_zero (S := S1024x1) att_hz2, View.ld_unit_zero (S := S1024x64) att_hz2, View.readCov_unit_zero (S := S1024x1) _ att_hz2, View.readCov_unit_zero (S := S1024x64) _ att_hz2]

theorem soutB2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    sout1_B_2 c i arg3 harg3 arg4 harg4 arg5 harg5 arg6 harg6 arg7 harg7 arg8 harg8 arg9 harg9 hc0 hc1 x0 x1 x2 xs0 xs1 xs2 = newA x0 x1 x2 xs0 xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  try sl_unfold_words
  rw [View.canon_unit_zero att_hz2]
  simp only [View.readAt_eq_ld, harg3.read_unread, harg4.read_unread, harg5.read_unread, harg7.read_unread, harg8.read_unread, harg9.read_unread, View.ld_unit_zero (S := S1x1024x64) att_hz3, View.ld_unit_zero (S := S1024x1) att_hz2, View.ld_unit_zero (S := S1024x64) att_hz2, View.readCov_unit_zero (S := S1024x1) _ att_hz2, View.readCov_unit_zero (S := S1024x64) _ att_hz2]

theorem outB3_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (x0 : Vec F S1x1024x64 .bf16) (x1 : Vec F S1x1024x64 .bf16) (x2 : Vec F S1x1024x64 .bf16) (xs0 : Vec F S1024x1 .f32) (xs1 : Vec F S1024x1 .f32) (xs2 : Vec F S1024x64 .f32) :
    out1_B_3 c i arg3 harg3 arg4 harg4 arg5 harg5 arg6 harg6 arg7 harg7 arg8 harg8 arg9 harg9 hc0 hc1 x0 x1 x2 xs0 xs1 xs2 = k1_pay3 (newA x0 x1 x2 xs0 xs2) (newL x0 x1 xs0 xs1) := by
  unfold out1_B_3
  rw [View.read_writes_eq_canon _ _ _ (cover1_B_3 c i arg3 harg3 arg4 harg4 arg5 harg5 arg6 harg6 arg7 harg7 arg8 harg8 arg9 harg9 hc0 hc1 x0 x1 x2 xs0 xs1 xs2)]
  unfold kernelRun1_B
  dsimp only
  try sl_unfold_words
  rw [View.canon_unit_zero att_hz3]
  simp only [View.readAt_eq_ld, harg3.read_unread, harg4.read_unread, harg5.read_unread, harg7.read_unread, harg8.read_unread, harg9.read_unread, View.ld_unit_zero (S := S1x1024x64) att_hz3, View.ld_unit_zero (S := S1024x1) att_hz2, View.ld_unit_zero (S := S1024x64) att_hz2, View.readCov_unit_zero (S := S1024x1) _ att_hz2, View.readCov_unit_zero (S := S1024x64) _ att_hz2]

/-! ## The payloads read at an index, at the extended reals -/

section AtIdeal

abbrev Dqk := dot_S1024x64_S1024x64_S1024x1024_1_1_0_0_n_n
abbrev Dpv := dot_S1024x1024_S1024x64_S1024x64_1_0_0_1_n_n

/-- The score product `q · kᵀ` (both operands contracted on their last axis) into the zero splat, at `(r, k)`. -/
theorem qk_apply {φ₁ φ₂ : FTy} (A : FVec Ideal S1024x64 φ₁) (B : FVec Ideal S1024x64 φ₂) (r k : Fin 1024) :
    matmul Dqk none A B (constant S1024x1024 .f32 0x00000000#32) (ix2 r k) = ∑ d : Fin 64, A (ix2 r d) * B (ix2 k d) := by
  show FloatOps.matmul Dqk none A B (constant S1024x1024 .f32 0x00000000#32) (ix2 r k) = _
  rw [Ideal.matmul_constant_zero_apply, ← Equiv.sum_comp (contrEquiv1 Dqk 64 rfl rfl).symm]
  refine Finset.sum_congr rfl fun d _ => ?_
  have c2 := contrEquiv1_symm_val Dqk 64 rfl rfl d
  have l2 : Dqk.lhsIdx (ix2 r k) ((contrEquiv1 Dqk 64 rfl rfl).symm d) = ix2 r d := by
    funext ax; apply Fin.ext
    match ax with
    | ⟨0, _⟩ => simp [DotDims.lhsIdx, Dqk, dot_S1024x64_S1024x64_S1024x1024_1_1_0_0_n_n]; rfl
    | ⟨1, _⟩ => simp [DotDims.lhsIdx, Dqk, dot_S1024x64_S1024x64_S1024x1024_1_1_0_0_n_n]; exact c2
  have r2 : Dqk.rhsIdx (ix2 r k) ((contrEquiv1 Dqk 64 rfl rfl).symm d) = ix2 k d := by
    funext ax; apply Fin.ext
    match ax with
    | ⟨0, _⟩ => simp [DotDims.rhsIdx, Dqk, dot_S1024x64_S1024x64_S1024x1024_1_1_0_0_n_n]; rfl
    | ⟨1, _⟩ => simp [DotDims.rhsIdx, Dqk, dot_S1024x64_S1024x64_S1024x1024_1_1_0_0_n_n]; exact c2
  rw [l2, r2]

/-- The weighted sum `p · v` into the zero splat, at `(r, e)`. -/
theorem pv_apply {φ₁ φ₂ : FTy} (A : FVec Ideal S1024x1024 φ₁) (B : FVec Ideal S1024x64 φ₂) (r : Fin 1024) (e : Fin 64) :
    matmul Dpv none A B (constant S1024x64 .f32 0x00000000#32) (ix2 r e) = ∑ k : Fin 1024, A (ix2 r k) * B (ix2 k e) := by
  show FloatOps.matmul Dpv none A B (constant S1024x64 .f32 0x00000000#32) (ix2 r e) = _
  rw [Ideal.matmul_constant_zero_apply, ← Equiv.sum_comp (contrEquiv1 Dpv 1024 rfl rfl).symm]
  refine Finset.sum_congr rfl fun k _ => ?_
  have c2 := contrEquiv1_symm_val Dpv 1024 rfl rfl k
  have l2 : Dpv.lhsIdx (ix2 r e) ((contrEquiv1 Dpv 1024 rfl rfl).symm k) = ix2 r k := by
    funext ax; apply Fin.ext
    match ax with
    | ⟨0, _⟩ => simp [DotDims.lhsIdx, Dpv, dot_S1024x1024_S1024x64_S1024x64_1_0_0_1_n_n]; rfl
    | ⟨1, _⟩ => simp [DotDims.lhsIdx, Dpv, dot_S1024x1024_S1024x64_S1024x64_1_0_0_1_n_n]; exact c2
  have r2 : Dpv.rhsIdx (ix2 r e) ((contrEquiv1 Dpv 1024 rfl rfl).symm k) = ix2 k e := by
    funext ax; apply Fin.ext
    match ax with
    | ⟨0, _⟩ => simp [DotDims.rhsIdx, Dpv, dot_S1024x1024_S1024x64_S1024x64_1_0_0_1_n_n]; exact c2
    | ⟨1, _⟩ => simp [DotDims.rhsIdx, Dpv, dot_S1024x1024_S1024x64_S1024x64_1_0_0_1_n_n]; rfl
  rw [l2, r2]

/-- The index of row `r` with lane `k` put back on the reduced axis. -/
theorem lift_row (r k : Fin 1024) : (reduces_S1024x1024_S1024 : S1024x1024.Reduces [1] S1024).lift (ix1 r) k = ix2 r k := by
  funext c; apply Fin.ext
  match c with
  | ⟨0, _⟩ => rfl
  | ⟨1, _⟩ => rfl

/-- A column `[1024, 1]` broadcast along the rows of `[1024, n]` reads the row's entry. -/
theorem bcast_col_apply {n : ℕ} (hn : n ≠ 1 ∨ True) (v : (⟨2, ![1024, 1]⟩ : Shape).Idx → EReal) (h : (⟨2, ![1024, 1]⟩ : Shape).Broadcasts ⟨2, ![1024, n]⟩)
    (r : Fin 1024) (j : Fin n) : broadcastTo ⟨2, ![1024, n]⟩ v h (ix2 r j) = v (ix2 r (0 : Fin 1)) := by
  refine broadcastTo_apply v h (ix2 r j) (ix2 r (0 : Fin 1)) fun ax => ?_
  match ax with
  | ⟨0, _⟩ =>
    show r.val = if (1024 : ℕ) = 1 then 0 else r.val
    rw [if_neg (by decide)]
  | ⟨1, _⟩ =>
    show (0 : ℕ) = if (1 : ℕ) = 1 then 0 else j.val
    rw [if_pos rfl]

/-- A vector `[1024]` cast to a column `[1024, 1]` reads the entry. -/
theorem cast_col_apply (v : (⟨1, ![1024]⟩ : Shape).Idx → EReal) (h : (⟨1, ![1024]⟩ : Shape).ShapeCasts ⟨2, ![1024, 1]⟩)
    (r : Fin 1024) : shapeCast ⟨2, ![1024, 1]⟩ v h (ix2 r (0 : Fin 1)) = v (ix1 r) :=
  shapeCast_apply v h _ _ (by
    rw [Shape.rowMajor_val_two, Shape.rowMajor_val_one]
    show r.val = r.val * 1 + 0
    omega)

variable (xq xk xv : FVec Ideal S1x1024x64 .bf16)

/-- The scaled score of query row `r` against key lane `k` of the blocks, and the value entry of lane `k` in column `e`. -/
def sc (r k : Fin 1024) : EReal := (∑ d : Fin 64, xq (ix3 (0 : Fin 1) r d) * xk (ix3 (0 : Fin 1) k d)) * Ideal.ofBits .f32 0x3E000000#32
def vc (e : Fin 64) (k : Fin 1024) : EReal := xv (ix3 (0 : Fin 1) k e)

theorem pay8_apply (r k : Fin 1024) : k1_pay8 (F := Ideal) xq xk (ix2 r k) = sc xq xk r k := by
  unfold k1_pay8 sc
  refine congrArg (· * Ideal.ofBits .f32 0x3E000000#32) ?_
  refine (qk_apply _ _ r k).trans ?_
  refine Finset.sum_congr rfl fun d _ => ?_
  rw [shapeCast_1ab_ab_apply, shapeCast_1ab_ab_apply]

theorem pay7_apply (k : Fin 1024) (e : Fin 64) : k1_pay7 (F := Ideal) xv (ix2 k e) = vc xv e k := by
  unfold k1_pay7 vc
  exact shapeCast_1ab_ab_apply _ _ k e

variable (m l : FVec Ideal S1024x1 .f32) (a : FVec Ideal S1024x64 .f32)

/-- The new running maximum of row `r`. -/
theorem pay9_apply (r : Fin 1024) :
    k1_pay9 (F := Ideal) xq xk m (ix2 r (0 : Fin 1)) = AttnOnline.mNext (m (ix2 r (0 : Fin 1))) (sc xq xk r) := by
  unfold k1_pay9 AttnOnline.mNext
  refine congrArg (max (m (ix2 r (0 : Fin 1)))) ?_
  refine (cast_col_apply _ _ r).trans ?_
  refine (Ideal.multiReduction_maximumf_single (k1_pay8 (F := Ideal) xq xk) _ reduces_S1024x1024_S1024 (.inl rfl) rfl (ix1 r)).trans ?_
  unfold AttnOnline.tileMax
  refine congrArg (fun f => Finset.fold max (Ideal.ofBits .f32 0xFF800000#32) f (Finset.univ : Finset (Fin 1024))) (funext fun k => ?_)
  exact (congrArg (k1_pay8 (F := Ideal) xq xk) (lift_row r k)).trans (pay8_apply xq xk r k)

theorem newM_apply (r : Fin 1024) :
    newM (F := Ideal) xq xk m (ix2 r (0 : Fin 1)) = AttnOnline.mNext (m (ix2 r (0 : Fin 1))) (sc xq xk r) := by
  unfold newM k1_pay2
  rw [shapeCast_self]
  exact pay9_apply xq xk m r

/-- The rescaling factor of row `r`. -/
theorem pay10_apply (r : Fin 1024) :
    k1_pay10 (F := Ideal) xq xk m m (ix2 r (0 : Fin 1)) = AttnOnline.alpha (m (ix2 r (0 : Fin 1))) (sc xq xk r) := by
  unfold k1_pay10 AttnOnline.alpha
  refine congrArg Ideal.exp ?_
  refine congrArg (m (ix2 r (0 : Fin 1)) - ·) ?_
  exact pay9_apply xq xk m r

/-- The weight of lane `k` in row `r`. -/
theorem pay11_apply (r k : Fin 1024) :
    k1_pay11 (F := Ideal) xq xk m (ix2 r k) = AttnOnline.p (m (ix2 r (0 : Fin 1))) (sc xq xk r) k := by
  unfold k1_pay11 AttnOnline.p
  refine congrArg Ideal.exp ?_
  refine congrArg₂ (· - ·) (pay8_apply xq xk r k) ?_
  refine (bcast_col_apply (Or.inr trivial) _ _ r k).trans ?_
  exact pay9_apply xq xk m r

/-- The new running sum of row `r`. -/
theorem newL_apply (r : Fin 1024) :
    newL (F := Ideal) xq xk m l (ix2 r (0 : Fin 1)) = AttnOnline.lNext (m (ix2 r (0 : Fin 1))) (l (ix2 r (0 : Fin 1))) (sc xq xk r) := by
  unfold newL k1_pay12 AttnOnline.lNext
  rw [shapeCast_self]
  refine congrArg₂ (· + ·) (congrArg (· * l (ix2 r (0 : Fin 1))) (pay10_apply xq xk m r)) ?_
  refine (cast_col_apply _ _ r).trans ?_
  refine (Ideal.multiReduction_add_single (k1_pay11 (F := Ideal) xq xk m) _ reduces_S1024x1024_S1024 (.inl rfl) rfl (ix1 r)).trans ?_
  refine Finset.sum_congr rfl fun k _ => ?_
  exact (congrArg (k1_pay11 (F := Ideal) xq xk m) (lift_row r k)).trans (pay11_apply xq xk m r k)

/-- The new accumulator entry of row `r`, column `e`. -/
theorem newA_apply (r : Fin 1024) (e : Fin 64) :
    newA (F := Ideal) xq xk xv m a (ix2 r e) = AttnOnline.aNext (m (ix2 r (0 : Fin 1))) (a (ix2 r e)) (sc xq xk r) (vc xv e) := by
  unfold newA k1_pay1 AttnOnline.aNext
  rw [shapeCast_self]
  refine congrArg₂ (· + ·) (congrArg (· * a (ix2 r e)) ((bcast_col_apply (Or.inr trivial) _ _ r e).trans (pay10_apply xq xk m r))) ?_
  refine (pv_apply _ _ r e).trans ?_
  refine Finset.sum_congr rfl fun k _ => ?_
  exact congrArg₂ (· * ·) (pay11_apply xq xk m r k) (pay7_apply xv k e)

/-- The output entry: accumulator over running sum. -/
theorem att_pay3_apply (r : Fin 1024) (e : Fin 64) :
    k1_pay3 (F := Ideal) a l (ix3 (0 : Fin 1) r e) = Ideal.div (a (ix2 r e)) (l (ix2 r (0 : Fin 1))) := by
  unfold k1_pay3
  refine (shapeCast_ab_1ab_apply _ _ (0 : Fin 1) r e).trans ?_
  refine congrArg (Ideal.div (a (ix2 r e))) ?_
  exact bcast_col_apply (Or.inr trivial) _ _ r e

/-- The reset values. -/
theorem att_pay4_apply (j : S1024x1.Idx) : (k1_pay4 (F := Ideal)) j = AttnOnline.m0 := by
  unfold k1_pay4; rw [shapeCast_self]; rfl
theorem pay5_apply (j : S1024x1.Idx) : (k1_pay5 (F := Ideal)) j = AttnOnline.l0 := by
  unfold k1_pay5; rw [shapeCast_self]; rfl
theorem pay6_apply (j : S1024x64.Idx) : (k1_pay6 (F := Ideal)) j = AttnOnline.a0 := by
  unfold k1_pay6; rw [shapeCast_self]; rfl

end AtIdeal

/-! ## The blocks as entries of the region's arrays; what the points leave; the output array -/

section Arrays

variable (V : (c : Dev nD) → (b : Ref sig .tc) → Buf (Elt Ideal) ((c : Thread nD τ).loc b))

/-- The windows' block indices in closed form: point `t = 4·bh + 2·qi + ki`. -/
theorem idx1_0 : ∀ t : Fin cfg1.N, win1_0.index t 0 = t.val / 4 ∧ win1_0.index t 1 = (t.val / 2) % 2 ∧ win1_0.index t 2 = 0 :=
  (by decide +kernel : ∀ t : Fin grid1.N, win1_0.index t 0 = t.val / 4 ∧ win1_0.index t 1 = (t.val / 2) % 2 ∧ win1_0.index t 2 = 0)
theorem idx1_1 : ∀ t : Fin cfg1.N, win1_1.index t 0 = t.val / 4 ∧ win1_1.index t 1 = t.val % 2 ∧ win1_1.index t 2 = 0 :=
  (by decide +kernel : ∀ t : Fin grid1.N, win1_1.index t 0 = t.val / 4 ∧ win1_1.index t 1 = t.val % 2 ∧ win1_1.index t 2 = 0)
theorem idx1_2 : ∀ t : Fin cfg1.N, win1_2.index t 0 = t.val / 4 ∧ win1_2.index t 1 = t.val % 2 ∧ win1_2.index t 2 = 0 :=
  (by decide +kernel : ∀ t : Fin grid1.N, win1_2.index t 0 = t.val / 4 ∧ win1_2.index t 1 = t.val % 2 ∧ win1_2.index t 2 = 0)
theorem idx1_3 : ∀ t : Fin cfg1.N, win1_3.index t 0 = t.val / 4 ∧ win1_3.index t 1 = (t.val / 2) % 2 ∧ win1_3.index t 2 = 0 :=
  (by decide +kernel : ∀ t : Fin grid1.N, win1_3.index t 0 = t.val / 4 ∧ win1_3.index t 1 = (t.val / 2) % 2 ∧ win1_3.index t 2 = 0)

/-- The query, key and value arrays as the region finds them, as functions of their index. -/
abbrev Qa (c : Dev nD) : S32x2048x64.Idx → EReal := V c main_v6
abbrev Ka (c : Dev nD) : S32x2048x64.Idx → EReal := V c main_v7
abbrev Va (c : Dev nD) : S32x2048x64.Idx → EReal := V c main_v8

/-- The query block at point `t` holds rows `1024·qi …` of batch·head `bh` of the query array. -/
theorem iblk1_0_apply (c : Dev nD) (t : Fin cfg1.N) (r : Fin 1024) (d : Fin 64) (bh : Fin 32) (n : Fin 2048)
    (hb : bh.val = t.val / 4) (hn : n.val = 1024 * ((t.val / 2) % 2) + r.val) :
    (iblk1 V c 0 t : Vec Ideal S1x1024x64 .bf16) (ix3 (0 : Fin 1) r d) = Qa V c (ix3 bh n d) := by
  obtain ⟨h0, h1, h2⟩ := idx1_0 t
  unfold iblk1
  rw [View.read_apply]
  show V c main_v6 _ = V c main_v6 _
  congr 1
  funext a
  apply Fin.ext
  match a with
  | ⟨0, _⟩ => show win1_0.index t 0 * 1 + 1 * 0 = bh.val; rw [h0, hb]; omega
  | ⟨1, _⟩ => show win1_0.index t 1 * 1024 + 1 * r.val = n.val; rw [h1, hn]; omega
  | ⟨2, _⟩ => show win1_0.index t 2 * 64 + 1 * d.val = d.val; rw [h2]; omega

/-- The key block at point `t` holds rows `1024·ki …` of the key array, -/
theorem iblk1_1_apply (c : Dev nD) (t : Fin cfg1.N) (k : Fin 1024) (d : Fin 64) (bh : Fin 32) (n : Fin 2048)
    (hb : bh.val = t.val / 4) (hn : n.val = 1024 * (t.val % 2) + k.val) :
    (iblk1 V c 1 t : Vec Ideal S1x1024x64 .bf16) (ix3 (0 : Fin 1) k d) = Ka V c (ix3 bh n d) := by
  obtain ⟨h0, h1, h2⟩ := idx1_1 t
  unfold iblk1
  rw [View.read_apply]
  show V c main_v7 _ = V c main_v7 _
  congr 1
  funext a
  apply Fin.ext
  match a with
  | ⟨0, _⟩ => show win1_1.index t 0 * 1 + 1 * 0 = bh.val; rw [h0, hb]; omega
  | ⟨1, _⟩ => show win1_1.index t 1 * 1024 + 1 * k.val = n.val; rw [h1, hn]; omega
  | ⟨2, _⟩ => show win1_1.index t 2 * 64 + 1 * d.val = d.val; rw [h2]; omega

/-- and the value block the same rows of the value array. -/
theorem iblk1_2_apply (c : Dev nD) (t : Fin cfg1.N) (k : Fin 1024) (d : Fin 64) (bh : Fin 32) (n : Fin 2048)
    (hb : bh.val = t.val / 4) (hn : n.val = 1024 * (t.val % 2) + k.val) :
    (iblk1 V c 2 t : Vec Ideal S1x1024x64 .bf16) (ix3 (0 : Fin 1) k d) = Va V c (ix3 bh n d) := by
  obtain ⟨h0, h1, h2⟩ := idx1_2 t
  unfold iblk1
  rw [View.read_apply]
  show V c main_v8 _ = V c main_v8 _
  congr 1
  funext a
  apply Fin.ext
  match a with
  | ⟨0, _⟩ => show win1_2.index t 0 * 1 + 1 * 0 = bh.val; rw [h0, hb]; omega
  | ⟨1, _⟩ => show win1_2.index t 1 * 1024 + 1 * k.val = n.val; rw [h1, hn]; omega
  | ⟨2, _⟩ => show win1_2.index t 2 * 64 + 1 * d.val = d.val; rw [h2]; omega

/-- The scaled scores of query row `n` of batch·head `bh` against all 2048 keys (tile `j`, lane `k`), and the value
    entries of those keys in column `e`. -/
def Sg (c : Dev nD) (bh : Fin 32) (n : Fin 2048) : Fin 2 → Fin 1024 → EReal := fun j k =>
  (∑ d : Fin 64, Qa V c (ix3 bh n d) * Ka V c (ix3 bh (Cert.AttnLaw.key j k) d)) * Ideal.ofBits .f32 0x3E000000#32
def Vg (c : Dev nD) (bh : Fin 32) (e : Fin 64) : Fin 2 → Fin 1024 → EReal := fun j k =>
  Va V c (ix3 bh (Cert.AttnLaw.key j k) e)

/-- The blocks' scores and values are the arrays': at a point with key tile `j`. -/
theorem sc_eq (c : Dev nD) (t : Fin cfg1.N) (r : Fin 1024) (bh : Fin 32) (n : Fin 2048) (j : Fin 2)
    (hb : bh.val = t.val / 4) (hn : n.val = 1024 * ((t.val / 2) % 2) + r.val) (hj : j.val = t.val % 2) :
    sc (iblk1 V c 0 t) (iblk1 V c 1 t) r = Sg V c bh n j := by
  funext k
  unfold sc Sg
  refine congrArg (· * Ideal.ofBits .f32 0x3E000000#32) (Finset.sum_congr rfl fun d _ => ?_)
  exact congrArg₂ (· * ·) (iblk1_0_apply V c t r d bh n hb hn)
    (iblk1_1_apply V c t k d bh (Cert.AttnLaw.key j k) hb (by show 1024 * j.val + k.val = _; rw [hj]))

theorem vc_eq (c : Dev nD) (t : Fin cfg1.N) (e : Fin 64) (bh : Fin 32) (j : Fin 2)
    (hb : bh.val = t.val / 4) (hj : j.val = t.val % 2) :
    vc (iblk1 V c 2 t) e = Vg V c bh e j := by
  funext k
  unfold vc Vg
  exact iblk1_2_apply V c t k e bh (Cert.AttnLaw.key j k) hb (by show 1024 * j.val + k.val = _; rw [hj])

/-- After a point of key tile 0 the scratch buffers hold, for row `r` (and column `e`), the first step of the online
    softmax on the point's blocks. -/
theorem even_state (c : Dev nD) (t : Fin cfg1.N) (h0 : t.val % 2 = 0) (r : Fin 1024) (e : Fin 64) :
    (outsAt1 V c t.val t.isLt).2.1 (ix2 r (0 : Fin 1)) = AttnOnline.mNext AttnOnline.m0 (sc (iblk1 V c 0 t) (iblk1 V c 1 t) r)
    ∧ (outsAt1 V c t.val t.isLt).2.2.1 (ix2 r (0 : Fin 1)) = AttnOnline.lNext AttnOnline.m0 AttnOnline.l0 (sc (iblk1 V c 0 t) (iblk1 V c 1 t) r)
    ∧ (outsAt1 V c t.val t.isLt).2.2.2 (ix2 r e)
        = AttnOnline.aNext AttnOnline.m0 AttnOnline.a0 (sc (iblk1 V c 0 t) (iblk1 V c 1 t) r) (vc (iblk1 V c 2 t) e) := by
  rw [outsAt1_A V c t h0]
  unfold outA
  dsimp only
  refine ⟨?_, ?_, ?_⟩
  · refine (congrFun (soutA0_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t)) (ix2 r (0 : Fin 1))).trans ?_
    refine (newM_apply (iblk1 V c 0 t) (iblk1 V c 1 t) (k1_pay4 (F := Ideal)) r).trans ?_
    rw [att_pay4_apply]
  · refine (congrFun (soutA1_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t)) (ix2 r (0 : Fin 1))).trans ?_
    refine (newL_apply (iblk1 V c 0 t) (iblk1 V c 1 t) (k1_pay4 (F := Ideal)) (k1_pay5 (F := Ideal)) r).trans ?_
    rw [att_pay4_apply, pay5_apply]
  · refine (congrFun (soutA2_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => (by omega : ¬(t).val % 2 = 1) ((hcond1_1 t).mp h)) (iblk1 V c 0 t) (iblk1 V c 1 t) (iblk1 V c 2 t)) (ix2 r e)).trans ?_
    refine (newA_apply (iblk1 V c 0 t) (iblk1 V c 1 t) (iblk1 V c 2 t) (k1_pay4 (F := Ideal)) (k1_pay6 (F := Ideal)) r e).trans ?_
    rw [att_pay4_apply, pay6_apply]

/-- After the point of key tile 1 that follows, the output block holds accumulator over sum of the second step over what
    the first left. -/
theorem odd_out (c : Dev nD) (t : Fin cfg1.N) (h1 : t.val % 2 = 1) (r : Fin 1024) (e : Fin 64) :
    (outsAt1 V c t.val t.isLt).1 (ix3 (0 : Fin 1) r e)
      = Ideal.div
          (AttnOnline.aNext ((outsAt1 V c (t.val - 1) (Nat.lt_of_le_of_lt (Nat.sub_le _ _) t.isLt)).2.1 (ix2 r (0 : Fin 1))) ((outsAt1 V c (t.val - 1) (Nat.lt_of_le_of_lt (Nat.sub_le _ _) t.isLt)).2.2.2 (ix2 r e)) (sc (iblk1 V c 0 t) (iblk1 V c 1 t) r) (vc (iblk1 V c 2 t) e))
          (AttnOnline.lNext ((outsAt1 V c (t.val - 1) (Nat.lt_of_le_of_lt (Nat.sub_le _ _) t.isLt)).2.1 (ix2 r (0 : Fin 1))) ((outsAt1 V c (t.val - 1) (Nat.lt_of_le_of_lt (Nat.sub_le _ _) t.isLt)).2.2.1 (ix2 r (0 : Fin 1))) (sc (iblk1 V c 0 t) (iblk1 V c 1 t) r)) := by
  rw [outsAt1_B V c t h1]
  unfold outB
  dsimp only
  refine (congrFun (outB3_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => (by omega : ¬(t).val % 2 = 0) ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix3 (0 : Fin 1) r e)).trans ?_
  refine (att_pay3_apply _ _ r e).trans ?_
  exact congrArg₂ Ideal.div
    (newA_apply (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2 r e)
    (newL_apply (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 r)

/-- So the output block after the odd point `t = 4·bh + 2·qi + 1` holds, at row `r` and column `e`, the two-tile
    online softmax output of query row `n = 1024·qi + r`. -/
theorem out_at (c : Dev nD) (t : Fin cfg1.N) (h1 : t.val % 2 = 1) (r : Fin 1024) (e : Fin 64) (bh : Fin 32) (n : Fin 2048)
    (hb : bh.val = t.val / 4) (hn : n.val = 1024 * ((t.val / 2) % 2) + r.val) :
    (outsAt1 V c t.val t.isLt).1 (ix3 (0 : Fin 1) r e) = AttnOnline.out (Sg V c bh n) (Vg V c bh e) := by
  have hp : t.val - 1 < cfg1.N := Nat.lt_of_le_of_lt (Nat.sub_le _ _) t.isLt
  have hp0 : (⟨t.val - 1, hp⟩ : Fin cfg1.N).val % 2 = 0 := by show (t.val - 1) % 2 = 0; omega
  obtain ⟨eM, eL, eA⟩ := even_state V c ⟨t.val - 1, hp⟩ hp0 r e
  have hbp : bh.val = (⟨t.val - 1, hp⟩ : Fin cfg1.N).val / 4 := by show bh.val = (t.val - 1) / 4; omega
  have hnp : n.val = 1024 * (((⟨t.val - 1, hp⟩ : Fin cfg1.N).val / 2) % 2) + r.val := by
    show n.val = 1024 * (((t.val - 1) / 2) % 2) + r.val
    have : (t.val - 1) / 2 = t.val / 2 := by omega
    rw [this]; exact hn
  have s0 := sc_eq V c ⟨t.val - 1, hp⟩ r bh n 0 hbp hnp (by show (0 : ℕ) = (t.val - 1) % 2; omega)
  have s1 := sc_eq V c t r bh n 1 hb hn (by show (1 : ℕ) = t.val % 2; omega)
  have v0 := vc_eq V c ⟨t.val - 1, hp⟩ e bh 0 hbp (by show (0 : ℕ) = (t.val - 1) % 2; omega)
  have v1 := vc_eq V c t e bh 1 hb (by show (1 : ℕ) = t.val % 2; omega)
  rw [odd_out V c t h1 r e]
  show Ideal.div (AttnOnline.aNext ((outsAt1 V c (⟨t.val - 1, hp⟩ : Fin cfg1.N).val hp).2.1 (ix2 r (0 : Fin 1))) ((outsAt1 V c (⟨t.val - 1, hp⟩ : Fin cfg1.N).val hp).2.2.2 (ix2 r e)) _ _)
      (AttnOnline.lNext ((outsAt1 V c (⟨t.val - 1, hp⟩ : Fin cfg1.N).val hp).2.1 (ix2 r (0 : Fin 1))) ((outsAt1 V c (⟨t.val - 1, hp⟩ : Fin cfg1.N).val hp).2.2.1 (ix2 r (0 : Fin 1))) _) = _
  rw [eM, eL, eA, s0, s1, v0, v1]
  rfl

/-- The whole output array, as a function of its index. -/
def G1 (c : Dev nD) : S32x2048x64.Idx → Ideal .bf16 := fun i => AttnOnline.out (Sg V c (i 0) (i 1)) (Vg V c (i 0) (i 2))

/-- What a write-back of the output window writes is its block of `G1`. -/
theorem flushed1_eq (c : Dev nD) (t : Fin cfg1.N) (hf : (cfg1.win 3).flush t = true) :
    (dat1 V c).flushed 3 t = ((cfg1.win 3).blk t).view.read (Elt Ideal) (G1 V c) := by
  have h1 : t.val % 2 = 1 := (flush1_3 t).mp hf
  have hN : cfg1.N = 128 := N_1
  have htl : t.val < 128 := lt_of_lt_of_eq t.isLt hN
  obtain ⟨i0, i1, i2⟩ := idx1_3 t
  obtain ⟨bhT, hbT⟩ : ∃ b : Fin 32, b.val = t.val / 4 := ⟨⟨t.val / 4, by omega⟩, rfl⟩
  funext y
  obtain ⟨u, r, e, rfl⟩ : ∃ (u : Fin 1) (r : Fin 1024) (e : Fin 64), y = ix3 u r e := ⟨y 0, y 1, y 2, eq_ix3 y⟩
  obtain rfl : u = 0 := Subsingleton.elim _ _
  show (cfg1.win 3).cut (grid1.coords t) ((dat1 V c).after 3 t) (ix3 (0 : Fin 1) r e) = _
  rw [after1_3, View.read_apply]
  obtain ⟨nT, hnT⟩ : ∃ b : Fin 2048, b.val = 1024 * ((t.val / 2) % 2) + r.val := ⟨⟨1024 * ((t.val / 2) % 2) + r.val, by have := r.isLt; omega⟩, rfl⟩
  have hi : ((cfg1.win 3).blk t).view.emb (ix3 (0 : Fin 1) r e) = ix3 bhT nT e := by
    funext a
    apply Fin.ext
    match a with
    | ⟨0, _⟩ => show win1_3.index t 0 * 1 + 1 * 0 = bhT.val; rw [i0, hbT]; omega
    | ⟨1, _⟩ => show win1_3.index t 1 * 1024 + 1 * r.val = nT.val; rw [i1, hnT]; omega
    | ⟨2, _⟩ => show win1_3.index t 2 * 64 + 1 * e.val = e.val; rw [i2]; omega
  rw [hi]
  show (outsAt1 V c t.val t.isLt).1 (ix3 (0 : Fin 1) r e) = AttnOnline.out (Sg V c bhT nT) (Vg V c bhT e)
  exact out_at V c t h1 r e bhT nT hbT hnT

/-- THE OUTPUT ARRAY after the region: entry `(bh, n, e)` is the two-tile online softmax output of query row `n` of
    batch·head `bh` in column `e`, over the scores `(∑ d, Q (bh, n, d) · K (bh, key, d)) · 2⁻³` and the values
    `V (bh, key, e)`. The point that covers it is `4·bh + 2·(n / 1024) + 1`. -/
theorem arr_out (c : Dev nD) (bh : Fin 32) (n : Fin 2048) (e : Fin 64) :
    (dat1 V c).arrAt 3 cfg1.N (ix3 bh n e)
      = Cert.AttnOnline.out
          (fun j k => (∑ d : Fin 64, Qa V c (ix3 bh n d) * Ka V c (ix3 bh (Cert.AttnLaw.key j k) d)) * Ideal.ofBits .f32 0x3E000000#32)
          (fun j k => Va V c (ix3 bh (Cert.AttnLaw.key j k) e)) := by
  have hN : cfg1.N = 128 := N_1
  have hbh := bh.isLt
  have hn := n.isLt
  obtain ⟨t, ht⟩ : ∃ t : Fin cfg1.N, t.val = 4 * bh.val + 2 * (n.val / 1024) + 1 := ⟨⟨4 * bh.val + 2 * (n.val / 1024) + 1, by omega⟩, rfl⟩
  have hf : (cfg1.win 3).flush t = true := (flush1_3 t).mpr (by omega)
  obtain ⟨i0, i1, i2⟩ := idx1_3 t
  refine ((dat1 V c).arrAt_apply_of_mem 3 (G1 V c) (flushed1_eq V c) cfg1.N t (ix3 bh n e) t.isLt hf ?_).trans rfl
  show ix3 bh n e ∈ ((View.whole main_v9).slice (win1_3.rect t)).set
  rw [View.set_slice_whole, Rect.mem_set_unit]
  intro a
  match a with
  | ⟨0, _⟩ =>
    show win1_3.index t 0 * 1 ≤ bh.val ∧ bh.val < win1_3.index t 0 * 1 + 1
    rw [i0]; omega
  | ⟨1, _⟩ =>
    show win1_3.index t 1 * 1024 ≤ n.val ∧ n.val < win1_3.index t 1 * 1024 + 1024
    rw [i1]; omega
  | ⟨2, _⟩ =>
    show win1_3.index t 2 * 64 ≤ e.val ∧ e.val < win1_3.index t 2 * 64 + 64
    rw [i2]; have := e.isLt; omega

end Arrays

end Cert.KernelIdeal.Rgn

end
-- ==== Proof.ComposeAttn.lean ====
/-
  The attention pallas_call's output entries are the specification's attention entries of the launch arguments. At
  slab 16·b + h, row n, column e the call leaves the online-softmax row over its two key tiles: the running maximum,
  the running sum of exponentials and the running weighted sum of the values, each rescaled when the maximum moves, and
  at the end their quotient. The scores are (∑_d q·k)·(1/8) over the first call's queries and keys, which are the
  specification's; for real-valued arguments the online row is the softmax-weighted sum of the values.
-/
import proofs.«179285_j61787399520573_2_alg».proof.Proof.ComposeQKV
import proofs.«179285_j61787399520573_2_alg».proof.Proof.Region1Value
import proofs.«179285_j61787399520573_2_alg».proof.Proof.AttnLaw

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The queries, keys and values the attention call finds, at slab 16·b + h, are the specification's. -/
theorem V3_v6_apply (c : Dev nD) (b : Fin 2) (h : Fin 16) (n : Fin 2048) (e : Fin 64) :
    (V3 m ρ c main_v6 : S32x2048x64.Idx → EReal) (ix3 (bhIx b h) n e) = Cert.AttnSpec.Qh (xA m c) (wA m c) (bA m c) b h n e :=
  (W3_v6_apply m ρ c b h n e).trans (W2_v5_0_apply m ρ c b h n e)
theorem V3_v7_apply (c : Dev nD) (b : Fin 2) (h : Fin 16) (n : Fin 2048) (e : Fin 64) :
    (V3 m ρ c main_v7 : S32x2048x64.Idx → EReal) (ix3 (bhIx b h) n e) = Cert.AttnSpec.Kh (xA m c) (wA m c) (bA m c) b h n e :=
  (W3_v7_apply m ρ c b h n e).trans (W2_v5_1_apply m ρ c b h n e)
theorem V3_v8_apply (c : Dev nD) (b : Fin 2) (h : Fin 16) (n : Fin 2048) (e : Fin 64) :
    (V3 m ρ c main_v8 : S32x2048x64.Idx → EReal) (ix3 (bhIx b h) n e) = Cert.AttnSpec.Vh (xA m c) (wA m c) (bA m c) b h n e :=
  (W3_v8_apply m ρ c b h n e).trans (W2_v5_2_apply m ρ c b h n e)

/-- Entry (16·b + h, n, e) of the attention call's output is the specification's attention entry. -/
theorem W4_v9_apply (c : Dev nD)
    (hx : ∀ b n k, ∃ r : ℝ, xA m c b n k = (r : EReal)) (hw : ∀ r k, ∃ t : ℝ, wA m c r k = (t : EReal)) (hb : ∀ r, ∃ t : ℝ, bA m c r = (t : EReal))
    (b : Fin 2) (h : Fin 16) (n : Fin 2048) (e : Fin 64) :
    (W4 m ρ c (Proc.devRef .tc main_v9) : S32x2048x64.Idx → EReal) (ix3 (bhIx b h) n e)
      = Cert.AttnSpec.A (xA m c) (wA m c) (bA m c) b h n e := by
  have h1 : W4 m ρ c (Proc.devRef .tc main_v9) = (dat1 (V3 m ρ) c).arrAt 3 cfg1.N := W4_arr m ρ c 3
  rw [h1, arr_out, ← Cert.AttnLaw.out_eq_A (xA m c) (wA m c) (bA m c) hx hw hb b h n e]
  refine congrArg₂ Cert.AttnOnline.out (funext fun j => funext fun k => ?_) (funext fun j => funext fun k => ?_)
  · unfold Cert.AttnSpec.score Cert.AttnSpec.scale
    refine congrArg (· * _) (Finset.sum_congr rfl fun d _ => congrArg₂ (· * ·) ?_ ?_)
    · exact V3_v6_apply m ρ c b h n d
    · exact V3_v7_apply m ρ c b h (Cert.AttnLaw.key j k) d
  · exact V3_v8_apply m ρ c b h (Cert.AttnLaw.key j k) e

end Cert.KernelIdeal.Rgn

end
-- ==== Proof.Region2Value.lean ====
import proofs.«179285_j61787399520573_2_alg».proof.Proof.Region2
import proofs.«179285_j61787399520573_2_alg».proof.Proof.ProjAccum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-! # The output projection's region: values

What each control case leaves in the accumulator and in the output block, as the skeleton's payloads of the case's
loads (at any float instance); those payloads read at an entry over the extended reals; the accumulator after each
point as the partial accumulation over the heads so far; the result array after the region. -/

section Generic
variable {F : FTy → Type} [FloatOps F]

theorem prj_hz2 : (![0, 0] : Fin 2 → Nat) = fun _ => 0 := funext fun a => by fin_cases a <;> rfl

theorem prj_hz1 : (![0] : Fin 1 → Nat) = fun _ => 0 := funext fun a => by fin_cases a <;> rfl
theorem prj_hz3 : (![0, 0, 0] : Fin 3 → Nat) = fun _ => 0 := funext fun a => by fin_cases a <;> rfl
theorem prj_hz4 : (![0, 0, 0, 0] : Fin 4 → Nat) = fun _ => 0 := funext fun a => by fin_cases a <;> rfl

/-! ## What each case leaves, as the skeleton's payloads of its loads -/

/-- The first head's point leaves in the accumulator the head's partial product added onto the zero reset. -/
theorem soutA_eq (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : cond2_0 i) (hc1 : ¬cond2_1 i) (x0 : Vec F S1x1x512x64 .bf16) (x1 : Vec F S1x1024x64 .bf16) (x2 : Vec F S1024 .f32) :
    sout2_A_0 c i arg2 harg2 arg3 harg3 arg4 harg4 arg5 harg5 arg6 harg6 hc0 hc1 x0 x1 x2 = k2_pay2 x0 x1 (k2_pay1 (F := F)) := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  try sl_unfold_words
  rw [View.canon_cons_unit_zero (S := S512x1024) prj_hz2, View.readCov_unit_zero (S := S512x1024) _ prj_hz2]
  simp only [View.readAt_eq_ld, harg2.read_unread, harg3.read_unread, harg4.read_unread, harg6.read_unread, View.ld_unit_zero (S := S1x1x512x64) prj_hz4, View.ld_unit_zero (S := S1x1024x64) prj_hz3, View.ld_unit_zero (S := S1024) prj_hz1, View.ld_unit_zero (S := S512x1024) prj_hz2]

/-- A middle head's point adds the head's partial product onto what the accumulator held. -/
theorem soutB_eq (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : ¬cond2_1 i) (x0 : Vec F S1x1x512x64 .bf16) (x1 : Vec F S1x1024x64 .bf16) (x2 : Vec F S1024 .f32) (xs0 : Vec F S512x1024 .f32) :
    sout2_B_0 c i arg2 harg2 arg3 harg3 arg4 harg4 arg5 harg5 arg6 harg6 hc0 hc1 x0 x1 x2 xs0 = k2_pay2 x0 x1 xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  try sl_unfold_words
  rw [View.canon_unit_zero (S := S512x1024) prj_hz2]
  simp only [View.readAt_eq_ld, harg2.read_unread, harg3.read_unread, harg4.read_unread, harg6.read_unread, View.ld_unit_zero (S := S1x1x512x64) prj_hz4, View.ld_unit_zero (S := S1x1024x64) prj_hz3, View.ld_unit_zero (S := S1024) prj_hz1, View.ld_unit_zero (S := S512x1024) prj_hz2]

/-- So does the last head's point. -/
theorem soutC_eq (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x1x512x64 .bf16) (x1 : Vec F S1x1024x64 .bf16) (x2 : Vec F S1024 .f32) (xs0 : Vec F S512x1024 .f32) :
    sout2_C_0 c i arg2 harg2 arg3 harg3 arg4 harg4 arg5 harg5 arg6 harg6 hc0 hc1 x0 x1 x2 xs0 = k2_pay2 x0 x1 xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  try sl_unfold_words
  rw [View.canon_unit_zero (S := S512x1024) prj_hz2]
  simp only [View.readAt_eq_ld, harg2.read_unread, harg3.read_unread, harg4.read_unread, harg6.read_unread, View.ld_unit_zero (S := S1x1x512x64) prj_hz4, View.ld_unit_zero (S := S1x1024x64) prj_hz3, View.ld_unit_zero (S := S1024) prj_hz1, View.ld_unit_zero (S := S512x1024) prj_hz2]

/-- What the last head's point stores into the output block: the bias row added onto the accumulator it has just updated. -/
theorem outC_eq (c : Dev nD) (i : grid2.Coords) (arg2 : Memref sig .tc .vmem S1x1x512x64 .bf16) (harg2 : arg2.IsWhole) (arg3 : Memref sig .tc .vmem S1x1024x64 .bf16) (harg3 : arg3.IsWhole) (arg4 : Memref sig .tc .vmem S1024 .f32) (harg4 : arg4.IsWhole) (arg5 : Memref sig .tc .vmem S512x1024 .f32) (harg5 : arg5.IsWhole) (arg6 : Memref sig .tc .vmem S512x1024 .f32) (harg6 : arg6.IsWhole) (hc0 : ¬cond2_0 i) (hc1 : cond2_1 i) (x0 : Vec F S1x1x512x64 .bf16) (x1 : Vec F S1x1024x64 .bf16) (x2 : Vec F S1024 .f32) (xs0 : Vec F S512x1024 .f32) :
    out2_C_3 c i arg2 harg2 arg3 harg3 arg4 harg4 arg5 harg5 arg6 harg6 hc0 hc1 x0 x1 x2 xs0 = k2_pay3 x2 (k2_pay2 x0 x1 xs0) := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  try sl_unfold_words
  rw [View.canon_unit_zero (S := S512x1024) prj_hz2, View.readCov_unit_zero (S := S512x1024) _ prj_hz2]
  simp only [View.readAt_eq_ld, harg2.read_unread, harg3.read_unread, harg4.read_unread, harg6.read_unread, View.ld_unit_zero (S := S1x1x512x64) prj_hz4, View.ld_unit_zero (S := S1x1024x64) prj_hz3, View.ld_unit_zero (S := S1024) prj_hz1, View.ld_unit_zero (S := S512x1024) prj_hz2]

end Generic

/-! ## The payloads at an entry, over the extended reals -/

section AtIdeal

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The projection's dot: `[512, 64] · [1024, 64]ᵀ`, contracting the last axis of both. -/
abbrev D2 : DotDims S512x64 S1024x64 S512x1024 := dot_S512x64_S1024x64_S512x1024_1_1_0_0_n_n

theorem D2_rank : D2.contr.rank = 1 := rfl
theorem D2_size : D2.contr.size ⟨0, by rw [D2_rank]; omega⟩ = 64 := rfl

/-- Its contraction index is the one coordinate `e < 64`. -/
abbrev σ2 : D2.contr.Idx ≃ Fin 64 := contrEquiv1 D2 64 D2_rank D2_size

/-- The left operand is read at `(r, e)`. -/
theorem D2_lhsIdx (r : Fin 512) (d : Fin 1024) (e : Fin 64) : D2.lhsIdx (ix2 r d) (σ2.symm e) = ix2 r e := by
  funext a
  apply Fin.ext
  match a with
  | ⟨0, _⟩ => first | rfl | (simp [DotDims.lhsIdx, D2, dot_S512x64_S1024x64_S512x1024_1_1_0_0_n_n]; rfl)
  | ⟨1, _⟩ => first | rfl | (simp [DotDims.lhsIdx, D2, dot_S512x64_S1024x64_S512x1024_1_1_0_0_n_n, σ2, contrEquiv1]; rfl)

/-- The right operand is read at `(d, e)`. -/
theorem D2_rhsIdx (r : Fin 512) (d : Fin 1024) (e : Fin 64) : D2.rhsIdx (ix2 r d) (σ2.symm e) = ix2 d e := by
  funext a
  apply Fin.ext
  match a with
  | ⟨0, _⟩ => first | rfl | (simp [DotDims.rhsIdx, D2, dot_S512x64_S1024x64_S512x1024_1_1_0_0_n_n]; rfl)
  | ⟨1, _⟩ => first | rfl | (simp [DotDims.rhsIdx, D2, dot_S512x64_S1024x64_S512x1024_1_1_0_0_n_n, σ2, contrEquiv1]; rfl)

/-- The reset value at an entry: the f32 zero pattern. -/
theorem prj_pay1_apply (r : Fin 512) (d : Fin 1024) :
    (k2_pay1 (F := Ideal)) (ix2 r d) = Ideal.ofBits .f32 0x00000000#32 := by
  unfold k2_pay1
  rw [shapeCast_self]
  rfl

/-- The accumulation step at an entry: the accumulator there plus the sum over the head dimension of the products. -/
theorem prj_pay2_apply (v3 : Vec Ideal S1x1x512x64 .bf16) (v5 : Vec Ideal S1x1024x64 .bf16) (v8 : Vec Ideal S512x1024 .f32)
    (r : Fin 512) (d : Fin 1024) :
    k2_pay2 v3 v5 v8 (ix2 r d) = v8 (ix2 r d) + ∑ e : Fin 64, v3 (ix4 0 0 r e) * v5 (ix3 0 d e) := by
  unfold k2_pay2
  rw [shapeCast_self]
  refine congrArg (v8 (ix2 r d) + ·) ?_
  refine (Ideal.matmul_constant_zero_apply D2 none _ _ (ix2 r d)).trans ?_
  refine (σ2.symm.sum_comp _).symm.trans ?_
  refine Finset.sum_congr rfl fun e _ => ?_
  rw [D2_lhsIdx, D2_rhsIdx]
  exact congrArg₂ (· * ·) (shapeCast_11ab_ab_apply v3 _ r e) (shapeCast_1ab_ab_apply v5 _ d e)

/-- The output store at an entry: the accumulator there plus the bias entry of its column. -/
theorem prj_pay3_apply (v16 : Vec Ideal S1024 .f32) (v18 : Vec Ideal S512x1024 .f32) (r : Fin 512) (d : Fin 1024) :
    k2_pay3 v16 v18 (ix2 r d) = v18 (ix2 r d) + v16 (ix1 d) := by
  unfold k2_pay3
  refine congrArg (v18 (ix2 r d) + ·) ?_
  exact (broadcastTo_1b_ab_apply _ _ r d).trans (shapeCast_a_1a_apply v16 _ 0 d)

/-! ## The arrays' entries the region reads, and the per-head partial product -/

variable (V : (c : Dev nD) → (b : Ref sig .tc) → Buf (Elt Ideal) ((c : Thread nD τ).loc b))

theorem tlt (t : Fin cfg2.N) : t.val < 128 := lt_of_lt_of_eq t.isLt (show cfg2.N = 128 from N_2)

/-- The row tile and the head of a grid point: `t = 16 * i + h`. -/
abbrev iOf (t : Fin cfg2.N) : Fin 8 := ⟨t.val / 16, by have := tlt t; omega⟩
abbrev hOf (t : Fin cfg2.N) : Fin 16 := ⟨t.val % 16, Nat.mod_lt _ (by decide)⟩

/-- The attention output the region reads for row `r` of row tile `i`, head `h`, head coordinate `e`:
    entry `(i / 4, h, 512 * (i % 4) + r, e)` of the `[2, 16, 2048, 64]` array. -/
def oAt (c : Dev nD) (i : Fin 8) (r : Fin 512) (h : Fin 16) (e : Fin 64) : EReal :=
  (V c main_v10 : S2x16x2048x64.Idx → Ideal .bf16)
    (ix4 (⟨i.val / 4, by omega⟩ : Fin 2) h (⟨512 * (i.val % 4) + r.val, by omega⟩ : Fin 2048) e)

/-- The head's weight slice at output column `d`: entry `(h, d, e)` of the `[16, 1024, 64]` array. -/
def wAt (c : Dev nD) (d : Fin 1024) (h : Fin 16) (e : Fin 64) : EReal :=
  (V c main_v4 : S16x1024x64.Idx → Ideal .bf16) (ix3 h d e)

/-- The bias at output column `d`. -/
def biasAt (c : Dev nD) (d : Fin 1024) : EReal := (V c main_arg4 : S1024.Idx → Ideal .f32) (ix1 d)

/-- Head `h`'s partial product at entry `(r, d)` of row tile `i`. -/
def pAt (c : Dev nD) (i : Fin 8) (r : Fin 512) (d : Fin 1024) : Fin 16 → EReal :=
  fun h => ∑ e : Fin 64, oAt V c i r h e * wAt V c d h e

/-! ## The windows' block indices, decided over the grid -/

theorem idx2_0 : ∀ t : Fin cfg2.N, win2_0.index t 0 = t.val / 64 ∧ win2_0.index t 1 = t.val % 16 ∧ win2_0.index t 2 = t.val / 16 % 4 ∧ win2_0.index t 3 = 0 :=
  (by decide +kernel : ∀ t : Fin grid2.N, win2_0.index t 0 = t.val / 64 ∧ win2_0.index t 1 = t.val % 16 ∧ win2_0.index t 2 = t.val / 16 % 4 ∧ win2_0.index t 3 = 0)
theorem idx2_1 : ∀ t : Fin cfg2.N, win2_1.index t 0 = t.val % 16 ∧ win2_1.index t 1 = 0 ∧ win2_1.index t 2 = 0 :=
  (by decide +kernel : ∀ t : Fin grid2.N, win2_1.index t 0 = t.val % 16 ∧ win2_1.index t 1 = 0 ∧ win2_1.index t 2 = 0)
theorem idx2_2 : ∀ t : Fin cfg2.N, win2_2.index t 0 = 0 :=
  (by decide +kernel : ∀ t : Fin grid2.N, win2_2.index t 0 = 0)
theorem idx2_3 : ∀ t : Fin cfg2.N, win2_3.index t 0 = t.val / 16 ∧ win2_3.index t 1 = 0 :=
  (by decide +kernel : ∀ t : Fin grid2.N, win2_3.index t 0 = t.val / 16 ∧ win2_3.index t 1 = 0)

/-! ## The input blocks at an entry -/

/-- The attention output block at point `t` is rows `512 * (i % 4) …` of batch `i / 4`, head `h`. -/
theorem iblk0_apply (c : Dev nD) (t : Fin cfg2.N) (r : Fin 512) (e : Fin 64) :
    (iblk2 V c 0 t : Vec Ideal S1x1x512x64 .bf16) (ix4 0 0 r e) = oAt V c (iOf t) r (hOf t) e := by
  obtain ⟨h0, h1, h2, h3⟩ := idx2_0 t
  have hN := tlt t
  unfold iblk2 oAt
  rw [View.read_apply]
  show V c main_v10 _ = V c main_v10 _
  congr 1
  funext a
  apply Fin.ext
  match a with
  | ⟨0, _⟩ => show win2_0.index t 0 * 1 + 1 * 0 = t.val / 16 / 4; rw [h0]; omega
  | ⟨1, _⟩ => show win2_0.index t 1 * 1 + 1 * 0 = t.val % 16; rw [h1]; omega
  | ⟨2, _⟩ => show win2_0.index t 2 * 512 + 1 * r.val = 512 * (t.val / 16 % 4) + r.val; rw [h2]; omega
  | ⟨3, _⟩ => show win2_0.index t 3 * 64 + 1 * e.val = e.val; rw [h3]; omega

/-- The weight block at point `t` is head `h`'s slice. -/
theorem iblk1_apply (c : Dev nD) (t : Fin cfg2.N) (d : Fin 1024) (e : Fin 64) :
    (iblk2 V c 1 t : Vec Ideal S1x1024x64 .bf16) (ix3 0 d e) = wAt V c d (hOf t) e := by
  obtain ⟨h0, h1, h2⟩ := idx2_1 t
  unfold iblk2 wAt
  rw [View.read_apply]
  show V c main_v4 _ = V c main_v4 _
  congr 1
  funext a
  apply Fin.ext
  match a with
  | ⟨0, _⟩ => show win2_1.index t 0 * 1 + 1 * 0 = t.val % 16; rw [h0]; omega
  | ⟨1, _⟩ => show win2_1.index t 1 * 1024 + 1 * d.val = d.val; rw [h1]; omega
  | ⟨2, _⟩ => show win2_1.index t 2 * 64 + 1 * e.val = e.val; rw [h2]; omega

/-- The bias block is the whole bias. -/
theorem iblk2_apply (c : Dev nD) (t : Fin cfg2.N) (d : Fin 1024) :
    (iblk2 V c 2 t : Vec Ideal S1024 .f32) (ix1 d) = biasAt V c d := by
  have h0 := idx2_2 t
  unfold iblk2 biasAt
  rw [View.read_apply]
  show V c main_arg4 _ = V c main_arg4 _
  congr 1
  funext a
  apply Fin.ext
  match a with
  | ⟨0, _⟩ => show win2_2.index t 0 * 1024 + 1 * d.val = d.val; rw [h0]; omega

/-- The point's partial product at an entry: head `h`'s, of row tile `i`. -/
theorem step_entry (c : Dev nD) (t : Fin cfg2.N) (r : Fin 512) (d : Fin 1024) (x0 : S1x1x512x64.Idx → EReal) (x1 : S1x1024x64.Idx → EReal)
    (h0 : x0 = iblk2 V c 0 t) (h1 : x1 = iblk2 V c 1 t) :
    (∑ e : Fin 64, x0 (ix4 0 0 r e) * x1 (ix3 0 d e)) = pAt V c (iOf t) r d (hOf t) := by
  subst h0 h1
  exact
  Finset.sum_congr rfl fun e _ => congrArg₂ (· * ·) (iblk0_apply V c t r e) (iblk1_apply V c t d e)

/-! ## The accumulator after each point -/

/-- At a first head's point the accumulator ends at the zero reset plus head 0's partial product. -/
theorem acc_A (c : Dev nD) (t : Fin cfg2.N) (h0 : t.val % 16 = 0) (r : Fin 512) (d : Fin 1024) :
    ((outsAt2 V c t.val t.isLt).2 : Vec Ideal S512x1024 .f32) (ix2 r d)
      = ProjAccum.partialAcc (pAt V c (iOf t) r d) (t.val % 16) := by
  have h1 : ¬t.val % 16 = 15 := by omega
  rw [outsAt2_A V c t h0 h1]
  dsimp only
  rw [soutA_eq, prj_pay2_apply, prj_pay1_apply]
  refine (congrArg (Ideal.ofBits .f32 0x00000000#32 + ·) (step_entry V c t r d _ _ rfl rfl)).trans ?_
  rw [show hOf t = (0 : Fin 16) from Fin.ext h0, h0, ProjAccum.partialAcc_zero]

/-- At a later head's point the accumulator ends at what the point before left plus the head's partial product. -/
theorem acc_step (c : Dev nD) (t : Fin cfg2.N) (h0 : ¬t.val % 16 = 0) (r : Fin 512) (d : Fin 1024) :
    ((outsAt2 V c t.val t.isLt).2 : Vec Ideal S512x1024 .f32) (ix2 r d)
      = ((outsAt2 V c (t.val - 1) (Nat.lt_of_le_of_lt (Nat.sub_le _ _) t.isLt)).2 : Vec Ideal S512x1024 .f32) (ix2 r d)
        + pAt V c (iOf t) r d (hOf t) := by
  by_cases h1 : t.val % 16 = 15
  · rw [outsAt2_C V c t h0 h1]
    dsimp only
    rw [soutC_eq, prj_pay2_apply]
    exact congrArg (_ + ·) (step_entry V c t r d _ _ rfl rfl)
  · rw [outsAt2_B V c t h0 h1]
    dsimp only
    rw [soutB_eq, prj_pay2_apply]
    exact congrArg (_ + ·) (step_entry V c t r d _ _ rfl rfl)

/-- THE INVARIANT: after the point of head `h` of row tile `i` the accumulator holds, at every entry, the
    accumulation of the partial products of heads `0 … h` from the zero reset. -/
theorem acc_inv (c : Dev nD) : ∀ (n : ℕ) (t : Fin cfg2.N), t.val = n → ∀ (r : Fin 512) (d : Fin 1024),
    ((outsAt2 V c t.val t.isLt).2 : Vec Ideal S512x1024 .f32) (ix2 r d)
      = ProjAccum.partialAcc (pAt V c (iOf t) r d) (t.val % 16) := by
  intro n
  induction n with
  | zero => intro t ht r d; exact acc_A V c t (by omega) r d
  | succ n ih =>
    intro t ht r d
    by_cases h0 : t.val % 16 = 0
    · exact acc_A V c t h0 r d
    · have hN := tlt t
      have hlt : n < cfg2.N := by rw [show cfg2.N = 128 from N_2]; omega
      have e1 : t.val - 1 = n := by omega
      have hi : iOf ⟨n, hlt⟩ = iOf t := Fin.ext (by show n / 16 = t.val / 16; omega)
      have hprev : ((outsAt2 V c n hlt).2 : Vec Ideal S512x1024 .f32) (ix2 r d)
          = ProjAccum.partialAcc (pAt V c (iOf ⟨n, hlt⟩) r d) (n % 16) := ih ⟨n, hlt⟩ rfl r d
      rw [hi] at hprev
      have hm : t.val % 16 = n % 16 + 1 := by omega
      have hh : n % 16 + 1 < 16 := by omega
      rw [acc_step V c t h0 r d]
      simp only [e1]
      rw [hprev, show hOf t = (⟨n % 16 + 1, hh⟩ : Fin 16) from Fin.ext hm, hm]
      exact (ProjAccum.partialAcc_succ _ _ hh).symm

/-- At a last head's point the output block holds, at every entry, the full accumulation plus the bias. -/
theorem out_entry (c : Dev nD) (t : Fin cfg2.N) (h1 : t.val % 16 = 15) (r : Fin 512) (d : Fin 1024) :
    ((outsAt2 V c t.val t.isLt).1 : Vec Ideal S512x1024 .f32) (ix2 r d)
      = ProjAccum.out (pAt V c (iOf t) r d) (biasAt V c d) := by
  have h0 : ¬t.val % 16 = 0 := by omega
  have hacc := acc_inv V c t.val t rfl r d
  rw [outsAt2_C V c t h0 h1] at hacc ⊢
  dsimp only at hacc ⊢
  rw [soutC_eq] at hacc
  rw [outC_eq, prj_pay3_apply, hacc, iblk2_apply, h1]
  rfl

/-! ## The result array -/

/-- The result entry at row `row` (of the 4096) and column `d`: row `row % 512` of row tile `row / 512`. -/
def resultAt (c : Dev nD) (row : Fin 4096) (d : Fin 1024) : EReal :=
  ProjAccum.out (pAt V c (⟨row.val / 512, by omega⟩ : Fin 8) (⟨row.val % 512, Nat.mod_lt _ (by decide)⟩ : Fin 512) d) (biasAt V c d)

/-- The same from the row tile and the row within it. -/
theorem resultAt_of (c : Dev nD) (row : Fin 4096) (d' : Fin 1024) (i : Fin 8) (r : Fin 512) (d : Fin 1024)
    (hrow : row.val = 512 * i.val + r.val) (hd : d'.val = d.val) :
    resultAt V c row d' = ProjAccum.out (pAt V c i r d) (biasAt V c d) := by
  obtain rfl : d' = d := Fin.ext hd
  have hi : (⟨row.val / 512, by omega⟩ : Fin 8) = i := Fin.ext (by show row.val / 512 = i.val; omega)
  have hr : (⟨row.val % 512, Nat.mod_lt _ (by decide)⟩ : Fin 512) = r := Fin.ext (by show row.val % 512 = r.val; omega)
  unfold resultAt
  rw [hi, hr]

/-- The whole `[4096, 1024]` result. -/
def result (c : Dev nD) : Buf (Elt Ideal) ((c : Thread nD τ).loc main_v11) :=
  fun j : S4096x1024.Idx => resultAt V c (j 0) (j 1)

/-- Two functions of a rank-2 index that agree at every pair of coordinates are equal. -/
theorem funext_ix2 {α : Type} {n0 n1 : ℕ} (f g : (⟨2, ![n0, n1]⟩ : Shape).Idx → α) (h : ∀ a b, f (ix2 a b) = g (ix2 a b)) : f = g :=
  funext fun j => by rw [eq_ix2 j]; exact h _ _

/-- Each write-back (at a last head's point) writes the result's block. -/
theorem flushed_eq2 (c : Dev nD) (t : Fin cfg2.N) (hf : (cfg2.win 3).flush t = true) :
    (dat2 V c).flushed 3 t = ((cfg2.win 3).blk t).view.read (Elt Ideal) (result V c) := by
  have h1 : t.val % 16 = 15 := (flush2_3 t).mp hf
  obtain ⟨hi0, hi1⟩ := idx2_3 t
  have hN := tlt t
  show (cfg2.win 3).cut (grid2.coords t) ((dat2 V c).after 3 t) = _
  rw [after2_3]
  refine funext_ix2 (n0 := 512) (n1 := 1024) _ _ fun r d => ?_
  refine (out_entry V c t h1 r d).trans ?_
  rw [View.read_apply]
  show _ = resultAt V c _ _
  refine (resultAt_of V c _ _ (iOf t) r d ?_ ?_).symm
  · show win2_3.index t 0 * 512 + 1 * r.val = 512 * (t.val / 16) + r.val
    rw [hi0]; omega
  · show win2_3.index t 1 * 1024 + 1 * d.val = d.val
    rw [hi1]; omega

/-- The block sizes of the output window's transfers: the whole block at every point. -/
theorem xsize2_3 : ∀ t : Fin cfg2.N, win2_3.xsize (grid2.coords t) 0 = 512 ∧ win2_3.xsize (grid2.coords t) 1 = 1024 :=
  (by decide +kernel : ∀ t : Fin grid2.N, win2_3.xsize (grid2.coords t) 0 = 512 ∧ win2_3.xsize (grid2.coords t) 1 = 1024)

/-- THE RESULT ARRAY after the region: every entry holds the sixteen heads' accumulation plus the bias (the
    last head's point of each row tile writes the tile's rows back, and these eight blocks cover the array). -/
theorem final2 (c : Dev nD) : (dat2 V c).arrAt 3 cfg2.N = result V c :=
  (dat2 V c).arrAt_eq_of_cover 3 (result V c) (flushed_eq2 V c) fun i => by
    have h0 : (i 0 : Nat) < 4096 := (i 0).isLt
    have h1 : (i 1 : Nat) < 1024 := (i 1).isLt
    have hlt : 16 * ((i 0 : Nat) / 512) + 15 < cfg2.N := by rw [show cfg2.N = 128 from N_2]; omega
    refine ⟨⟨16 * ((i 0 : Nat) / 512) + 15, hlt⟩, (flush2_3 _).mpr (by show (16 * ((i 0 : Nat) / 512) + 15) % 16 = 15; omega), ?_⟩
    obtain ⟨hi0, hi1⟩ := idx2_3 ⟨16 * ((i 0 : Nat) / 512) + 15, hlt⟩
    obtain ⟨hx0, hx1⟩ := xsize2_3 ⟨16 * ((i 0 : Nat) / 512) + 15, hlt⟩
    show i ∈ ((View.whole main_v11).slice (win2_3.rect ⟨16 * ((i 0 : Nat) / 512) + 15, hlt⟩)).set
    rw [View.set_slice_whole, Rect.mem_set_unit]
    intro a
    match a with
    | ⟨0, _⟩ =>
      show win2_3.index ⟨16 * ((i 0 : Nat) / 512) + 15, hlt⟩ 0 * win2_3.size 0 ≤ (i 0 : Nat) ∧ (i 0 : Nat) < win2_3.index ⟨16 * ((i 0 : Nat) / 512) + 15, hlt⟩ 0 * win2_3.size 0 + win2_3.xsize (grid2.coords ⟨16 * ((i 0 : Nat) / 512) + 15, hlt⟩) 0
      rw [hi0, hx0, show win2_3.size 0 = 512 from rfl]
      show (16 * ((i 0 : Nat) / 512) + 15) / 16 * 512 ≤ (i 0 : Nat) ∧ (i 0 : Nat) < (16 * ((i 0 : Nat) / 512) + 15) / 16 * 512 + 512
      omega
    | ⟨1, _⟩ =>
      show win2_3.index ⟨16 * ((i 0 : Nat) / 512) + 15, hlt⟩ 1 * win2_3.size 1 ≤ (i 1 : Nat) ∧ (i 1 : Nat) < win2_3.index ⟨16 * ((i 0 : Nat) / 512) + 15, hlt⟩ 1 * win2_3.size 1 + win2_3.xsize (grid2.coords ⟨16 * ((i 0 : Nat) / 512) + 15, hlt⟩) 1
      rw [hi1, hx1]
      omega

/-- The same at an entry: row `row` of the 4096, column `d`. -/
theorem final2_apply (c : Dev nD) (row : Fin 4096) (d : Fin 1024) :
    ((dat2 V c).arrAt 3 cfg2.N : S4096x1024.Idx → EReal) (ix2 row d)
      = ProjAccum.out (pAt V c (⟨row.val / 512, by omega⟩ : Fin 8) (⟨row.val % 512, Nat.mod_lt _ (by decide)⟩ : Fin 512) d) (biasAt V c d) := by
  rw [final2]
  rfl

end AtIdeal

end Cert.KernelIdeal.Rgn

end
-- ==== Proof.ComposeProj.lean ====
/-
  The result of the attention program at the extended reals: entry (b, n, d) of the last buffer is the specification's
  result of the launch arguments. The last pallas_call leaves, at row 2048·b + n and column d, the bias plus the
  sixteen head terms ∑ₑ o[b, h, n, e] · w_h[h, d, e] accumulated in order; o is the attention call's output viewed as
  [2, 16, 2048, 64], whose entries are the specification's attention entries, and w_h[h, d, e] = proj_w[d, 64·h + e]. The
  accumulation in order is the one sum over the 1024 columns (a regrouping, no finiteness), which is the reference's
  last contraction.
-/
import proofs.«179285_j61787399520573_2_alg».proof.Proof.ComposeAttn
import proofs.«179285_j61787399520573_2_alg».proof.Proof.Region2Value

set_option maxRecDepth 16384

noncomputable section

namespace Cert.KernelIdeal.Rgn

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Row 2048·b + n lies in row tile 4·b + n / 512 at row n % 512 of the tile; the tile's batch is b and its rows start
    at 512·(n / 512). -/
theorem oAt_row (c : Dev nD) (b : Fin 2) (n : Fin 2048) (h : Fin 16) (e : Fin 64) :
    oAt (V5 m ρ) c (⟨(rowIx b n).val / 512, by have := (rowIx b n).isLt; omega⟩ : Fin 8) (⟨(rowIx b n).val % 512, Nat.mod_lt _ (by omega)⟩ : Fin 512) h e
      = (W5 m ρ c (Proc.devRef .tc main_v10) : S2x16x2048x64.Idx → EReal) (ix4 b h n e) := by
  unfold oAt
  have hb : (rowIx b n).val = 2048 * b.val + n.val := rfl
  have e1 : (⟨(⟨(rowIx b n).val / 512, by have := (rowIx b n).isLt; omega⟩ : Fin 8).val / 4, by have := b.isLt; have := n.isLt; omega⟩ : Fin 2) = b := by
    apply Fin.ext; show (2048 * b.val + n.val) / 512 / 4 = b.val; have := b.isLt; have := n.isLt; omega
  have e2 : (⟨512 * ((⟨(rowIx b n).val / 512, by have := (rowIx b n).isLt; omega⟩ : Fin 8).val % 4) + (⟨(rowIx b n).val % 512, Nat.mod_lt _ (by omega)⟩ : Fin 512).val, by have := b.isLt; have := n.isLt; omega⟩ : Fin 2048) = n := by
    apply Fin.ext; show 512 * ((2048 * b.val + n.val) / 512 % 4) + (2048 * b.val + n.val) % 512 = n.val; have := b.isLt; have := n.isLt; omega
  exact congrArg₂ (fun (p : Fin 2) (q : Fin 2048) => (V5 m ρ c main_v10 : S2x16x2048x64.Idx → EReal) (ix4 p h q e)) e1 e2

/-- THE KERNEL'S RESULT. Under real-valued x, qkv_w and qkv_b, entry (b, n, d) of the program's result is the
    specification's. Finiteness enters only through the attention rows (the softmax quotient against the online
    recurrence); the two projections need none. -/
theorem kernel_result (c : Dev nD)
    (hx : ∀ b n k, ∃ r : ℝ, xA m c b n k = (r : EReal)) (hw : ∀ r k, ∃ t : ℝ, wA m c r k = (t : EReal)) (hb : ∀ r, ∃ t : ℝ, bA m c r = (t : EReal))
    (b : Fin 2) (n : Fin 2048) (d : Fin 1024) :
    (W7 m ρ c (Proc.devRef .tc main_v12) : S2x2048x1024.Idx → EReal) (ix3 b n d)
      = Cert.AttnSpec.result (xA m c) (wA m c) (bA m c) (pwA m c) (pbA m c) b n d := by
  have h1 : W6 m ρ c (Proc.devRef .tc main_v11) = (dat2 (V5 m ρ) c).arrAt 3 cfg2.N := W6_arr m ρ c 3
  rw [W7_v12_apply, h1, final2_apply, ← Cert.AttnLaw.projAccum_out_eq_result]
  refine congrArg₂ Cert.ProjAccum.out (funext fun h => ?_) ?_
  · unfold pAt
    refine Finset.sum_congr rfl fun e _ => congrArg₂ (· * ·) ?_ ?_
    · exact (oAt_row m ρ c b n h e).trans ((W5_v10_apply m ρ c b h n e).trans (W4_v9_apply m ρ c hx hw hb b h n e))
    · unfold wAt pwA
      exact (congrFun (W5_v4 m ρ c) (ix3 h d e)).trans (W1_v4_apply ρ m c h d e)
  · unfold biasAt pbA
    exact congrFun (W5_arg4 m ρ c) (ix1 d)

end Cert.KernelIdeal.Rgn

end
-- ==== Proof.lean ====
/-
  Multi-head attention over x : [2, 2048, 1024] (16 heads of 64): the Pallas program — a QKV projection that writes q, k,
  v directly as [2, 16, 2048, 64], a flash attention that walks the 2048 keys of each (batch, head, query tile) in two
  tiles of 1024 with the online softmax (a running maximum m, a running sum l and a running accumulator, rescaled by
  exp(m_old − m_new) when the maximum moves, and acc / l at the last tile), and an output projection accumulated head by
  head — against the plain reference  softmax(q·kᵀ / 8)·v  followed by the projection.

  At the extended reals the two programs compute one function of the five arguments. The first call's entries are
  (∑ₖ x·w) + b on both sides (a change of float format is the identity, the host's re-layings are index arithmetic).
  The scale is the same word 1/8 on both sides. For real-valued x, qkv_w, qkv_b the scores are real, the online row over
  two tiles telescopes — exp(a)·exp(b) = exp(a + b), and exp(−∞ − m) = 0 kills the zeroed start values — to
  (∑ₖ e^{sₖ − M} vₖ) / (∑ₖ e^{sₖ − M}), which is ∑ₖ (e^{sₖ − M} / ∑ e^{s − M}) vₖ since the denominator is a positive
  real: this is where finiteness of the inputs is used, and the only place. The last call's sixteen head terms added in
  order onto a zero start are the one sum over the 1024 columns (a regrouping of a finite sum), plus the bias.

  The frames: @main is seven segments, and every weakly fair execution runs them to the end without a fault; no host
  operation writes an argument and a pallas_call reads one only through an input window, so the arguments end as
  launched. The argument is generic in the float instance, so it holds of the word-level program and of its idealization
  alike; the idealization's ledger is empty.
-/
import proofs.«179285_j61787399520573_2_alg».proof.Defs
import proofs.«179285_j61787399520573_2_alg».proof.Proof.Gen.Kernel
import proofs.«179285_j61787399520573_2_alg».proof.Proof.Gen.Kernel.Skeleton
import proofs.«179285_j61787399520573_2_alg».proof.Proof.Gen.Kernel.Launch
import proofs.«179285_j61787399520573_2_alg».proof.Proof.Gen.Kernel.Regions
import proofs.«179285_j61787399520573_2_alg».proof.Proof.Gen.Kernel.Points
import proofs.«179285_j61787399520573_2_alg».proof.Proof.Gen.KernelIdeal
import proofs.«179285_j61787399520573_2_alg».proof.Proof.Gen.KernelIdeal.Skeleton
import proofs.«179285_j61787399520573_2_alg».proof.Proof.Gen.KernelIdeal.Launch
import proofs.«179285_j61787399520573_2_alg».proof.Proof.Gen.KernelIdeal.Regions
import proofs.«179285_j61787399520573_2_alg».proof.Proof.Gen.KernelIdeal.Points
import proofs.«179285_j61787399520573_2_alg».proof.Proof.Gen.ReferenceIdeal
import proofs.«179285_j61787399520573_2_alg».proof.Proof.Gen.ReferenceIdeal.Read
import proofs.«179285_j61787399520573_2_alg».proof.Proof.Gen.Pre_finite_inputs
import proofs.«179285_j61787399520573_2_alg».proof.Proof.Claims
import proofs.«179285_j61787399520573_2_alg».proof.Proof.ClaimsK
import proofs.«179285_j61787399520573_2_alg».proof.Proof.ComposeProj
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    AttnClaims.frame_k, AttnClaims.frame_ki, AttnClaims.frame_ri, AttnClaims.preserves,
    AttnClaims.algebraic_of Cert.KernelIdeal.Rgn.kernel_result⟩

end Cert.Proof

end
